-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x2048 : Shape := ⟨2, ![4, 2048]⟩
abbrev S1000000x128 : Shape := ⟨2, ![1000000, 128]⟩
abbrev S2048x128 : Shape := ⟨2, ![2048, 128]⟩
abbrev S2x128 : Shape := ⟨2, ![2, 128]⟩
abbrev S128 : Shape := ⟨1, ![128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S4x2048 : S_.BroadcastsInDim S4x2048 (![] : Fin 0 → Fin S4x2048.rank)
  reducesTo_S4x2048_S_d0_1 : S4x2048.ReducesTo [0, 1] S_

variable [Facts]

def fn_part1 {F : FTy → Type} [FloatOps F] (main_arg0 : IVec S4x2048 32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S4x2048 32 := broadcastInDim S4x2048 ![] bcast_S_S4x2048 main_c_8
  let main_v25 : IVec S4x2048 1 := cmpi .sge main_arg0 main_v24
  let main_c_9 : IVec S_ 32 := constantI S_ 32 999999#32
  let main_v26 : IVec S4x2048 32 := broadcastInDim S4x2048 ![] bcast_S_S4x2048 main_c_9
  let main_v27 : IVec S4x2048 1 := cmpi .sle main_arg0 main_v26
  let main_v28 : IVec S4x2048 1 := andi main_v25 main_v27
  let main_c_10 : IVec S_ 1 := constantI S_ 1 1#1
  let main_v29 : IVec S_ 1 := (fun x v => Host.reduce IntOp.andi x v reducesTo_S4x2048_S_d0_1 h_S_) main_v28 main_c_10
  let main_v30 : IVec S_ 1 := andi main_v23 main_v29
  main_v30

def fn {F : FTy → Type} [FloatOps F] (main_arg0 : IVec S4x2048 32) (main_arg1 : FVec F S1000000x128 .f32) (main_arg2 : FVec F S2048x128 .f32) (main_arg3 : FVec F S2x128 .f32) (main_arg4 : FVec F S128 .f32) (main_arg5 : FVec F S128 .f32) : IVec S_ 1 :=
  let main_v0 : FVec F S1000000x128 .f32 := Host.absf main_arg1
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S2048x128 .f32 := Host.absf main_arg2
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg5 main_v13 main_v16
-- ==== Kernel.lean ====
abbrev S4x2048 : Shape := ⟨2, ![4, 2048]⟩
abbrev S1000000x128 : Shape := ⟨2, ![1000000, 128]⟩
abbrev S2048x128 : Shape := ⟨2, ![2048, 128]⟩
abbrev S2x128 : Shape := ⟨2, ![2, 128]⟩
abbrev S128 : Shape := ⟨1, ![128]⟩
abbrev S4x2048x128 : Shape := ⟨3, ![4, 2048, 128]⟩
abbrev S256 : Shape := ⟨1, ![256]⟩
abbrev S256x128 : Shape := ⟨2, ![256, 128]⟩
abbrev S2 : Shape := ⟨1, ![2]⟩
abbrev S_ : Shape := ⟨0, ![]⟩
abbrev S1x128 : Shape := ⟨2, ![1, 128]⟩
abbrev S128x128 : Shape := ⟨2, ![128, 128]⟩
abbrev S1 : Shape := ⟨1, ![1]⟩
abbrev S1x128x128 : Shape := ⟨3, ![1, 128, 128]⟩
abbrev S1x1x128 : Shape := ⟨3, ![1, 1, 128]⟩
abbrev S1x2048x128 : Shape := ⟨3, ![1, 2048, 128]⟩
abbrev S1x2x128 : Shape := ⟨3, ![1, 2, 128]⟩
abbrev S2x2048x128 : Shape := ⟨3, ![2, 2048, 128]⟩
abbrev S2x2048 : Shape := ⟨2, ![2, 2048]⟩
abbrev S2x2048x1 : Shape := ⟨3, ![2, 2048, 1]⟩

abbrev nBuf : Table → Nat
  | .hbm => 12
  | .local .tc .vmem => 8
  | .local .scVector .vmem => 2
  | _ => 0

abbrev bufTy : (tb : Table) → Fin (nBuf tb) → BufTy
  | .hbm, ⟨0, _⟩ => ⟨S4x2048, .i32⟩
  | .hbm, ⟨1, _⟩ => ⟨S1000000x128, .f32⟩
  | .hbm, ⟨2, _⟩ => ⟨S2048x128, .f32⟩
  | .hbm, ⟨3, _⟩ => ⟨S2x128, .f32⟩
  | .hbm, ⟨4, _⟩ => ⟨S128, .f32⟩
  | .hbm, ⟨5, _⟩ => ⟨S128, .f32⟩
  | .hbm, ⟨6, _⟩ => ⟨S4x2048x128, .f32⟩
  | .hbm, ⟨7, _⟩ => ⟨S1x1x128, .f32⟩
  | .hbm, ⟨8, _⟩ => ⟨S1x1x128, .f32⟩
  | .hbm, ⟨9, _⟩ => ⟨S1x2048x128, .f32⟩
  | .hbm, ⟨10, _⟩ => ⟨S1x2x128, .f32⟩
  | .hbm, ⟨11, _⟩ => ⟨S4x2048x128, .f32⟩
  | .local .tc .vmem, ⟨0, _⟩ => ⟨S2x2048x128, .f32⟩
  | .local .tc .vmem, ⟨1, _⟩ => ⟨S2x2048x128, .f32⟩
  | .local .tc .vmem, ⟨2, _⟩ => ⟨S1x2048x128, .f32⟩
  | .local .tc .vmem, ⟨3, _⟩ => ⟨S1x2x128, .f32⟩
  | .local .tc .vmem, ⟨4, _⟩ => ⟨S1x1x128, .f32⟩
  | .local .tc .vmem, ⟨5, _⟩ => ⟨S1x1x128, .f32⟩
  | .local .tc .vmem, ⟨6, _⟩ => ⟨S2x2048x128, .f32⟩
  | .local .tc .vmem, ⟨7, _⟩ => ⟨S2x2048x128, .f32⟩
  | .local .scVector .vmem, ⟨0, _⟩ => ⟨S256, .i32⟩
  | .local .scVector .vmem, ⟨1, _⟩ => ⟨S256x128, .f32⟩
  | _, _ => ⟨S4x2048, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg0_scv : Ref sig .scVector := ⟨.hbm, 0, rfl⟩
abbrev main_arg1_scv : Ref sig .scVector := ⟨.hbm, 1, rfl⟩
abbrev main_v0_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_6 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.remsi v1 c8_i32_4
  let c256_i32_5 : BitVec 32 := 256#32
  let v21 : BitVec 32 := Scalar.muli v20 c256_i32_5
  let v22 : BitVec 32 := Scalar.addi v21 c0_i32_6
  ![v19.toNat, v22.toNat]
def k0_off2 (i : grid0.Coords) (c0_i32_25 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.remsi v1 c8_i32_4
  let c256_i32_5 : BitVec 32 := 256#32
  let v21 : BitVec 32 := Scalar.muli v20 c256_i32_5
  let v39 : BitVec 32 := Scalar.addi v21 c0_i32_25
  let c0_i32_28 : BitVec 32 := 0#32
  ![v19.toNat, v39.toNat, 0]
abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2x2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S256_S128_0 : ∀ a, (![0] : Fin 1 → Nat) a + S128.size a ≤ S256.size a
  squeezes_S1x128_S128 : S1x128.Squeezes S128
  inb_S256x128_S128x128_0_0 : ∀ a, (![0, 0] : Fin 2 → Nat) a + S128x128.size a ≤ S256x128.size a
  inb_S1000000x128_S1000000x128_0_0 : ∀ a, (![0, 0] : Fin 2 → Nat) a + S1000000x128.size a ≤ S1000000x128.size a
  inb_S2_S1_0 : ∀ a, (![0] : Fin 1 → Nat) a + S1.size a ≤ S2.size a
  squeezes_S1_S_ : S1.Squeezes S_
  gathers_S1000000x128_S128x128 : S1000000x128.Gathers 0 S128x128
  inb_S256_S128_128 : ∀ a, (![128] : Fin 1 → Nat) a + S128.size a ≤ S256.size a
  inb_S256x128_S128x128_128_0 : ∀ a, (![128, 0] : Fin 2 → Nat) a + S128x128.size a ≤ S256x128.size a
  inb_S2_S1_1 : ∀ a, (![1] : Fin 1 → Nat) a + S1.size a ≤ S2.size a
  squeezes_S1x128x128_S128x128 : S1x128x128.Squeezes S128x128
  shapeCasts_S128_S1x1x128 : S128.ShapeCasts S1x1x128
  shapeCasts_S2048x128_S1x2048x128 : S2048x128.ShapeCasts S1x2048x128
  shapeCasts_S2x128_S1x2x128 : S2x128.ShapeCasts S1x2x128
  inb_S2x2048x128_S2x2048x128_0_0_0 : ∀ a, (![0, 0, 0] : Fin 3 → Nat) a + S2x2048x128.size a ≤ S2x2048x128.size a
  h_S2x2048x128 : 0 < S2x2048x128.numel
  shapeCasts_S2x2048x128_S2x2048x128 : S2x2048x128.ShapeCasts S2x2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S1x2048x128 : S1x2048x128.ShapeCasts S1x2048x128
  broadcasts_S1x2048x128_S2x2048x128 : S1x2048x128.Broadcasts S2x2048x128
  inb_S1x2x128_S1x1x128_0_0_0 : ∀ a, (![0, 0, 0] : Fin 3 → Nat) a + S1x1x128.size a ≤ S1x2x128.size a
  h_S1x1x128 : 0 < S1x1x128.numel
  shapeCasts_S1x1x128_S1x1x128 : S1x1x128.ShapeCasts S1x1x128
  broadcasts_S1x1x128_S2x2048x128 : S1x1x128.Broadcasts S2x2048x128
  reduces_S2x2048x128_S2x2048 : S2x2048x128.Reduces [2] S2x2048
  shapeCasts_S2x2048_S2x2048x1 : S2x2048.ShapeCasts S2x2048x1
  broadcasts_S2x2048x1_S2x2048x128 : S2x2048x1.Broadcasts S2x2048x128
  inb_S1x1x128_S1x1x128_0_0_0 : ∀ a, (![0, 0, 0] : Fin 3 → Nat) a + S1x1x128.size a ≤ S1x1x128.size a
  hcc0_scratch2 : 0 + S2.numel ≤ 13
  hcc0_scratch3 : 2 + S_.numel ≤ 13
  hcc0_scoped0 : 3 + S_.numel ≤ 13
  hcc0_scoped1 : 4 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (128 * r.val))) a + S1x128.size a ≤ S4x2048.size a
  k0_off2_inb : ∀ i : grid0.Coords, ∀ (r : Fin 2), ∀ a, (k0_off2 i (BitVec.ofNat 32 (128 * r.val))) a + S1x128x128.size a ≤ S4x2048x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x2048x128.size a ≤ S4x2048x128.size a
  hwx1_0 : ∀ i : grid1.Coords, EltTy.bits .f32 = 32 ∨ (Rect.block (s := S4x2048x128) S2x2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S1x2048x128.size a
  hwx1_1 : ∀ i : grid1.Coords, EltTy.bits .f32 = 32 ∨ (Rect.block (s := S1x2048x128) S1x2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2x128.size a ≤ S1x2x128.size a
  hwx1_2 : ∀ i : grid1.Coords, EltTy.bits .f32 = 32 ∨ (Rect.block (s := S1x2x128) S1x2x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S1x1x128.size a
  hwx1_3 : ∀ i : grid1.Coords, EltTy.bits .f32 = 32 ∨ (Rect.block (s := S1x1x128) S1x1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S1x1x128.size a
  hwx1_4 : ∀ i : grid1.Coords, EltTy.bits .f32 = 32 ∨ (Rect.block (s := S1x1x128) S1x1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x2048x128.size a ≤ S4x2048x128.size a
  hwx1_5 : ∀ i : grid1.Coords, EltTy.bits .f32 = 32 ∨ (Rect.block (s := S4x2048x128) S2x2048x128.size (cc1_transform_5 i) (hinb1_5 i)).WholeWords (EltTy.packing .f32)

variable [Facts₀]

abbrev cc0_scratch2 : DmaSems sig S2 := SemArray.consecutive 0 S2 hcc0_scratch2
abbrev cc0_scratch3 : DmaSems sig S_ := SemArray.consecutive 2 S_ hcc0_scratch3
abbrev cc0_scoped0 : DmaSems sig S_ := SemArray.consecutive 3 S_ hcc0_scoped0
abbrev cc0_scoped1 : DmaSems sig S_ := SemArray.consecutive 4 S_ hcc0_scoped1

abbrev win1_0 : Pipeline.Window sig grid1 :=
  Pipeline.Window.ofSpec (Memref.whole main_v0) S2x2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x2048x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S2x2048x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048 : Shape := ⟨2, ![4, 2048]⟩
abbrev S1000000x128 : Shape := ⟨2, ![1000000, 128]⟩
abbrev S2048x128 : Shape := ⟨2, ![2048, 128]⟩
abbrev S2x128 : Shape := ⟨2, ![2, 128]⟩
abbrev S128 : Shape := ⟨1, ![128]⟩
abbrev S2048 : Shape := ⟨1, ![2048]⟩
abbrev S1x2048 : Shape := ⟨2, ![1, 2048]⟩
abbrev S_ : Shape := ⟨0, ![]⟩
abbrev S4x2048x1 : Shape := ⟨3, ![4, 2048, 1]⟩
abbrev S1 : Shape := ⟨1, ![1]⟩
abbrev S1x1x1 : Shape := ⟨3, ![1, 1, 1]⟩
abbrev S4x2048x128 : Shape := ⟨3, ![4, 2048, 128]⟩
abbrev S1x1x128 : Shape := ⟨3, ![1, 1, 128]⟩

abbrev nBuf : Space → Nat
  | .hbm => 111
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S1000000x128, .f32⟩
  | .hbm, ⟨2, _⟩ => ⟨S2048x128, .f32⟩
  | .hbm, ⟨3, _⟩ => ⟨S2x128, .f32⟩
  | .hbm, ⟨4, _⟩ => ⟨S128, .f32⟩
  | .hbm, ⟨5, _⟩ => ⟨S128, .f32⟩
  | .hbm, ⟨6, _⟩ => ⟨S2048, .i32⟩
  | .hbm, ⟨7, _⟩ => ⟨S1x2048, .i32⟩
  | .hbm, ⟨8, _⟩ => ⟨S4x2048, .i32⟩
  | .hbm, ⟨9, _⟩ => ⟨S_, .i32⟩
  | .hbm, ⟨10, _⟩ => ⟨S4x2048, .i32⟩
  | .hbm, ⟨11, _⟩ => ⟨S_, .i32⟩
  | .hbm, ⟨12, _⟩ => ⟨S4x2048, .i32⟩
  | .hbm, ⟨13, _⟩ => ⟨S4x2048, .i1⟩
  | .hbm, ⟨14, _⟩ => ⟨S_, .i32⟩
  | .hbm, ⟨15, _⟩ => ⟨S4x2048, .i32⟩
  | .hbm, ⟨16, _⟩ => ⟨S4x2048, .i32⟩
  | .hbm, ⟨17, _⟩ => ⟨S4x2048, .i32⟩
  | .hbm, ⟨18, _⟩ => ⟨S4x2048x1, .i32⟩
  | .hbm, ⟨19, _⟩ => ⟨S1, .i32⟩
  | .hbm, ⟨20, _⟩ => ⟨S_, .i32⟩
  | .hbm, ⟨21, _⟩ => ⟨S4x2048x1, .i32⟩
  | .hbm, ⟨22, _⟩ => ⟨S4x2048x1, .i1⟩
  | .hbm, ⟨23, _⟩ => ⟨S1x1x1, .i32⟩
  | .hbm, ⟨24, _⟩ => ⟨S4x2048x1, .i32⟩
  | .hbm, ⟨25, _⟩ => ⟨S4x2048x1, .i1⟩
  | .hbm, ⟨26, _⟩ => ⟨S4x2048x1, .i1⟩
  | .hbm, ⟨27, _⟩ => ⟨S_, .i1⟩
  | .hbm, ⟨28, _⟩ => ⟨S4x2048, .i1⟩
  | .hbm, ⟨29, _⟩ => ⟨S4x2048x128, .f32⟩
  | .hbm, ⟨30, _⟩ => ⟨S4x2048x128, .i1⟩
  | .hbm, ⟨31, _⟩ => ⟨S_, .f32⟩
  | .hbm, ⟨32, _⟩ => ⟨S4x2048x128, .f32⟩
  | .hbm, ⟨33, _⟩ => ⟨S4x2048x128, .f32⟩
  | .hbm, ⟨34, _⟩ => ⟨S_, .i32⟩
  | .hbm, ⟨35, _⟩ => ⟨S4x2048, .i32⟩
  | .hbm, ⟨36, _⟩ => ⟨S4x2048, .i1⟩
  | .hbm, ⟨37, _⟩ => ⟨S_, .i32⟩
  | .hbm, ⟨38, _⟩ => ⟨S4x2048, .i32⟩
  | .hbm, ⟨39, _⟩ => ⟨S4x2048, .i32⟩
  | .hbm, ⟨40, _⟩ => ⟨S4x2048, .i32⟩
  | .hbm, ⟨41, _⟩ => ⟨S4x2048x1, .i32⟩
  | .hbm, ⟨42, _⟩ => ⟨S1, .i32⟩
  | .hbm, ⟨43, _⟩ => ⟨S_, .i32⟩
  | .hbm, ⟨44, _⟩ => ⟨S4x2048x1, .i32⟩
  | .hbm, ⟨45, _⟩ => ⟨S4x2048x1, .i1⟩
  | .hbm, ⟨46, _⟩ => ⟨S1x1x1, .i32⟩
  | .hbm, ⟨47, _⟩ => ⟨S4x2048x1, .i32⟩
  | .hbm, ⟨48, _⟩ => ⟨S4x2048x1, .i1⟩
  | .hbm, ⟨49, _⟩ => ⟨S4x2048x1, .i1⟩
  | .hbm, ⟨50, _⟩ => ⟨S_, .i1⟩
  | .hbm, ⟨51, _⟩ => ⟨S4x2048, .i1⟩
  | .hbm, ⟨52, _⟩ => ⟨S4x2048x128, .f32⟩
  | .hbm, ⟨53, _⟩ => ⟨S4x2048x128, .i1⟩
  | .hbm, ⟨54, _⟩ => ⟨S_, .f32⟩
  | .hbm, ⟨55, _⟩ => ⟨S4x2048x128, .f32⟩
  | .hbm, ⟨56, _⟩ => ⟨S4x2048x128, .f32⟩
  | .hbm, ⟨57, _⟩ => ⟨S_, .i32⟩
  | .hbm, ⟨58, _⟩ => ⟨S4x2048, .i32⟩
  | .hbm, ⟨59, _⟩ => ⟨S4x2048, .i1⟩
  | .hbm, ⟨60, _⟩ => ⟨S_, .i32⟩
  | .hbm, ⟨61, _⟩ => ⟨S4x2048, .i32⟩
  | .hbm, ⟨62, _⟩ => ⟨S4x2048, .i32⟩
  | .hbm, ⟨63, _⟩ => ⟨S4x2048, .i32⟩
  | .hbm, ⟨64, _⟩ => ⟨S4x2048x1, .i32⟩
  | .hbm, ⟨65, _⟩ => ⟨S1, .i32⟩
  | .hbm, ⟨66, _⟩ => ⟨S_, .i32⟩
  | .hbm, ⟨67, _⟩ => ⟨S4x2048x1, .i32⟩
  | .hbm, ⟨68, _⟩ => ⟨S4x2048x1, .i1⟩
  | .hbm, ⟨69, _⟩ => ⟨S1x1x1, .i32⟩
  | .hbm, ⟨70, _⟩ => ⟨S4x2048x1, .i32⟩
  | .hbm, ⟨71, _⟩ => ⟨S4x2048x1, .i1⟩
  | .hbm, ⟨72, _⟩ => ⟨S4x2048x1, .i1⟩
  | .hbm, ⟨73, _⟩ => ⟨S_, .i1⟩
  | .hbm, ⟨74, _⟩ => ⟨S4x2048, .i1⟩
  | .hbm, ⟨75, _⟩ => ⟨S4x2048x128, .f32⟩
  | .hbm, ⟨76, _⟩ => ⟨S4x2048x128, .i1⟩
  | .hbm, ⟨77, _⟩ => ⟨S_, .f32⟩
  | .hbm, ⟨78, _⟩ => ⟨S4x2048x128, .f32⟩
  | .hbm, ⟨79, _⟩ => ⟨S4x2048x128, .f32⟩
  | .hbm, ⟨80, _⟩ => ⟨S4x2048x128, .f32⟩
  | .hbm, ⟨81, _⟩ => ⟨S4x2048x128, .f32⟩
  | .hbm, ⟨82, _⟩ => ⟨S_, .f32⟩
  | .hbm, ⟨83, _⟩ => ⟨S4x2048, .f32⟩
  | .hbm, ⟨84, _⟩ => ⟨S4x2048x1, .f32⟩
  | .hbm, ⟨85, _⟩ => ⟨S_, .f32⟩
  | .hbm, ⟨86, _⟩ => ⟨S4x2048x1, .f32⟩
  | .hbm, ⟨87, _⟩ => ⟨S4x2048x1, .f32⟩
  | .hbm, ⟨88, _⟩ => ⟨S4x2048x128, .f32⟩
  | .hbm, ⟨89, _⟩ => ⟨S4x2048x128, .f32⟩
  | .hbm, ⟨90, _⟩ => ⟨S4x2048x128, .f32⟩
  | .hbm, ⟨91, _⟩ => ⟨S_, .f32⟩
  | .hbm, ⟨92, _⟩ => ⟨S4x2048, .f32⟩
  | .hbm, ⟨93, _⟩ => ⟨S4x2048x1, .f32⟩
  | .hbm, ⟨94, _⟩ => ⟨S_, .f32⟩
  | .hbm, ⟨95, _⟩ => ⟨S4x2048x1, .f32⟩
  | .hbm, ⟨96, _⟩ => ⟨S4x2048x1, .f32⟩
  | .hbm, ⟨97, _⟩ => ⟨S4x2048x128, .f32⟩
  | .hbm, ⟨98, _⟩ => ⟨S4x2048x128, .f32⟩
  | .hbm, ⟨99, _⟩ => ⟨S_, .f32⟩
  | .hbm, ⟨100, _⟩ => ⟨S4x2048x1, .f32⟩
  | .hbm, ⟨101, _⟩ => ⟨S4x2048x1, .f32⟩
  | .hbm, ⟨102, _⟩ => ⟨S4x2048x1, .f32⟩
  | .hbm, ⟨103, _⟩ => ⟨S4x2048x128, .f32⟩
  | .hbm, ⟨104, _⟩ => ⟨S4x2048x128, .f32⟩
  | .hbm, ⟨105, _⟩ => ⟨S1x1x128, .f32⟩
  | .hbm, ⟨106, _⟩ => ⟨S4x2048x128, .f32⟩
  | .hbm, ⟨107, _⟩ => ⟨S4x2048x128, .f32⟩
  | .hbm, ⟨108, _⟩ => ⟨S1x1x128, .f32⟩
  | .hbm, ⟨109, _⟩ => ⟨S4x2048x128, .f32⟩
  | .hbm, ⟨110, _⟩ => ⟨S4x2048x128, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v6 : Ref sig .tc := ⟨.hbm, 79, rfl⟩
abbrev main_v7 : Ref sig .tc := ⟨.hbm, 80, rfl⟩
abbrev main_v8 : Ref sig .tc := ⟨.hbm, 81, rfl⟩
abbrev main_cst : Ref sig .tc := ⟨.hbm, 82, rfl⟩
abbrev main_v9 : Ref sig .tc := ⟨.hbm, 83, rfl⟩
abbrev main_v10 : Ref sig .tc := ⟨.hbm, 84, rfl⟩
abbrev main_cst_0 : Ref sig .tc := ⟨.hbm, 85, rfl⟩
abbrev main_v11 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_cst_1 : Ref sig .tc := ⟨.hbm, 91, rfl⟩
abbrev main_v16 : Ref sig .tc := ⟨.hbm, 92, rfl⟩
abbrev main_v17 : Ref sig .tc := ⟨.hbm, 93, rfl⟩
abbrev main_cst_2 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_cst_3 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4x2048_0_1 : S1x2048.BroadcastsInDim S4x2048 (![0, 1] : Fin 2 → Fin S4x2048.rank)
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S1_S1x1x1_2 : S1.BroadcastsInDim S1x1x1 (![2] : Fin 1 → Fin S1x1x1.rank)
  bcast_S1x1x1_S4x2048x1_0_1_2 : S1x1x1.BroadcastsInDim S4x2048x1 (![0, 1, 2] : Fin 3 → Fin S4x2048x1.rank)
  reducesTo_S4x2048x1_S4x2048_d2 : S4x2048x1.ReducesTo [2] S4x2048
  h_S_ : 0 < S_.numel
  bcast_S4x2048_S4x2048x128_0_1 : S4x2048.BroadcastsInDim S4x2048x128 (![0, 1] : Fin 2 → Fin S4x2048x128.rank)
  bcast_S_S4x2048x128 : S_.BroadcastsInDim S4x2048x128 (![] : Fin 0 → Fin S4x2048x128.rank)
  reducesTo_S4x2048x128_S4x2048_d2 : S4x2048x128.ReducesTo [2] S4x2048
  bcast_S4x2048x1_S4x2048x128_0_1_2 : S4x2048x1.BroadcastsInDim S4x2048x128 (![0, 1, 2] : Fin 3 → Fin S4x2048x128.rank)
  bcast_S128_S1x1x128_2 : S128.BroadcastsInDim S1x1x128 (![2] : Fin 1 → Fin S1x1x128.rank)
  bcast_S1x1x128_S4x2048x128_0_1_2 : S1x1x128.BroadcastsInDim S4x2048x128 (![0, 1, 2] : Fin 3 → Fin S4x2048x128.rank)
  gather_S1000000x128_S4x2048x1_S4x2048x128_2_0_n_n_0_2_1128_wf : GatherDims.WF S1000000x128 S4x2048x1 S4x2048x128 [2] [0] [] [0] [] 2 ![1, 128]
  gather_S2048x128_S4x2048x1_S4x2048x128_2_0_n_n_0_2_1128_wf : GatherDims.WF S2048x128 S4x2048x1 S4x2048x128 [2] [0] [] [0] [] 2 ![1, 128]
  gather_S2x128_S4x2048x1_S4x2048x128_2_0_n_n_0_2_1128_wf : GatherDims.WF S2x128 S4x2048x1 S4x2048x128 [2] [0] [] [0] [] 2 ![1, 128]

variable [Facts₀]

def gather_S1000000x128_S4x2048x1_S4x2048x128_2_0_n_n_0_2_1128 : GatherDims S1000000x128 S4x2048x1 S4x2048x128 where
  offsetDims := [2]
  collapsedSliceDims := [0]
  operandBatchingDims := []
  startIndicesBatchingDims := []
  startIndexMap := [0]
  indexVectorDim := 2
  sliceSizes := ![1, 128]
  wf := gather_S1000000x128_S4x2048x1_S4x2048x128_2_0_n_n_0_2_1128_wf
def gather_S2048x128_S4x2048x1_S4x2048x128_2_0_n_n_0_2_1128 : GatherDims S2048x128 S4x2048x1 S4x2048x128 where
  offsetDims := [2]
  collapsedSliceDims := [0]
  operandBatchingDims := []
  startIndicesBatchingDims := []
  startIndexMap := [0]
  indexVectorDim := 2
  sliceSizes := ![1, 128]
  wf := gather_S2048x128_S4x2048x1_S4x2048x128_2_0_n_n_0_2_1128_wf
def gather_S2x128_S4x2048x1_S4x2048x128_2_0_n_n_0_2_1128 : GatherDims S2x128 S4x2048x1 S4x2048x128 where
  offsetDims := [2]
  collapsedSliceDims := [0]
  operandBatchingDims := []
  startIndicesBatchingDims := []
  startIndexMap := [0]
  indexVectorDim := 2
  sliceSizes := ![1, 128]
  wf := gather_S2x128_S4x2048x1_S4x2048x128_2_0_n_n_0_2_1128_wf

class Facts : Prop extends Facts₀ where

variable [Facts]
-- ==== Proof.Spec.lean ====
/-
  The function both programs compute, stated once over the argument arrays, index by index, on the extended reals.

  For a token at batch row `b` and position `s` the embedding is the sum of three rows of width 128: row `ids[b, s]` of
  the word table, row `s` of the position table, row `0` of the token-type table. The result is that row normalised:
  with `μ` the mean of its 128 entries and `σ²` the mean of the squared deviations,
  `(x k - μ) · (σ² + ε)^(-1/2) · γ k + β k`. The divisor 128 and `ε` are the same binary words in both programs and stay
  unevaluated here.
-/
import Idealize.ShloMosaic.PureOps.Ideal
import Idealize.ShloMosaic.Lib.ValueIdx

noncomputable section

namespace Cert.Spec

open Idealize.ShloMosaic Idealize.ShloMosaic.ValueIdx

/-- The row of the word table a 32-bit index word names (an index past the last row names the last row; under the
    certificate's precondition no index is). -/
def rowOf (w : BitVec 32) : Fin 1000000 := ⟨min w.toNat 999999, by omega⟩

theorem rowOf_val {w : BitVec 32} (h : w.toNat < 1000000) : (rowOf w).val = w.toNat := by
  simp only [rowOf]; omega

/-- The divisor of both means: the word of `128.0`. -/
def c128 : EReal := Ideal.ofBits .f32 0x43000000#32
/-- The stabiliser under the square root: the word of `1e-7` rounded to binary32. -/
def ceps : EReal := Ideal.ofBits .f32 0x33D6BF95#32

/-- The mean of a row of 128 entries: their sum over the word of 128. -/
def mean (x : Fin 128 → EReal) : EReal := Ideal.div (∑ k, x k) c128

/-- A row normalised: deviation from the mean, times the reciprocal root of the mean squared deviation plus `ε`,
    scaled and shifted entrywise. -/
def lnRow (x g b : Fin 128 → EReal) (k : Fin 128) : EReal :=
  (x k - mean x) * Ideal.rsqrt (mean (fun k' => (x k' - mean x) * (x k' - mean x)) + ceps) * g k + b k

/-- The embedding of token `(b, s)`, entry `k`: word row plus position row plus token-type row 0. -/
def emb (ids : (⟨2, ![4, 2048]⟩ : Shape).Idx → BitVec 32) (wt : (⟨2, ![1000000, 128]⟩ : Shape).Idx → EReal)
    (pos : (⟨2, ![2048, 128]⟩ : Shape).Idx → EReal) (tt : (⟨2, ![2, 128]⟩ : Shape).Idx → EReal)
    (b : Fin 4) (s : Fin 2048) (k : Fin 128) : EReal :=
  wt (ix2 (rowOf (ids (ix2 b s))) k) + pos (ix2 s k) + tt (ix2 (0 : Fin 2) k)

/-- The result at coordinates `(b, s, k)`. -/
def out (ids : (⟨2, ![4, 2048]⟩ : Shape).Idx → BitVec 32) (wt : (⟨2, ![1000000, 128]⟩ : Shape).Idx → EReal)
    (pos : (⟨2, ![2048, 128]⟩ : Shape).Idx → EReal) (tt : (⟨2, ![2, 128]⟩ : Shape).Idx → EReal)
    (g be : (⟨1, ![128]⟩ : Shape).Idx → EReal) (b : Fin 4) (s : Fin 2048) (k : Fin 128) : EReal :=
  lnRow (fun k' => emb ids wt pos tt b s k') (fun k' => g (ix1 k')) (fun k' => be (ix1 k')) k

/-- The whole result array as one function of the argument arrays. -/
def G (ids : (⟨2, ![4, 2048]⟩ : Shape).Idx → BitVec 32) (wt : (⟨2, ![1000000, 128]⟩ : Shape).Idx → EReal)
    (pos : (⟨2, ![2048, 128]⟩ : Shape).Idx → EReal) (tt : (⟨2, ![2, 128]⟩ : Shape).Idx → EReal)
    (g be : (⟨1, ![128]⟩ : Shape).Idx → EReal) : (⟨3, ![4, 2048, 128]⟩ : Shape).Idx → EReal :=
  fun j => out ids wt pos tt g be (j 0) (j 1) (j 2)

theorem G_ix3 (ids : (⟨2, ![4, 2048]⟩ : Shape).Idx → BitVec 32) (wt : (⟨2, ![1000000, 128]⟩ : Shape).Idx → EReal)
    (pos : (⟨2, ![2048, 128]⟩ : Shape).Idx → EReal) (tt : (⟨2, ![2, 128]⟩ : Shape).Idx → EReal)
    (g be : (⟨1, ![128]⟩ : Shape).Idx → EReal) (b : Fin 4) (s : Fin 2048) (k : Fin 128) :
    G ids wt pos tt g be (ix3 b s k) = out ids wt pos tt g be b s k := rfl

/-! ## The same function in the reference's arrangement

The reference adds the token-type row before the position row, and divides the deviation by the square root where the
kernel multiplies by the reciprocal root. Addition on the extended reals is commutative and associative, so the first
difference is none; the second is none where the row's entries are real numbers (then the mean squared deviation plus
`ε` is a positive real). -/

/-- A row normalised as the reference does: the deviation over the square root. -/
def refRow (x g b : Fin 128 → EReal) (k : Fin 128) : EReal :=
  Ideal.div (x k - mean x) (Ideal.sqrt (mean (fun k' => (x k' - mean x) * (x k' - mean x)) + ceps)) * g k + b k

/-- The embedding in the reference's order of summands: word row plus token-type row 0, plus position row. -/
def embRef (ids : (⟨2, ![4, 2048]⟩ : Shape).Idx → BitVec 32) (wt : (⟨2, ![1000000, 128]⟩ : Shape).Idx → EReal)
    (pos : (⟨2, ![2048, 128]⟩ : Shape).Idx → EReal) (tt : (⟨2, ![2, 128]⟩ : Shape).Idx → EReal)
    (b : Fin 4) (s : Fin 2048) (k : Fin 128) : EReal :=
  wt (ix2 (rowOf (ids (ix2 b s))) k) + tt (ix2 (0 : Fin 2) k) + pos (ix2 s k)

/-- The reference's result at coordinates `(b, s, k)`. -/
def outRef (ids : (⟨2, ![4, 2048]⟩ : Shape).Idx → BitVec 32) (wt : (⟨2, ![1000000, 128]⟩ : Shape).Idx → EReal)
    (pos : (⟨2, ![2048, 128]⟩ : Shape).Idx → EReal) (tt : (⟨2, ![2, 128]⟩ : Shape).Idx → EReal)
    (g be : (⟨1, ![128]⟩ : Shape).Idx → EReal) (b : Fin 4) (s : Fin 2048) (k : Fin 128) : EReal :=
  refRow (fun k' => embRef ids wt pos tt b s k') (fun k' => g (ix1 k')) (fun k' => be (ix1 k')) k

/-- The reference's whole result array as one function of the argument arrays. -/
def Gref (ids : (⟨2, ![4, 2048]⟩ : Shape).Idx → BitVec 32) (wt : (⟨2, ![1000000, 128]⟩ : Shape).Idx → EReal)
    (pos : (⟨2, ![2048, 128]⟩ : Shape).Idx → EReal) (tt : (⟨2, ![2, 128]⟩ : Shape).Idx → EReal)
    (g be : (⟨1, ![128]⟩ : Shape).Idx → EReal) : (⟨3, ![4, 2048, 128]⟩ : Shape).Idx → EReal :=
  fun j => outRef ids wt pos tt g be (j 0) (j 1) (j 2)

end Cert.Spec

end
-- ==== Proof.ScViews.lean ====
/-
  One vector subcore's task of the row gather. The 8192 tokens are dealt to the 32 vector subcores, 256 consecutive
  tokens each (subcore `(c, s)` has number `2 s + c`); a subcore handles its tokens in two chunks of 128: it copies the
  chunk's index words into its index scratch, gathers the rows of the word table those words name into its row scratch,
  and copies the gathered rows out to the chunk's rows of the result. Each gather completes on a semaphore of its own;
  the two copies out share one, and are both issued and both waited for with nothing touching their buffers between.
-/
import proofs.«203468_g17523466567843_cont_7to1_1283_23_alg».proof.KernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Batch
import Idealize.ShloMosaic.Lib.Tactic
import Idealize.ShloMosaic.Lib.ValueIdx
import proofs.«203468_g17523466567843_cont_7to1_1283_23_alg».proof.Proof.Spec
import proofs.«203468_g17523466567843_cont_7to1_1283_23_alg».proof.Proof.Gen.KernelIdeal
import proofs.«203468_g17523466567843_cont_7to1_1283_23_alg».proof.Proof.Gen.KernelIdeal.Skeleton

noncomputable section

namespace Cert.ScTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

local notation "iV" => (Memref.whole Cert.KernelIdeal.main_arg0_scv : Memref Cert.KernelIdeal.sig Kind.scVector Space.hbm Cert.KernelIdeal.S4x2048 EltTy.i32)
local notation "xV" => (Memref.whole Cert.KernelIdeal.main_arg1_scv : Memref Cert.KernelIdeal.sig Kind.scVector Space.hbm Cert.KernelIdeal.S1000000x128 EltTy.f32)
local notation "oV" => (Memref.whole Cert.KernelIdeal.main_v0_scv : Memref Cert.KernelIdeal.sig Kind.scVector Space.hbm Cert.KernelIdeal.S4x2048x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x128 EltTy.f32)

/-! ## The views a task addresses, spelt as the program spells them -/

section Tile

variable (d : Dev nD) (L : grid0.Coords)

abbrev cV (L : grid0.Coords) : Fin τ.nSC := (L 0).castLE hcore0
abbrev jV (L : grid0.Coords) : Fin τ.nSub := (L 1).castLE hsub0

/-- The two halves of the index scratch. -/
abbrev sCh0 : Memref sig .scVector .vmem S128 .i32 := (sV).slice (Rect.unit (s := S256) ![0] S128.size inb_S256_S128_0) (fun _ => rfl)
abbrev sCh1 : Memref sig .scVector .vmem S128 .i32 := (sV).slice (Rect.unit (s := S256) ![128] S128.size inb_S256_S128_128) (fun _ => rfl)
/-- The two halves of the row scratch. -/
abbrev rCh0 : Memref sig .scVector .vmem S128x128 .f32 := (rV).slice (Rect.unit (s := S256x128) ![0, 0] S128x128.size inb_S256x128_S128x128_0_0) (fun _ => rfl)
abbrev rCh1 : Memref sig .scVector .vmem S128x128 .f32 := (rV).slice (Rect.unit (s := S256x128) ![128, 0] S128x128.size inb_S256x128_S128x128_128_0) (fun _ => rfl)
/-- The subcore's two chunks of index words, and of result rows. -/
abbrev iCh0 (L : grid0.Coords) : Memref sig .scVector .hbm S128 .i32 :=
  ((iV).slice (Rect.unit (s := S4x2048) (k0_off1 L 0#32) S1x128.size (k0_off1_inb L 0)) (fun _ => rfl)).squeeze S128 squeezes_S1x128_S128
abbrev iCh1 (L : grid0.Coords) : Memref sig .scVector .hbm S128 .i32 :=
  ((iV).slice (Rect.unit (s := S4x2048) (k0_off1 L 128#32) S1x128.size (k0_off1_inb L 1)) (fun _ => rfl)).squeeze S128 squeezes_S1x128_S128
abbrev oCh0 (L : grid0.Coords) : Memref sig .scVector .hbm S128x128 .f32 :=
  ((oV).slice (Rect.unit (s := S4x2048x128) (k0_off2 L 0#32) S1x128x128.size (k0_off2_inb L 0)) (fun _ => rfl)).squeeze S128x128 squeezes_S1x128x128_S128x128
abbrev oCh1 (L : grid0.Coords) : Memref sig .scVector .hbm S128x128 .f32 :=
  ((oV).slice (Rect.unit (s := S4x2048x128) (k0_off2 L 128#32) S1x128x128.size (k0_off2_inb L 1)) (fun _ => rfl)).squeeze S128x128 squeezes_S1x128x128_S128x128
/-- The whole word table, as the gather names it. -/
abbrev xAll : Memref sig .scVector .hbm S1000000x128 .f32 :=
  (xV).slice (Rect.unit (s := S1000000x128) ![0, 0] S1000000x128.size inb_S1000000x128_S1000000x128_0_0) (fun _ => rfl)

/-- The semaphores: one per gather, one for the copies out, one per index fetch. -/
abbrev gSem0 : DmaSem sig := ((cc0_scratch2.slice (Rect.unit (s := S2) ![0] S1.size inb_S2_S1_0)).squeeze S_ squeezes_S1_S_).sem
abbrev gSem1 : DmaSem sig := ((cc0_scratch2.slice (Rect.unit (s := S2) ![1] S1.size inb_S2_S1_1)).squeeze S_ squeezes_S1_S_).sem

abbrev cell (d : Dev nD) (L : grid0.Coords) (sm : DmaSem sig) : GSem nD τ sig := (V d (cV L) (jV L), .dma sm)

theorem ownSems0_V :
    (ownSems0 (V d (cV L) (jV L)) : sProp 𝕄)
      = iprop(semVal (cell d L gSem0) 0 ∗ semVal (cell d L gSem1) 0 ∗ semVal (cell d L cc0_scratch3.sem) 0
          ∗ semVal (cell d L cc0_scoped0.sem) 0 ∗ semVal (cell d L cc0_scoped1.sem) 0
          ∗ bigSep (((((ownCells (V d (cV L) (jV L))).erase (cell d L gSem0)).erase (cell d L gSem1)).erase (cell d L cc0_scratch3.sem)).erase (cell d L cc0_scoped0.sem)
              |>.erase (cell d L cc0_scoped1.sem)) fun g => semVal g 0) := by
  unfold SparseCore.Cfg.ownSems0
  have hm : ∀ sm : DmaSem sig, (SemLoc.dma sm : SemLoc sig).isScoped .scVector = true → cell d L sm ∈ ownCells (V d (cV L) (jV L)) :=
    fun sm h => (mem_ownCells (g := cell d L sm)).mpr ⟨rfl, h⟩
  have hne : ∀ a b : DmaSem sig, a ≠ b → cell d L a ≠ cell d L b := fun a b h e => h (by simpa [cell] using e)
  rw [SparseCore.bigSep_erase' (hm gSem0 (by decide)),
    SparseCore.bigSep_erase' (Finset.mem_erase.mpr ⟨hne _ _ (by decide), hm gSem1 (by decide)⟩),
    SparseCore.bigSep_erase' (Finset.mem_erase.mpr ⟨hne _ _ (by decide), Finset.mem_erase.mpr ⟨hne _ _ (by decide), hm cc0_scratch3.sem (by decide)⟩⟩),
    SparseCore.bigSep_erase' (Finset.mem_erase.mpr ⟨hne _ _ (by decide), Finset.mem_erase.mpr ⟨hne _ _ (by decide), Finset.mem_erase.mpr ⟨hne _ _ (by decide), hm cc0_scoped0.sem (by decide)⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), hm cc0_scoped1.sem (by decide)⟩⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

abbrev oSet0 (L : grid0.Coords) : Finset S4x2048x128.Idx := (oCh0 L).view.set
abbrev oSet1 (L : grid0.Coords) : Finset S4x2048x128.Idx := (oCh1 L).view.set

/-! ## The scratch buffers in halves -/

abbrev sR0 : Rect S256 := Rect.unit (s := S256) ![0] S128.size inb_S256_S128_0
abbrev sR1 : Rect S256 := Rect.unit (s := S256) ![128] S128.size inb_S256_S128_128
abbrev rR0 : Rect S256x128 := Rect.unit (s := S256x128) ![0, 0] S128x128.size inb_S256x128_S128x128_0_0
abbrev rR1 : Rect S256x128 := Rect.unit (s := S256x128) ![128, 0] S128x128.size inb_S256x128_S128x128_128_0

theorem sCh0_set : (sCh0).view.set = sR0.set := by
  show ((View.whole (cc0_scratch0 : Ref sig .scVector)).slice sR0).set = _
  rw [View.set_slice]; exact Finset.map_refl
theorem sCh1_set : (sCh1).view.set = sR1.set := by
  show ((View.whole (cc0_scratch0 : Ref sig .scVector)).slice sR1).set = _
  rw [View.set_slice]; exact Finset.map_refl
theorem rCh0_set : (rCh0).view.set = rR0.set := by
  show ((View.whole (cc0_scratch1 : Ref sig .scVector)).slice rR0).set = _
  rw [View.set_slice]; exact Finset.map_refl
theorem rCh1_set : (rCh1).view.set = rR1.set := by
  show ((View.whole (cc0_scratch1 : Ref sig .scVector)).slice rR1).set = _
  rw [View.set_slice]; exact Finset.map_refl

theorem s_disj : Disjoint (sCh0).view.set (sCh1).view.set := by
  rw [sCh0_set, sCh1_set]; exact Rect.unit_disjoint 0 (.inl (by decide))
theorem r_disj : Disjoint (rCh0).view.set (rCh1).view.set := by
  rw [rCh0_set, rCh1_set]; exact Rect.unit_disjoint 0 (.inl (by decide))

theorem s_union : (sCh0).view.set ∪ (sCh1).view.set = Finset.univ := by
  rw [sCh0_set, sCh1_set]
  refine Finset.eq_univ_iff_forall.mpr fun i => Finset.mem_union.mpr ?_
  have hi : (i 0).val < 256 := (i 0).isLt
  by_cases h : (i 0).val < 128
  · exact .inl (Rect.mem_set_unit.mpr (Fin.forall_fin_one.mpr (show (0 : ℕ) ≤ (i 0).val ∧ (i 0).val < 0 + 128 from ⟨Nat.zero_le _, by omega⟩)))
  · exact .inr (Rect.mem_set_unit.mpr (Fin.forall_fin_one.mpr (show (128 : ℕ) ≤ (i 0).val ∧ (i 0).val < 128 + 128 from ⟨by omega, by omega⟩)))

theorem r_union : (rCh0).view.set ∪ (rCh1).view.set = Finset.univ := by
  rw [rCh0_set, rCh1_set]
  refine Finset.eq_univ_iff_forall.mpr fun i => Finset.mem_union.mpr ?_
  have hi : (i 0).val < 256 := (i 0).isLt
  have hk : (i 1).val < 128 := (i 1).isLt
  by_cases h : (i 0).val < 128
  · exact .inl (Rect.mem_set_unit.mpr (Fin.forall_fin_two.mpr
      ⟨show (0 : ℕ) ≤ (i 0).val ∧ (i 0).val < 0 + 128 from ⟨Nat.zero_le _, by omega⟩, show (0 : ℕ) ≤ (i 1).val ∧ (i 1).val < 0 + 128 from ⟨Nat.zero_le _, by omega⟩⟩))
  · exact .inr (Rect.mem_set_unit.mpr (Fin.forall_fin_two.mpr
      ⟨show (128 : ℕ) ≤ (i 0).val ∧ (i 0).val < 128 + 128 from ⟨by omega, by omega⟩, show (0 : ℕ) ≤ (i 1).val ∧ (i 1).val < 0 + 128 from ⟨Nat.zero_le _, by omega⟩⟩))

section Halves
variable (d : Dev nD) (L : grid0.Coords)

/-- The index scratch, whole, is its two halves; -/
theorem s_halves (f : Buf (Elt F) ((V d (cV L) (jV L)).loc cc0_scratch0)) :
    ((V d (cV L) (jV L)).loc cc0_scratch0 ↦{fullShare} f : sProp 𝕄)
      ⊣⊢ iprop(((sCh0).view.loc (V d (cV L) (jV L)) ↦[(sCh0).view.set]{fullShare} f) ∗ ((sCh1).view.loc (V d (cV L) (jV L)) ↦[(sCh1).view.set]{fullShare} f)) := by
  have h : (((V d (cV L) (jV L)).loc cc0_scratch0 ↦[(sCh0).view.set ∪ (sCh1).view.set]{fullShare} f : sProp 𝕄)
      ⊣⊢ iprop(((V d (cV L) (jV L)).loc cc0_scratch0 ↦[(sCh0).view.set]{fullShare} f) ∗ ((V d (cV L) (jV L)).loc cc0_scratch0 ↦[(sCh1).view.set]{fullShare} f))) :=
    pointsTo_union s_disj
  rw [s_union] at h
  exact h
/-- and the row scratch its two. -/
theorem r_halves (f : Buf (Elt F) ((V d (cV L) (jV L)).loc cc0_scratch1)) :
    ((V d (cV L) (jV L)).loc cc0_scratch1 ↦{fullShare} f : sProp 𝕄)
      ⊣⊢ iprop(((rCh0).view.loc (V d (cV L) (jV L)) ↦[(rCh0).view.set]{fullShare} f) ∗ ((rCh1).view.loc (V d (cV L) (jV L)) ↦[(rCh1).view.set]{fullShare} f)) := by
  have h : (((V d (cV L) (jV L)).loc cc0_scratch1 ↦[(rCh0).view.set ∪ (rCh1).view.set]{fullShare} f : sProp 𝕄)
      ⊣⊢ iprop(((V d (cV L) (jV L)).loc cc0_scratch1 ↦[(rCh0).view.set]{fullShare} f) ∗ ((V d (cV L) (jV L)).loc cc0_scratch1 ↦[(rCh1).view.set]{fullShare} f))) :=
    pointsTo_union r_disj
  rw [r_union] at h
  exact h

theorem pts_iV (q : PosShare TreeShare) (f : Buf (Elt F) (iLoc d)) :
    ((iV).view.loc (V d (cV L) (jV L)) ↦{q} f : sProp 𝕄) = iLoc d ↦{q} f := rfl
theorem pts_xV (q : PosShare TreeShare) (f : Buf (Elt F) (xLoc d)) :
    ((xV).view.loc (V d (cV L) (jV L)) ↦{q} f : sProp 𝕄) = xLoc d ↦{q} f := rfl
theorem pts_o0 (f : Buf (Elt F) (oLoc d)) :
    ((oCh0 L).view.loc (V d (cV L) (jV L)) ↦[(oCh0 L).view.set]{fullShare} f : sProp 𝕄) = oLoc d ↦[oSet0 L]{fullShare} f := rfl
theorem pts_o1 (f : Buf (Elt F) (oLoc d)) :
    ((oCh1 L).view.loc (V d (cV L) (jV L)) ↦[(oCh1 L).view.set]{fullShare} f : sProp 𝕄) = oLoc d ↦[oSet1 L]{fullShare} f := rfl
end Halves

/-! ## What a task holds, and what it leaves -/

/-- What the proof asks of the launch memory: every index word names a row of the word table. -/
def PreOK : Prop := ∀ (d : Dev nD) (j : S4x2048.Idx), (m (iLoc d) j).toNat < 1000000

/-- A read share of the index array, of the word table; a chunk of the result's rows outright. -/
abbrev iSh (d : Dev nD) (q : PosShare TreeShare) : sProp 𝕄 := iLoc d ↦{q} m (iLoc d)
abbrev xSh (d : Dev nD) (q : PosShare TreeShare) : sProp 𝕄 := xLoc d ↦{q} m (xLoc d)
abbrev oPc0 (d : Dev nD) (L : grid0.Coords) (f : Buf (Elt F) (oLoc d)) : sProp 𝕄 := oLoc d ↦[oSet0 L]{fullShare} f
abbrev oPc1 (d : Dev nD) (L : grid0.Coords) (f : Buf (Elt F) (oLoc d)) : sProp 𝕄 := oLoc d ↦[oSet1 L]{fullShare} f

/-- The gathered rows: entry `(b, s, k)` is entry `k` of the word-table row that index word `(b, s)` names. -/
def gath (d : Dev nD) : Buf (Elt F) (oLoc d) :=
  fun (i : S4x2048x128.Idx) => (m (xLoc d) : S1000000x128.Idx → Elt F .f32)
    (ValueIdx.ix2 (Cert.Spec.rowOf ((m (iLoc d) : S4x2048.Idx → BitVec 32) (ValueIdx.ix2 (i 0) (i 1)))) (i 2))

/-- What a copy out of a half of the row scratch carries, after the gather into that half has landed: the rows of the
    word table the fetched index words name. -/
def pay0 [∀ e, Nonempty (Elt F e)] (d : Dev nD) (L : grid0.Coords) (fr : Buf (Elt F) ((V d (cV L) (jV L)).loc cc0_scratch1))
    (hn : S128.numel = S128x128.size gathers_S1000000x128_S128x128.axis')
    (hin : ∀ x, ((sCh0).view.read (Elt F) ((sCh0).view.writes (Elt F) (sCh0).view.junk [⟨Rect.whole S128, (iCh0 L).view.read (Elt F) (m (iLoc d))⟩]) x).toNat
      < S1000000x128.size gathers_S1000000x128_S128x128.axis) : S128x128.Idx → Elt F .f32 :=
  ReadAs.same.apply ((rCh0).view.read (Elt F) (View.write (Elt F) (rCh0).view fr
    (SparseCore.gatherPayload gathers_S1000000x128_S128x128 ((xAll).view.read (Elt F) (m (xLoc d)))
      (SparseCore.rows ((sCh0).view.read (Elt F) ((sCh0).view.writes (Elt F) (sCh0).view.junk [⟨Rect.whole S128, (iCh0 L).view.read (Elt F) (m (iLoc d))⟩])) hn hin))
    Finset.univ))
def pay1 [∀ e, Nonempty (Elt F e)] (d : Dev nD) (L : grid0.Coords) (fr : Buf (Elt F) ((V d (cV L) (jV L)).loc cc0_scratch1))
    (hn : S128.numel = S128x128.size gathers_S1000000x128_S128x128.axis')
    (hin : ∀ x, ((sCh1).view.read (Elt F) ((sCh1).view.writes (Elt F) (sCh1).view.junk [⟨Rect.whole S128, (iCh1 L).view.read (Elt F) (m (iLoc d))⟩]) x).toNat
      < S1000000x128.size gathers_S1000000x128_S128x128.axis) : S128x128.Idx → Elt F .f32 :=
  ReadAs.same.apply ((rCh1).view.read (Elt F) (View.write (Elt F) (rCh1).view fr
    (SparseCore.gatherPayload gathers_S1000000x128_S128x128 ((xAll).view.read (Elt F) (m (xLoc d)))
      (SparseCore.rows ((sCh1).view.read (Elt F) ((sCh1).view.writes (Elt F) (sCh1).view.junk [⟨Rect.whole S128, (iCh1 L).view.read (Elt F) (m (iLoc d))⟩])) hn hin))
    Finset.univ))

/-- A subcore's two chunks of result rows, as a family. -/
abbrev oSetR (L : grid0.Coords) : Fin 2 → Finset S4x2048x128.Idx := fun | 0 => oSet0 L | 1 => oSet1 L

/-- On a chunk's rows, what the copy out wrote is the gathered rows. -/
def ChunkVal0 [∀ e, Nonempty (Elt F e)] (d : Dev nD) (L : grid0.Coords) : Prop :=
  ∀ (fo : Buf (Elt F) (oLoc d)) (fr : Buf (Elt F) ((V d (cV L) (jV L)).loc cc0_scratch1)) hn hin, ∀ i ∈ oSet0 L,
    ((oCh0 L).view.writes (Elt F) fo [⟨Rect.whole S128x128, pay0 m d L fr hn hin⟩]) i = gath m d i
def ChunkVal1 [∀ e, Nonempty (Elt F e)] (d : Dev nD) (L : grid0.Coords) : Prop :=
  ∀ (fo : Buf (Elt F) (oLoc d)) (fr : Buf (Elt F) ((V d (cV L) (jV L)).loc cc0_scratch1)) hn hin, ∀ i ∈ oSet1 L,
    ((oCh1 L).view.writes (Elt F) fo [⟨Rect.whole S128x128, pay1 m d L fr hn hin⟩]) i = gath m d i

end Tile

end Cert.ScTile

end
-- ==== Proof.ScTile.lean ====
/-
  One vector subcore's task, run: the two index fetches with their waits, the two gathers each on its own semaphore,
  their waits, the two copies out on the shared semaphore issued and then both waited for. On each chunk of result rows
  the task leaves the rows of the word table that the chunk's index words name.
-/
import proofs.«203468_g17523466567843_cont_7to1_1283_23_alg».proof.Proof.ScViews

noncomputable section

namespace Cert.ScTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S4x2048 EltTy.i32)
local notation "xV" => (Memref.whole Cert.KernelIdeal.main_arg1_scv : Memref Cert.KernelIdeal.sig Kind.scVector Space.hbm Cert.KernelIdeal.S1000000x128 EltTy.f32)
local notation "oV" => (Memref.whole Cert.KernelIdeal.main_v0_scv : Memref Cert.KernelIdeal.sig Kind.scVector Space.hbm Cert.KernelIdeal.S4x2048x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x128 EltTy.f32)

section Tile

variable (d : Dev nD) (L : grid0.Coords)

/-- The offsets a gather reads are in range: what the index fetch landed in its half of the scratch is the subcore's
    chunk of index words, each below the table's row count by the precondition. -/
theorem inb_of_pre0 [∀ e, Nonempty (Elt F e)] (hpre : PreOK m) (pay : S128.Idx → Elt F .i32) (hpay : pay = (iCh0 L).view.read (Elt F) (m (iLoc d))) :
    ∀ x, ((sCh0).view.read (Elt F) ((sCh0).view.writes (Elt F) (sCh0).view.junk [⟨Rect.whole S128, pay⟩]) x).toNat
      < S1000000x128.size gathers_S1000000x128_S128x128.axis := by
  subst hpay; intro x
  rw [View.read_writes_whole]
  rw [show ∀ j, (iCh0 L).view.read (Elt F) (m (iLoc d)) j = m (iLoc d) ((iCh0 L).view.emb j) from fun j => (View.read_apply _ _).trans (cast_eq _ _)]
  exact hpre d _
theorem inb_of_pre1 [∀ e, Nonempty (Elt F e)] (hpre : PreOK m) (pay : S128.Idx → Elt F .i32) (hpay : pay = (iCh1 L).view.read (Elt F) (m (iLoc d))) :
    ∀ x, ((sCh1).view.read (Elt F) ((sCh1).view.writes (Elt F) (sCh1).view.junk [⟨Rect.whole S128, pay⟩]) x).toNat
      < S1000000x128.size gathers_S1000000x128_S128x128.axis := by
  subst hpay; intro x
  rw [View.read_writes_whole]
  rw [show ∀ j, (iCh1 L).view.read (Elt F) (m (iLoc d)) j = m (iLoc d) ((iCh1 L).view.emb j) from fun j => (View.read_apply _ _).trans (cast_eq _ _)]
  exact hpre d _

set_option maxHeartbeats 4000000 in
theorem tile_body [∀ e, Nonempty (Elt F e)] (hF : (K (F := F)).Facts) (hpre : PreOK m) (qi qx : PosShare TreeShare) (O : CellTallies nD τ sig (HIx 1)) (W : Waits sig (HIx 1)) (hO : ∀ g, O g none = 0)
    (fo : Buf (Elt F) (oLoc d)) (hv0 : ChunkVal0 m d L) (hv1 : ChunkVal1 m d L) :
    iprop(levAts (K (F := F)).L (K (F := F)).lev ∗ emp
        ∗ (iSh m d qi ∗ xSh m d qx ∗ oPc0 d L fo ∗ oPc1 d L fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L iV (Memref.isWhole_whole _) xV (Memref.isWhole_whole _) oV (Memref.isWhole_whole _)
            sV (Memref.isWhole_whole _) rV (Memref.isWhole_whole _) cc0_scratch2 cc0_scratch3 cc0_scoped0 cc0_scoped1)
          fun _ => iprop((iSh m d qi ∗ xSh m d qx ∗ oPc0 d L (gath m d) ∗ oPc1 d L (gath m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  simp only [k0_part3_eq_skeleton]; unfold k0_part3_skel
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V, ownBufs_V]
  iintro ⟨#Hlv, -, ⟨Hi, Hx, Ho0, Ho1⟩, ⟨⟨%fs, Hs⟩, ⟨%fr, Hr⟩, Hbufs⟩, ⟨HsemG0, HsemG1, HsemO, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs2 := (s_halves (F := F) d L fs).1 $$ Hs
  icases Hs2 with ⟨Hs0, Hs1⟩
  ihave Hr2 := (r_halves (F := F) d L fr).1 $$ Hr
  icases Hr2 with ⟨Hr0, Hr1⟩
  ihave Hx2 := (pointsTo_share (PosShare.mem_left_op_right qx)).1 $$ Hx
  icases Hx2 with ⟨HxL, HxR⟩
  ihave Hi' := (Entails.of_eq (pts_iV (F := F) d L _ _).symm) $$ Hi
  ihave HxL' := (Entails.of_eq (pts_xV (F := F) d L _ _).symm) $$ HxL
  ihave HxR' := (Entails.of_eq (pts_xV (F := F) d L _ _).symm) $$ HxR
  ihave Ho0' := (Entails.of_eq (pts_o0 (F := F) d L _).symm) $$ Ho0
  ihave Ho1' := (Entails.of_eq (pts_o1 (F := F) d L _).symm) $$ Ho1
  have hB : Transfers.BatchOf (V d (cV L) (jV L)) (SemLoc.dma cc0_scratch3.sem) 2 := Transfers.BatchOf.intro _ _ _
  sl_exec
  -- the first gather, on its own semaphore: half the word table's share, the first half of the row scratch, the fetched words
  ihave Hxs := (pointsTo_split_subset (q := qx.left) (f := m (xLoc d)) (S := Finset.univ) (Finset.subset_univ (xAll).view.set)).1 $$ HxL'
  icases Hxs with ⟨Hxs0, Hxr0⟩
  iapply (SparseCore.wp_indirectGatherLocal countersEmb 𝒱₀ (V d (cV L) (jV L)) none (hg := gathers_S1000000x128_S128x128) (default : HIx 1)
      (rCh0).view.dmaCredit (SparseCore.sum_rowCredit_eq_dmaCredit (rCh0) _ (fun _ => rfl)) (by decide) (inb_of_pre0 m d L hpre _ rfl)) $$ [Hxs0 Hr0 Hs0 HsemG0]
  · isplitl [Hxs0]; · iexact Hxs0
    isplitl [Hr0]; · iexact Hr0
    isplitl [Hs0]; · iexact Hs0
    iexact HsemG0
  iintro Hfl0
  sl_exec
  -- the second gather, on the other: the other half of each
  ihave Hxs := (pointsTo_split_subset (q := qx.right) (f := m (xLoc d)) (S := Finset.univ) (Finset.subset_univ (xAll).view.set)).1 $$ HxR'
  icases Hxs with ⟨Hxs1, Hxr1⟩
  iapply (SparseCore.wp_indirectGatherLocal countersEmb 𝒱₀ (V d (cV L) (jV L)) none (hg := gathers_S1000000x128_S128x128) (default : HIx 1)
      (rCh1).view.dmaCredit (SparseCore.sum_rowCredit_eq_dmaCredit (rCh1) _ (fun _ => rfl)) (by decide) (inb_of_pre1 m d L hpre _ rfl)) $$ [Hxs1 Hr1 Hs1 HsemG1]
  · isplitl [Hxs1]; · iexact Hxs1
    isplitl [Hr1]; · iexact Hr1
    isplitl [Hs1]; · iexact Hs1
    iexact HsemG1
  iintro Hfl1
  sl_exec
  -- the first gather's wait: its rows landed
  iapply (Transfers.wp_waitLocalO countersEmb 𝒱₀ (V d (cV L) (jV L)) none (default : HIx 1) (rfl : (rCh0).view.dmaCredit = _)) $$ [Hfl0 HO]
  · isplitl [Hfl0]; · iexact Hfl0
    isplitl [HO]; · iexact HO
    iapply (Transfers.MayWaits.elim (SemLoc.dma gSem0)) $$ Hmw
  iintro ⟨⟨Hr0, Hxs0, Hs0⟩, HsemG0, HO⟩
  sl_exec
  -- the second gather's wait
  iapply (Transfers.wp_waitLocalO countersEmb 𝒱₀ (V d (cV L) (jV L)) none (default : HIx 1) (rfl : (rCh1).view.dmaCredit = _)) $$ [Hfl1 HO]
  · isplitl [Hfl1]; · iexact Hfl1
    isplitl [HO]; · iexact HO
    iapply (Transfers.MayWaits.elim (SemLoc.dma gSem1)) $$ Hmw
  iintro ⟨⟨Hr1, Hxs1, Hs1⟩, HsemG1, HO⟩
  sl_exec
  sl_step
  -- the shares of the word table joined again
  ihave HxL := (pointsTo_split_subset (q := qx.left) (f := m (xLoc d)) (S := Finset.univ) (Finset.subset_univ (xAll).view.set)).2 $$ [Hxs0 Hxr0]; · isplitl [Hxs0] <;> iassumption
  ihave HxR := (pointsTo_split_subset (q := qx.right) (f := m (xLoc d)) (S := Finset.univ) (Finset.subset_univ (xAll).view.set)).2 $$ [Hxs1 Hxr1]; · isplitl [Hxs1] <;> iassumption
  ihave Hx := (pointsTo_share (PosShare.mem_left_op_right qx)).2 $$ [HxL HxR]; · isplitl [HxL] <;> iassumption
  -- the scratch halves joined again, at whatever they hold
  ihave Hs := (pointsTo_join (ℓ := (V d (cV L) (jV L)).loc cc0_scratch0) (q := fullShare) s_disj) $$ [Hs0 Hs1]; · isplitl [Hs0] <;> iassumption
  ihave Hr := (pointsTo_join (ℓ := (V d (cV L) (jV L)).loc cc0_scratch1) (q := fullShare) r_disj) $$ [Hr0 Hr1]; · isplitl [Hr0] <;> iassumption
  rw [s_union, r_union]
  isplitl [Hi' Hx Ho0' Ho1']
  · isplitl [Hi']; · iexact Hi'
    isplitl [Hx]; · iexact Hx
    isplitl [Ho0']
    · iapply (Entails.of_eq (pointsTo_congr (hv0 fo fr _ _))); iexact Ho0'
    · iapply (Entails.of_eq (pointsTo_congr (hv1 fo fr _ _))); iexact Ho1'
  isplitl [Hs Hr Hbufs]
  · isplitl [Hs]; · iexists _; iexact Hs
    isplitl [Hr]; · iexists _; iexact Hr
    iexact Hbufs
  isplitl [HsemG0 HsemG1 HsemO HsemA HsemB Hsems]
  · isplitl [HsemG0]; · iexact HsemG0
    isplitl [HsemG1]; · iexact HsemG1
    isplitl [HsemO]; · iexact HsemO
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.ScTile

end
-- ==== Proof.ScParts.lean ====
/-
  The gather's result array, dealt to the subcores that write it.

  The 4×2048×128 array of gathered rows is written by 32 subcores, vector subcore `(c, s)` having number `2 s + c`;
  each writes two chunks of 128 consecutive rows. Number the chunks `n = 4 s + 2 c + r`, `r` the chunk within the
  subcore: chunk `n` is rows `128 (n mod 16) … 128 (n mod 16) + 127` of batch row `n / 16`. The program does not say so
  in these words; it computes the chunk's corner by a chain of 32-bit operations on the subcore's coordinates, with a
  floor division spelt out through signs and remainders. Over the 64 chunks that chain has a closed form, checked
  once by evaluation.

  An index `(b, x, k)` of the array lies in exactly one chunk, number `16 b + x / 128`, and `n` determines `(c, s, r)`.
  So the 64 chunks are pairwise disjoint and cover the array, and holding the whole array at contents `f` is the
  same as holding every chunk at `f`: what lets the array be dealt out to the tasks and collected again.
-/
import proofs.«203468_g17523466567843_cont_7to1_1283_23_alg».proof.Proof.ScViews

noncomputable section

namespace Cert.ScTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S4x2048 EltTy.i32)
local notation "xV" => (Memref.whole Cert.KernelIdeal.main_arg1_scv : Memref Cert.KernelIdeal.sig Kind.scVector Space.hbm Cert.KernelIdeal.S1000000x128 EltTy.f32)
local notation "oV" => (Memref.whole Cert.KernelIdeal.main_v0_scv : Memref Cert.KernelIdeal.sig Kind.scVector Space.hbm Cert.KernelIdeal.S4x2048x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x128 EltTy.f32)

/-! ## A subcore's coordinates, and its chunks' corners in closed form -/

/-- The grid coordinates of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The corner of chunk `r` of the subcore at `L`, with `n = 4 (L 1) + 2 (L 0) + r`: batch row `n / 16`, row
    `128 (n mod 16)`, column 0 — the printed chain of 32-bit operations evaluated at each of the 64 chunks. -/
theorem off2_closed : ∀ L : grid0.Coords, ∀ r : Fin 2,
    k0_off2 L (BitVec.ofNat 32 (128 * r.val)) (0 : Fin 3) = (4 * (L 1).val + 2 * (L 0).val + r.val) / 16
    ∧ k0_off2 L (BitVec.ofNat 32 (128 * r.val)) (1 : Fin 3) = (4 * (L 1).val + 2 * (L 0).val + r.val) % 16 * 128
    ∧ k0_off2 L (BitVec.ofNat 32 (128 * r.val)) (2 : Fin 3) = 0 := by decide +kernel

/-! ## A chunk's element set is a rectangle's -/

/-- The 1×128×128 rectangle of chunk `r` of the subcore at `L`. -/
abbrev oR (L : grid0.Coords) (r : Fin 2) : Rect S4x2048x128 :=
  Rect.unit (s := S4x2048x128) (k0_off2 L (BitVec.ofNat 32 (128 * r.val))) S1x128x128.size (k0_off2_inb L r)

/-- Dropping the unit axis of a slice regroups its elements and loses none; a slice of the whole array holds the
    elements of its rectangle. -/
theorem oSet0_eq (L : grid0.Coords) : oSet0 L = (oR L 0).set := by
  show (((oV).view.slice (oR L 0)).reshape S128x128 squeezes_S1x128x128_S128x128.numel_eq).set = _
  rw [View.set_reshape]
  show ((View.whole (main_v0_scv : Ref sig .scVector)).slice (oR L 0)).set = _
  rw [View.set_slice]; exact Finset.map_refl
theorem oSet1_eq (L : grid0.Coords) : oSet1 L = (oR L 1).set := by
  show (((oV).view.slice (oR L 1)).reshape S128x128 squeezes_S1x128x128_S128x128.numel_eq).set = _
  rw [View.set_reshape]
  show ((View.whole (main_v0_scv : Ref sig .scVector)).slice (oR L 1)).set = _
  rw [View.set_slice]; exact Finset.map_refl

theorem oSetR_eq (L : grid0.Coords) (r : Fin 2) : oSetR L r = (oR L r).set := by
  match r with
  | ⟨0, _⟩ => exact oSet0_eq L
  | ⟨1, _⟩ => exact oSet1_eq L

/-- Index `(b, x, k)` is in chunk `r` of the subcore at `L` iff its chunk number `16 b + x / 128` is that chunk's. -/
theorem mem_oSetR (L : grid0.Coords) (r : Fin 2) (i : S4x2048x128.Idx) :
    i ∈ oSetR L r ↔ (i 0).val * 16 + (i 1).val / 128 = 4 * (L 1).val + 2 * (L 0).val + r.val := by
  obtain ⟨e0, e1, e2⟩ := off2_closed L r
  have h1 : (i 1).val < 2048 := (i 1).isLt
  have h2 : (i 2).val < 128 := (i 2).isLt
  have hc : (L 0).val < 2 := (L 0).isLt
  have hs : (L 1).val < 16 := (L 1).isLt
  have hr : r.val < 2 := r.isLt
  rw [oSetR_eq, Rect.mem_set_unit]
  constructor
  · intro h
    have a0 : k0_off2 L (BitVec.ofNat 32 (128 * r.val)) (0 : Fin 3) ≤ (i 0).val
        ∧ (i 0).val < k0_off2 L (BitVec.ofNat 32 (128 * r.val)) (0 : Fin 3) + 1 := h 0
    have a1 : k0_off2 L (BitVec.ofNat 32 (128 * r.val)) (1 : Fin 3) ≤ (i 1).val
        ∧ (i 1).val < k0_off2 L (BitVec.ofNat 32 (128 * r.val)) (1 : Fin 3) + 128 := h 1
    rw [e0] at a0; rw [e1] at a1
    omega
  · intro h a
    match a with
    | ⟨0, _⟩ =>
      show k0_off2 L (BitVec.ofNat 32 (128 * r.val)) (0 : Fin 3) ≤ (i 0).val
        ∧ (i 0).val < k0_off2 L (BitVec.ofNat 32 (128 * r.val)) (0 : Fin 3) + 1
      rw [e0]; omega
    | ⟨1, _⟩ =>
      show k0_off2 L (BitVec.ofNat 32 (128 * r.val)) (1 : Fin 3) ≤ (i 1).val
        ∧ (i 1).val < k0_off2 L (BitVec.ofNat 32 (128 * r.val)) (1 : Fin 3) + 128
      rw [e1]; omega
    | ⟨2, _⟩ =>
      show k0_off2 L (BitVec.ofNat 32 (128 * r.val)) (2 : Fin 3) ≤ (i 2).val
        ∧ (i 2).val < k0_off2 L (BitVec.ofNat 32 (128 * r.val)) (2 : Fin 3) + 128
      rw [e2]; omega

/-! ## The 64 chunks partition the array -/

/-- Chunk `r` of subcore `(c, s)`, as one family over the 64 triples. -/
abbrev chunkOf (t : Fin 2 × Fin 16 × Fin 2) : Finset S4x2048x128.Idx := oSetR (coordsV t.1 t.2.1) t.2.2

/-- Two different chunks share no index: an index has one chunk number, and the number `4 s + 2 c + r` with
    `c, r < 2` determines `(c, s, r)`. -/
theorem chunks_disjoint : ∀ t ∈ (Finset.univ : Finset (Fin 2 × Fin 16 × Fin 2)), ∀ t' ∈ (Finset.univ : Finset (Fin 2 × Fin 16 × Fin 2)),
    t ≠ t' → Disjoint (chunkOf t) (chunkOf t') := by
  rintro ⟨c, s, r⟩ - ⟨c', s', r'⟩ - hne
  refine Finset.disjoint_left.mpr fun i h h' => hne ?_
  have e : (i 0).val * 16 + (i 1).val / 128 = 4 * s.val + 2 * c.val + r.val := (mem_oSetR (coordsV c s) r i).mp h
  have e' : (i 0).val * 16 + (i 1).val / 128 = 4 * s'.val + 2 * c'.val + r'.val := (mem_oSetR (coordsV c' s') r' i).mp h'
  have hc := c.isLt; have hc' := c'.isLt; have hr := r.isLt; have hr' := r'.isLt
  have ec : c = c' := Fin.ext (by omega)
  have es : s = s' := Fin.ext (by omega)
  have er : r = r' := Fin.ext (by omega)
  rw [ec, es, er]

/-- Every index is in some chunk: its chunk number is below 64, and every number below 64 is some `4 s + 2 c + r`. -/
theorem chunks_cover : (Finset.univ : Finset (Fin 2 × Fin 16 × Fin 2)).biUnion chunkOf = Finset.univ := by
  refine Finset.eq_univ_iff_forall.mpr fun i => Finset.mem_biUnion.mpr ?_
  have h0 : (i 0).val < 4 := (i 0).isLt
  have h1 : (i 1).val < 2048 := (i 1).isLt
  refine ⟨(⟨((i 0).val * 16 + (i 1).val / 128) / 2 % 2, by omega⟩, ⟨((i 0).val * 16 + (i 1).val / 128) / 4, by omega⟩,
    ⟨((i 0).val * 16 + (i 1).val / 128) % 2, by omega⟩), Finset.mem_univ _, ?_⟩
  refine (mem_oSetR _ _ i).mpr ?_
  show (i 0).val * 16 + (i 1).val / 128
    = 4 * (((i 0).val * 16 + (i 1).val / 128) / 4) + 2 * (((i 0).val * 16 + (i 1).val / 128) / 2 % 2) + ((i 0).val * 16 + (i 1).val / 128) % 2
  omega

/-- The whole array at contents `f` is its 64 chunks at `f`, as one family over the triples `(c, s, r)`. -/
theorem oPts_family (d : Dev nD) (f : Buf (Elt F) (oLoc d)) :
    (oLoc d ↦{fullShare} f : sProp 𝕄) = bigSep Finset.univ fun t : Fin 2 × Fin 16 × Fin 2 => oLoc d ↦[chunkOf t]{fullShare} f := by
  rw [← pointsTo_biUnion Finset.univ (ℓ := oLoc d) chunkOf chunks_disjoint, chunks_cover]

/-- The same, subcore by subcore: each subcore's two chunks side by side. -/
theorem oPts_chunks (d : Dev nD) (f : Buf (Elt F) (oLoc d)) :
    (oLoc d ↦{fullShare} f : sProp 𝕄)
      = bigSep Finset.univ fun c : Fin 2 => bigSep Finset.univ fun s : Fin 16 => iprop(oPc0 d (coordsV c s) f ∗ oPc1 d (coordsV c s) f) := by
  rw [oPts_family d f, BI.bigSep_univ_prod]
  refine bigSep_congr fun c _ => ?_
  rw [BI.bigSep_univ_prod]
  refine bigSep_congr fun s _ => ?_
  rw [BI.bigSep_fin_two]
  try rfl

/-- info: 'Cert.ScTile.oPts_chunks' depends on axioms: [propext, Classical.choice, Quot.sound] -/
#guard_msgs in #print axioms oPts_chunks

end Cert.ScTile

end
-- ==== Proof.ScValue.lean ====
/-
  The value of the row gather on one chunk: on the chunk's rows of the result, what the copy out wrote is the gathered
  rows — entry `(b, s, k)` is entry `k` of the word-table row that index word `(b, s)` names.

  A chunk of the result is the `128 × 128` block at offsets `(p, q, 0)` of the `4 × 2048 × 128` array, and the chunk of
  index words fetched for it is the run of 128 words at offsets `(p, q)` of the `4 × 2048` array: the two offset chains
  are the same arithmetic on the subcore's number, term by term. An entry of the chunk is the block's embedding of some
  `y = (r, k)`, that is `(p, q + r, k)`. The chunk written whole through its view reads back, there, the payload at `y`;
  the payload is the row scratch half written whole with the gather's rows, so it is the word table at row
  "index word `r` of the fetched run" and column `k`; the fetched run is the index scratch half written whole with the
  words at `(p, q + ·)`, so that word is index word `(p, q + r)` — the one under the result entry. It is below 1000000
  (the gather's side condition), so the row it names is the row the specification's `rowOf` gives.
-/
import proofs.«203468_g17523466567843_cont_7to1_1283_23_alg».proof.Proof.ScViews
import Idealize.ShloMosaic.Lib.Pipeline.Value
import Idealize.ShloMosaic.Lib.Exec.Geometry
import Idealize.ShloMosaic.Lib.ValueLayout
import Idealize.ShloMosaic.Lib.Writes

noncomputable section

namespace Cert.ScTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

local notation "iV" => (Memref.whole Cert.KernelIdeal.main_arg0_scv : Memref Cert.KernelIdeal.sig Kind.scVector Space.hbm Cert.KernelIdeal.S4x2048 EltTy.i32)
local notation "xV" => (Memref.whole Cert.KernelIdeal.main_arg1_scv : Memref Cert.KernelIdeal.sig Kind.scVector Space.hbm Cert.KernelIdeal.S1000000x128 EltTy.f32)
local notation "oV" => (Memref.whole Cert.KernelIdeal.main_v0_scv : Memref Cert.KernelIdeal.sig Kind.scVector Space.hbm Cert.KernelIdeal.S4x2048x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x128 EltTy.f32)

/-! ## The two offset chains

The offsets of a result chunk and of its run of index words are computed by the same operations on the subcore's number:
the first two coordinates agree term by term, and the result chunk's third offset is 0. -/

theorem off2_0 (L : grid0.Coords) (c : BitVec 32) : k0_off2 L c 0 = k0_off1 L c 0 := rfl
theorem off2_1 (L : grid0.Coords) (c : BitVec 32) : k0_off2 L c 1 = k0_off1 L c 1 := rfl
theorem off2_2 (L : grid0.Coords) (c : BitVec 32) : k0_off2 L c 2 = 0 := rfl

/-! ## Indices matched by row-major position -/

/-- The index of a one-axis shape at a row-major position has that position as its coordinate. -/
theorem rowMajor_symm_val (k : Fin S128.numel) : ((S128.rowMajor.symm k) 0).val = k.val := by
  have h := Shape.rowMajor_val_one (S128.rowMajor.symm k)
  rw [Equiv.apply_symm_apply] at h
  exact h.symm

/-- A `[128]` index matched with shape `[1, 128]` by row-major position is `(0, z)`. -/
theorem squeeze1_idx (h : S128.numel = S1x128.numel) (z : S128.Idx) (a : Fin 2) :
    (Shape.reshapeEquiv h z a).val = if a = 0 then 0 else (z 0).val := by
  have e : Shape.reshapeEquiv h z = ValueIdx.ix2 (0 : Fin 1) (⟨(z 0).val, (z 0).isLt⟩ : Fin 128) :=
    Shape.reshapeEquiv_eq_of_rowMajor h (by
      rw [Shape.rowMajor_val_two, Shape.rowMajor_val_one]
      show (0 : ℕ) * 128 + (z 0).val = (z 0).val
      omega)
  rw [e]
  match a with
  | ⟨0, _⟩ => rfl
  | ⟨1, _⟩ => rfl

/-- A `[128, 128]` index matched with shape `[1, 128, 128]` by row-major position is `(0, r, k)`. -/
theorem squeeze2_idx (h : S128x128.numel = S1x128x128.numel) (y : S128x128.Idx) (a : Fin 3) :
    (Shape.reshapeEquiv h y a).val = if a = 0 then 0 else if a = 1 then (y 0).val else (y 1).val := by
  have e : Shape.reshapeEquiv h y = ValueIdx.ix3 (0 : Fin 1) (⟨(y 0).val, (y 0).isLt⟩ : Fin 128) (⟨(y 1).val, (y 1).isLt⟩ : Fin 128) :=
    Shape.reshapeEquiv_eq_of_rowMajor h (by
      rw [Shape.rowMajor_val_three, Shape.rowMajor_val_two]
      show ((0 : ℕ) * 128 + (y 0).val) * 128 + (y 1).val = (y 0).val * 128 + (y 1).val
      omega)
  rw [e]
  match a with
  | ⟨0, _⟩ => rfl
  | ⟨1, _⟩ => rfl
  | ⟨2, _⟩ => rfl

/-! ## The chunk views' embeddings, coordinate by coordinate -/

/-- The run of 128 index words at offsets `off`: word `z` sits at `(off 0, off 1 + z)`. -/
theorem iCh_emb_val (off : Fin 2 → ℕ) (inb : ∀ a, off a + S1x128.size a ≤ S4x2048.size a) (z : S128.Idx) (a : Fin 2) :
    ((((((iV).slice (Rect.unit (s := S4x2048) off S1x128.size inb) (fun _ => rfl)).squeeze S128 squeezes_S1x128_S128).view.emb z : S4x2048.Idx)) a).val
      = off a + (if a = 0 then 0 else (z 0).val) := by
  show off a + 1 * (Shape.reshapeEquiv squeezes_S1x128_S128.numel_eq z a).val = _
  rw [squeeze1_idx, Nat.one_mul]

/-- The `128 × 128` block of result rows at offsets `off`: entry `(r, k)` sits at `(off 0, off 1 + r, off 2 + k)`. -/
theorem oCh_emb_val (off : Fin 3 → ℕ) (inb : ∀ a, off a + S1x128x128.size a ≤ S4x2048x128.size a) (y : S128x128.Idx) (a : Fin 3) :
    ((((((oV).slice (Rect.unit (s := S4x2048x128) off S1x128x128.size inb) (fun _ => rfl)).squeeze S128x128 squeezes_S1x128x128_S128x128).view.emb y : S4x2048x128.Idx)) a).val
      = off a + (if a = 0 then 0 else if a = 1 then (y 0).val else (y 1).val) := by
  show off a + 1 * (Shape.reshapeEquiv squeezes_S1x128x128_S128x128.numel_eq y a).val = _
  rw [squeeze2_idx, Nat.one_mul]

/-- The whole word table named as a block at offsets `(0, 0)`: every entry sits at itself. -/
theorem xAll_emb_val (w : S1000000x128.Idx) (a : Fin 2) : (((xAll).view.emb w : S1000000x128.Idx) a).val = (w a).val := by
  show (![0, 0] : Fin 2 → ℕ) a + 1 * (w a).val = _
  match a with
  | ⟨0, _⟩ => show 0 + 1 * (w 0).val = (w 0).val; omega
  | ⟨1, _⟩ => show 0 + 1 * (w 1).val = (w 1).val; omega

/-! ## The chunks

The two chunks differ only in the constant added to the second offset (0 and 128) and in the scratch halves used. -/

section Chunks
variable [∀ e, Nonempty (Elt F e)] (d : Dev nD) (L : grid0.Coords)

/-- On the first chunk's rows the copy out wrote the gathered rows. -/
theorem chunkVal0 : ChunkVal0 m d L := by
  intro fo fr hn hin i hi
  obtain ⟨y, rfl⟩ := View.exists_emb_of_mem_set (oCh0 L).view hi
  -- the chunk written whole through its view, read back at an embedded index, is the payload there
  have hw : ((oCh0 L).view.writes (Elt F) fo [⟨Rect.whole S128x128, pay0 m d L fr hn hin⟩]) ((oCh0 L).view.emb y)
      = pay0 m d L fr hn hin y :=
    ((View.read_apply _ _).trans (cast_eq _ _)).symm.trans
      (congrFun (View.read_writes_whole (oCh0 L).view fo (pay0 m d L fr hn hin)) y)
  rw [hw]
  -- the index scratch half, written whole with the fetched words, reads back those words
  have hs : (sCh0).view.read (Elt F) ((sCh0).view.writes (Elt F) (sCh0).view.junk
        [⟨Rect.whole S128, (iCh0 L).view.read (Elt F) (m (iLoc d))⟩])
      = (iCh0 L).view.read (Elt F) (m (iLoc d)) := View.read_writes_whole _ _ _
  -- the row scratch half, written whole with the gathered rows, reads back those rows
  have hp : pay0 m d L fr hn hin
      = SparseCore.gatherPayload gathers_S1000000x128_S128x128 ((xAll).view.read (Elt F) (m (xLoc d)))
          (SparseCore.rows ((sCh0).view.read (Elt F) ((sCh0).view.writes (Elt F) (sCh0).view.junk
            [⟨Rect.whole S128, (iCh0 L).view.read (Elt F) (m (iLoc d))⟩])) hn hin) := by
    unfold pay0
    exact View.read_write_univ _ _
  rw [hp]
  unfold SparseCore.gatherPayload gath
  refine ((View.read_apply _ _).trans (cast_eq _ _)).trans ?_
  refine congrArg (m (xLoc d)) ?_
  funext a
  apply Fin.ext
  refine (xAll_emb_val _ a).trans ?_
  -- the word the gather reads for row `y 0` of the chunk is the index word under the result entry
  have K : (sCh0).view.read (Elt F) ((sCh0).view.writes (Elt F) (sCh0).view.junk
        [⟨Rect.whole S128, (iCh0 L).view.read (Elt F) (m (iLoc d))⟩])
        (S128.rowMajor.symm ((y gathers_S1000000x128_S128x128.axis').cast hn.symm))
      = m (iLoc d) (ValueIdx.ix2 ((oCh0 L).view.emb y 0) ((oCh0 L).view.emb y 1)) := by
    rw [hs]
    refine ((View.read_apply _ _).trans (cast_eq _ _)).trans ?_
    refine congrArg (m (iLoc d)) ?_
    funext b
    apply Fin.ext
    refine (iCh_emb_val _ _ _ b).trans ?_
    rw [rowMajor_symm_val]
    match b with
    | ⟨0, _⟩ =>
      refine Eq.trans ?_ (oCh_emb_val _ _ y 0).symm
      show k0_off1 L 0#32 0 + 0 = k0_off2 L 0#32 0 + 0
      rw [off2_0]
    | ⟨1, _⟩ =>
      refine Eq.trans ?_ (oCh_emb_val _ _ y 1).symm
      show k0_off1 L 0#32 1 + (y 0).val = k0_off2 L 0#32 1 + (y 0).val
      rw [off2_1]
  have hlt := hin (S128.rowMajor.symm ((y gathers_S1000000x128_S128x128.axis').cast hn.symm))
  rw [K] at hlt
  match a with
  | ⟨0, _⟩ =>
    show (gathers_S1000000x128_S128x128.idx _ y gathers_S1000000x128_S128x128.axis).val = (Cert.Spec.rowOf _).val
    rw [Shape.Gathers.idx_axis, Cert.Spec.rowOf_val hlt]
    have hK := congrArg BitVec.toNat K
    exact hK
  | ⟨1, _⟩ =>
    refine (Shape.Gathers.idx_of_ne gathers_S1000000x128_S128x128 _ y ⟨1, by decide⟩ (by decide)).trans ?_
    refine Eq.trans ?_ (oCh_emb_val _ _ y 2).symm
    show (y 1).val = k0_off2 L 0#32 2 + (y 1).val
    rw [off2_2, Nat.zero_add]

/-- On the second chunk's rows likewise. -/
theorem chunkVal1 : ChunkVal1 m d L := by
  intro fo fr hn hin i hi
  obtain ⟨y, rfl⟩ := View.exists_emb_of_mem_set (oCh1 L).view hi
  -- the chunk written whole through its view, read back at an embedded index, is the payload there
  have hw : ((oCh1 L).view.writes (Elt F) fo [⟨Rect.whole S128x128, pay1 m d L fr hn hin⟩]) ((oCh1 L).view.emb y)
      = pay1 m d L fr hn hin y :=
    ((View.read_apply _ _).trans (cast_eq _ _)).symm.trans
      (congrFun (View.read_writes_whole (oCh1 L).view fo (pay1 m d L fr hn hin)) y)
  rw [hw]
  -- the index scratch half, written whole with the fetched words, reads back those words
  have hs : (sCh1).view.read (Elt F) ((sCh1).view.writes (Elt F) (sCh1).view.junk
        [⟨Rect.whole S128, (iCh1 L).view.read (Elt F) (m (iLoc d))⟩])
      = (iCh1 L).view.read (Elt F) (m (iLoc d)) := View.read_writes_whole _ _ _
  -- the row scratch half, written whole with the gathered rows, reads back those rows
  have hp : pay1 m d L fr hn hin
      = SparseCore.gatherPayload gathers_S1000000x128_S128x128 ((xAll).view.read (Elt F) (m (xLoc d)))
          (SparseCore.rows ((sCh1).view.read (Elt F) ((sCh1).view.writes (Elt F) (sCh1).view.junk
            [⟨Rect.whole S128, (iCh1 L).view.read (Elt F) (m (iLoc d))⟩])) hn hin) := by
    unfold pay1
    exact View.read_write_univ _ _
  rw [hp]
  unfold SparseCore.gatherPayload gath
  refine ((View.read_apply _ _).trans (cast_eq _ _)).trans ?_
  refine congrArg (m (xLoc d)) ?_
  funext a
  apply Fin.ext
  refine (xAll_emb_val _ a).trans ?_
  -- the word the gather reads for row `y 0` of the chunk is the index word under the result entry
  have K : (sCh1).view.read (Elt F) ((sCh1).view.writes (Elt F) (sCh1).view.junk
        [⟨Rect.whole S128, (iCh1 L).view.read (Elt F) (m (iLoc d))⟩])
        (S128.rowMajor.symm ((y gathers_S1000000x128_S128x128.axis').cast hn.symm))
      = m (iLoc d) (ValueIdx.ix2 ((oCh1 L).view.emb y 0) ((oCh1 L).view.emb y 1)) := by
    rw [hs]
    refine ((View.read_apply _ _).trans (cast_eq _ _)).trans ?_
    refine congrArg (m (iLoc d)) ?_
    funext b
    apply Fin.ext
    refine (iCh_emb_val _ _ _ b).trans ?_
    rw [rowMajor_symm_val]
    match b with
    | ⟨0, _⟩ =>
      refine Eq.trans ?_ (oCh_emb_val _ _ y 0).symm
      show k0_off1 L 128#32 0 + 0 = k0_off2 L 128#32 0 + 0
      rw [off2_0]
    | ⟨1, _⟩ =>
      refine Eq.trans ?_ (oCh_emb_val _ _ y 1).symm
      show k0_off1 L 128#32 1 + (y 0).val = k0_off2 L 128#32 1 + (y 0).val
      rw [off2_1]
  have hlt := hin (S128.rowMajor.symm ((y gathers_S1000000x128_S128x128.axis').cast hn.symm))
  rw [K] at hlt
  match a with
  | ⟨0, _⟩ =>
    show (gathers_S1000000x128_S128x128.idx _ y gathers_S1000000x128_S128x128.axis).val = (Cert.Spec.rowOf _).val
    rw [Shape.Gathers.idx_axis, Cert.Spec.rowOf_val hlt]
    have hK := congrArg BitVec.toNat K
    exact hK
  | ⟨1, _⟩ =>
    refine (Shape.Gathers.idx_of_ne gathers_S1000000x128_S128x128 _ y ⟨1, by decide⟩ (by decide)).trans ?_
    refine Eq.trans ?_ (oCh_emb_val _ _ y 2).symm
    show (y 1).val = k0_off2 L 128#32 2 + (y 1).val
    rw [off2_2, Nat.zero_add]

end Chunks

end Cert.ScTile

end
-- ==== Proof.ScPay.lean ====
/-
  The gather's call on the SparseCores: what the handshakes carry. The TensorCore hands each of the two SparseCores a read
  share of the index array and of the word table and the sixteen pairs of result chunks its tiles write; each sequencer
  deals them on to its sixteen tiles and collects them again, the chunks now at the gathered rows.
-/
import proofs.«203468_g17523466567843_cont_7to1_1283_23_alg».proof.Proof.ScTile
import proofs.«203468_g17523466567843_cont_7to1_1283_23_alg».proof.Proof.ScParts
import proofs.«203468_g17523466567843_cont_7to1_1283_23_alg».proof.Proof.ScValue
import proofs.«203468_g17523466567843_cont_7to1_1283_23_alg».proof.Proof.Gen.KernelIdeal.Launch

noncomputable section

namespace Cert.ScTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S4x2048 EltTy.i32)
local notation "xV" => (Memref.whole Cert.KernelIdeal.main_arg1_scv : Memref Cert.KernelIdeal.sig Kind.scVector Space.hbm Cert.KernelIdeal.S1000000x128 EltTy.f32)
local notation "oV" => (Memref.whole Cert.KernelIdeal.main_v0_scv : Memref Cert.KernelIdeal.sig Kind.scVector Space.hbm Cert.KernelIdeal.S4x2048x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x128 EltTy.f32)

open Idealize.ShloMosaic.TcCoe

/-- The pipeline library's rounds, embedded beside the handshakes' and the counters. -/
abbrev EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

/-! ## What the handshakes carry -/

/-- SparseCore `c`'s read share, and tile `i`'s of it. -/
abbrev qC (c : Fin 2) : PosShare TreeShare := Transfers.shareTok fullShare 2 c
abbrev qT (c : Fin 2) (i : Fin 16) : PosShare TreeShare := Transfers.shareTok (qC c) 16 i

abbrev cc (c : Fin ((K (F := F)).nCore 0)) : Fin 2 := Fin.cast nCore_zero c
abbrev ii (i : Fin ((K (F := F)).nSub 0)) : Fin 16 := Fin.cast nSub_zero i

/-- The two chunks of result rows of the subcore on SparseCore `c`, tile `s`. -/
abbrev oPcs (d : Dev nD) (c : Fin 2) (s : Fin 16) (f : Buf (Elt F) (oLoc d)) : sProp 𝕄 :=
  iprop(oPc0 d (coordsV c s) f ∗ oPc1 d (coordsV c s) f)

/-- The one call: each SparseCore takes its read shares and its tiles' chunks at the launch contents and brings them
    back with the chunks at the gathered rows; each tile the same of its own. -/
def P : (K (F := F)).Pay (nD := nD) (Val := Elt F) (Name := ℕ) (U := UU) where
  st := fun q d c => match q, c with
    | 0, c => iprop(iSh m d (qC (cc c)) ∗ xSh m d (qC (cc c)) ∗ bigSep Finset.univ fun s : Fin 16 => oPcs d (cc c) s (m (oLoc d)))
  dn := fun q d c => match q, c with
    | 0, c => iprop(iSh m d (qC (cc c)) ∗ xSh m d (qC (cc c)) ∗ bigSep Finset.univ fun s : Fin 16 => oPcs d (cc c) s (gath m d))
  go := fun q d c i => match q, c, i with
    | 0, c, i => iprop(iSh m d (qT (cc c) (ii i)) ∗ xSh m d (qT (cc c) (ii i)) ∗ oPcs d (cc c) (ii i) (m (oLoc d)))
  td := fun q d c i => match q, c, i with
    | 0, c, i => iprop(iSh m d (qT (cc c) (ii i)) ∗ xSh m d (qT (cc c) (ii i)) ∗ oPcs d (cc c) (ii i) (gath m d))
  x := fun _ _ => iprop(emp)

instance P_storable : (P (F := F) m).IsStorable where
  st q d c := match q, c with
    | 0, c => (inferInstance : BI.Storable (upEmb : UEmb _ 𝕄) iprop(iSh m d (qC (cc c)) ∗ xSh m d (qC (cc c)) ∗ bigSep Finset.univ fun s : Fin 16 => oPcs d (cc c) s (m (oLoc d))))
  dn q d c := match q, c with
    | 0, c => (inferInstance : BI.Storable (upEmb : UEmb _ 𝕄) iprop(iSh m d (qC (cc c)) ∗ xSh m d (qC (cc c)) ∗ bigSep Finset.univ fun s : Fin 16 => oPcs d (cc c) s (gath m d)))
  go q d c i := match q, c, i with
    | 0, c, i => (inferInstance : BI.Storable (upEmb : UEmb _ 𝕄) iprop(iSh m d (qT (cc c) (ii i)) ∗ xSh m d (qT (cc c) (ii i)) ∗ oPcs d (cc c) (ii i) (m (oLoc d))))
  td q d c i := match q, c, i with
    | 0, c, i => (inferInstance : BI.Storable (upEmb : UEmb _ 𝕄) iprop(iSh m d (qT (cc c) (ii i)) ∗ xSh m d (qT (cc c) (ii i)) ∗ oPcs d (cc c) (ii i) (gath m d)))

/-! ## The obligation -/

theorem defs₀_vector (c : Fin τ.nSC) (s : Fin τ.nSub) :
    defs₀ (F := F) (.scVector c s) 0 ()
      = SparseCore.onTile hcore0 hsub0 (fun c s => cc0__gather_body (coordsV c s)
          iV (Memref.isWhole_whole _) xV (Memref.isWhole_whole _) oV (Memref.isWhole_whole _)
          sV (Memref.isWhole_whole _) rV (Memref.isWhole_whole _) cc0_scratch2 cc0_scratch3 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [∀ e, Nonempty (Elt F e)] (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre _ _ O W hO _ (chunkVal0 m d _) (chunkVal1 m d _)).trans (wp_mono frame _ _ fun _ => obl_post)

/-! ## A SparseCore's operands among its tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep3 (A B C : Fin 16 → sProp 𝕄) :
    (bigSep Finset.univ fun i => iprop(A i ∗ B i ∗ C i)) = iprop((bigSep Finset.univ A) ∗ (bigSep Finset.univ B) ∗ bigSep Finset.univ C) := by
  rw [bigSep_sep', bigSep_sep']

theorem vecSplit : (K (F := F)).VecSplit' (P m) 0 := by
  intro d c
  show iprop(iSh m d (qC (cc c)) ∗ xSh m d (qC (cc c)) ∗ bigSep Finset.univ fun s : Fin 16 => oPcs d (cc c) s (m (oLoc d)))
    ⊢ |={Set.univ}=> iprop(
      (bigSep Finset.univ fun i : Fin ((K (F := F)).nSub 0) =>
        iprop(iSh m d (qT (cc c) (Fin.cast nSub_zero i)) ∗ xSh m d (qT (cc c) (Fin.cast nSub_zero i)) ∗ oPcs d (cc c) (Fin.cast nSub_zero i) (m (oLoc d))))
      ∗ ((bigSep Finset.univ fun i : Fin ((K (F := F)).nSub 0) =>
          iprop(iSh m d (qT (cc c) (Fin.cast nSub_zero i)) ∗ xSh m d (qT (cc c) (Fin.cast nSub_zero i)) ∗ oPcs d (cc c) (Fin.cast nSub_zero i) (gath m d)))
          -∗ iprop(iSh m d (qC (cc c)) ∗ xSh m d (qC (cc c)) ∗ bigSep Finset.univ fun s : Fin 16 => oPcs d (cc c) s (gath m d))))
  rw [bigSep_tasks (F := F) (fun i => iprop(iSh m d (qT (cc c) i) ∗ xSh m d (qT (cc c) i) ∗ oPcs d (cc c) i (m (oLoc d)))),
    bigSep_tasks (F := F) (fun i => iprop(iSh m d (qT (cc c) i) ∗ xSh m d (qT (cc c) i) ∗ oPcs d (cc c) i (gath m d))),
    bigSep3, bigSep3]
  iintro ⟨Hi, Hx, Ho⟩
  ihave Hi2 := (Transfers.pointsTo_toks_split (qC (cc c)) 16) $$ Hi
  icases Hi2 with ⟨HiR, HiT⟩
  ihave Hx2 := (Transfers.pointsTo_toks_split (qC (cc c)) 16) $$ Hx
  icases Hx2 with ⟨HxR, HxT⟩
  imodintro
  isplitl [HiT HxT Ho]
  · isplitl [HiT]; · iexact HiT
    isplitl [HxT]; · iexact HxT
    iexact Ho
  iintro ⟨HiT, HxT, Ho⟩
  isplitl [HiR HiT]
  · iapply (Transfers.pointsTo_toks_join (qC (cc c)) 16); isplitl [HiR] <;> iassumption
  isplitl [HxR HxT]
  · iapply (Transfers.pointsTo_toks_join (qC (cc c)) 16); isplitl [HxR] <;> iassumption
  iexact Ho

/-! ## The launch element of the ghost state -/

/-- The pipeline library's launch element at the normalising kernel's staging cells. -/
abbrev pInit : UP := initOf (Pipeline.cells cfgs cellOf_inj) (Pipeline.launchToks cfgs cellOf_inj)

def u₀ : UU := (initOf (K (F := F)).hsCells (K (F := F)).hsToks, (pInit, 1))

/-- What the launch deals TensorCore `d` for the kernel's region: its staging cells' ghost state and duty tokens. -/
abbrev Gd (d : Dev nD) : sProp 𝕄 := iprop(Pipeline.cellsGhost cfgs (EP (F := F)) 0 d ∗ Pipeline.toksInit cfgs (EP (F := F)) 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((pInit, 1) : UP × Counters)) $$ Hu
  icases H with ⟨HH, HR⟩
  ihave H2 := (own_pair_emb (embR : Emb (UP × Counters) 𝕄) pInit (1 : Counters)) $$ HR
  icases H2 with ⟨HP, -⟩
  imod (Pipeline.fund_ghost cfgs (EP (F := F)) cellOf_inj) $$ HP with ⟨Hg, Ht⟩
  imodintro
  isplitl [HH]; · iexact HH
  isplitl [Hg Ht]
  · rw [bigSep_sep']
    isplitl [Hg]
    · iapply (Entails.of_eq (bigSep_congr fun c _ => bigSep_univ_of_subsingleton (0 : Fin 1))) $$ Hg
    · iapply (Entails.of_eq (bigSep_congr fun c _ => bigSep_univ_of_subsingleton (0 : Fin 1))) $$ Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.ScTile

end
-- ==== Proof.ScVals.lean ====
/-
  The TensorCore's buffer contents at the stages of @main: as launched; after the gather, the gathered rows in its
  result buffer; after the four reshapes of the position table, the token-type table, the scale and the shift into
  the ranks the normalising kernel's windows take — the contents the kernel's region is entered from.
-/
import proofs.«203468_g17523466567843_cont_7to1_1283_23_alg».proof.Proof.ScViews

noncomputable section

namespace Cert.ScTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S4x2048 EltTy.i32)
local notation "xV" => (Memref.whole Cert.KernelIdeal.main_arg1_scv : Memref Cert.KernelIdeal.sig Kind.scVector Space.hbm Cert.KernelIdeal.S1000000x128 EltTy.f32)
local notation "oV" => (Memref.whole Cert.KernelIdeal.main_v0_scv : Memref Cert.KernelIdeal.sig Kind.scVector Space.hbm Cert.KernelIdeal.S4x2048x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x128 EltTy.f32)

open Idealize.ShloMosaic.TcCoe

/-- Core `d`'s buffers at launch. -/
abbrev W0 (d : Dev nD) : Valuation τ sig (Elt F) := fun b => m (d, b)

/-- After the gather: its result buffer holds the gathered rows, every other buffer as launched. -/
def W1 (d : Dev nD) : Valuation τ sig (Elt F) := Function.update (W0 m d) (Proc.devRef .tc main_v0) (gath m d)

/-- The four reshapes between the gather and the normalising kernel. -/
abbrev hostOps : List (HloOp τ sig (Elt F)) :=
  [StableHlo.reshape main_arg4 main_v1 rfl shapeCasts_S128_S1x1x128,
   StableHlo.reshape main_arg5 main_v2 rfl shapeCasts_S128_S1x1x128,
   StableHlo.reshape main_arg2 main_v3 rfl shapeCasts_S2048x128_S1x2048x128,
   StableHlo.reshape main_arg3 main_v4 rfl shapeCasts_S2x128_S1x2x128]

/-- After them: what the kernel's region is entered from. -/
def W2 (d : Dev nD) : Valuation τ sig (Elt F) := StableHlo.after hostOps (W1 m d)

/-- The same read at the TensorCore's references. -/
abbrev V2 : (c : Dev nD) → (b : Ref sig .tc) → Buf (Elt F) ((c : Thread nD τ).loc b) := fun c b => W2 m c b

end Cert.ScTile

end
-- ==== Proof.TcBlocks.lean ====
/-
  One grid point of the normalisation region, from the inside.

  The region walks a grid of two points. At a point the body is handed six staging buffers: a block of two batch
  rows of the gathered word rows, 2×2048×128 (window 0); the position table, 1×2048×128 (window 1); the pair of
  token-type rows, 1×2×128 (window 2); the scale `γ` and the shift `β`, each 1×1×128 (windows 3 and 4); and the
  block of the result it is to fill, 2×2048×128 (window 5). It reads the five inputs — of the token-type pair only
  row 0, the 1×1×128 corner at the origin — and overwrites the whole result block with ONE value, a pure function
  `k1_pay1` of what it read: the three rows summed, then normalised along the last axis, scaled and shifted.

  This module names that value as a function of the five input buffers (`out5`), shows that the one store covers the
  result buffer (`cover5`), and proves the body's triple (`sound_kernel`): the inputs are left as they were and the
  result buffer holds `out5` of them, whatever it held before. Everything is stated at any float instance `F` and over
  the separation algebra of a run that also launches the other processor's kernel: its indices are `Option (Fin 1)`,
  its user part `U` is left open.
-/
import proofs.«203468_g17523466567843_cont_7to1_1283_23_alg».proof.Proof.Gen.KernelIdeal.Launch
import proofs.«203468_g17523466567843_cont_7to1_1283_23_alg».proof.Proof.Gen.KernelIdeal.Skeleton
import proofs.«203468_g17523466567843_cont_7to1_1283_23_alg».proof.Proof.Gen.KernelIdeal.Points
import Idealize.ShloMosaic.Lib.Pipeline.FrameBody
import Idealize.ShloMosaic.Lib.Pipeline.Regions
import Idealize.ShloMosaic.Lib.SparseCore.Launch
import Idealize.ShloMosaic.Lib.Tactic

-- a rectangle of extents 2×2048×128 is examined one coordinate of its long axes at a time
set_option maxRecDepth 16384

noncomputable section

namespace Cert.TcBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] {U : Type} [URA U]

local notation "𝕄" => MT nD τ sig (Idealize.ShloMosaic.SparseCore.Cfg.HIx 1) (Elt F) ℕ U ℕ

-- what the TensorCore's buffers hold when the region is entered: left open, fixed by whoever enters it
variable (V : (c : Dev nD) → (b : Ref sig .tc) → Buf (Elt F) ((c : Thread nD τ).loc b))

/-! ## A window's block at a point -/

/-- Window `w`'s block at grid point `t`: the part of its array, as the region finds it, that the window's index
    map selects there. For windows 1–4 the map is constant and the block is the whole array at both points. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes through -/

/-- All of a 2×2048×128 buffer: the word-rows block as read, the result block as written. -/
abbrev rBlock : Rect S2x2048x128 := Rect.unit (s := S2x2048x128) ![0, 0, 0] S2x2048x128.size inb_S2x2048x128_S2x2048x128_0_0_0
/-- All of the position table's buffer. -/
abbrev rPos : Rect S1x2048x128 := Rect.unit (s := S1x2048x128) ![0, 0, 0] S1x2048x128.size inb_S1x2048x128_S1x2048x128_0_0_0
/-- Row 0 of the token-type pair: the 1×1×128 corner at the origin of the 1×2×128 buffer. -/
abbrev rType0 : Rect S1x2x128 := Rect.unit (s := S1x2x128) ![0, 0, 0] S1x1x128.size inb_S1x2x128_S1x1x128_0_0_0
/-- All of a 1×1×128 buffer: the scale, the shift. -/
abbrev rVec : Rect S1x1x128 := Rect.unit (s := S1x1x128) ![0, 0, 0] S1x1x128.size inb_S1x1x128_S1x1x128_0_0_0

/-! ## What the body leaves in the result buffer -/

/-- The result buffer after the body, as a function of the five input buffers: its one store, of `k1_pay1` at the
    five values read — each input through its rectangle, the token-type pair through its row-0 corner. -/
def out5 (x0 : Vec F S2x2048x128 .f32) (x1 : Vec F S1x2048x128 .f32) (x2 : Vec F S1x2x128 .f32) (x3 x4 : Vec F S1x1x128 .f32) :
    Vec F S2x2048x128 .f32 :=
  View.canon [⟨rBlock, k1_pay1 (View.ld x0 rBlock) (View.ld x1 rPos) (View.ld x2 rType0) (View.ld x3 rVec) (View.ld x4 rVec)⟩]

/-- The one store is through the whole-buffer rectangle, so every index of the result buffer lies in it. -/
theorem cover5 (p0 : Vec F S2x2048x128 .f32) (y : S2x2048x128.Idx) :
    ∃ pc ∈ ([⟨rBlock, p0⟩] : List (View.Piece (Elt F) S2x2048x128 .f32)), y ∈ pc.1.set :=
  View.cover_of_tiled [⟨rBlock, p0⟩] S2x2048x128.size (by rfl) y

/-! ## The body's triple -/

set_option maxHeartbeats 1000000 in
/-- The body on six whole buffers — the inputs at contents `x0 … x4`, the result buffer at anything — runs, at every
    grid coordinate `i`, to a state where the inputs hold what they held and the result buffer holds
    `out5 x0 x1 x2 x3 x4`. The body reads the result buffer once before it writes it; the value read goes nowhere,
    which is why the buffer's earlier contents do not matter. -/
theorem sound_kernel (i : grid1.Coords) (c : Dev nD) (E : Set ℕ)
    (arg1 : Memref sig .tc .vmem S2x2048x128 .f32) (harg1 : arg1.IsWhole) (arg2 : Memref sig .tc .vmem S1x2048x128 .f32) (harg2 : arg2.IsWhole)
    (arg3 : Memref sig .tc .vmem S1x2x128 .f32) (harg3 : arg3.IsWhole) (arg4 : Memref sig .tc .vmem S1x1x128 .f32) (harg4 : arg4.IsWhole)
    (arg5 : Memref sig .tc .vmem S1x1x128 .f32) (harg5 : arg5.IsWhole) (arg6 : Memref sig .tc .vmem S2x2048x128 .f32) (harg6 : arg6.IsWhole)
    (x0 : Vec F S2x2048x128 .f32) (x1 : Vec F S1x2048x128 .f32) (x2 : Vec F S1x2x128 .f32) (x3 x4 : Vec F S1x1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc1__ln_body i arg1 harg1 arg2 harg2 arg3 harg3 arg4 harg4 arg5 harg5 arg6 harg6) K := by
  simp only [cc1__ln_body_eq_skeleton]; unfold cc1__ln_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5 _)

/-- info: 'Cert.TcBody.sound_kernel' depends on axioms: [propext, Classical.choice, Quot.sound] -/
#guard_msgs in #print axioms sound_kernel

end Cert.TcBody

end
-- ==== Proof.TcBody.lean ====
/-
  The normalisation region's proof data, and the body's obligation at every grid point.

  The pipeline's rule asks, per core, for the contents of each window's staging buffer after the body at each point,
  and for a proof that the body, handed the buffers as the schedule leaves them, produces exactly those. Here the
  answer is uniform in the point: every input buffer holds its window's block there, before the body and after it,
  and the result buffer holds `out5` of the five input blocks.

  That an input buffer holds its block BEFORE the body needs an argument only for windows 1–4. Window 0 is fetched
  at both points. The other four are fetched at the first point alone; at the second the buffer still holds what the
  body left at the first, which is the first point's block, and the window's index map is constant, so that is the
  second point's block too. One library lemma covers both cases: an input whose body leaves its block in place
  holds, at every point, what a fetch there would have put — whether or not one happened.

  The body touches neither the core's scratch nor its generator register, and owes no other core anything; the
  invariant carried from point to point is just those two, at some contents, and the tallies stay at zero.
-/
import proofs.«203468_g17523466567843_cont_7to1_1283_23_alg».proof.Proof.TcBlocks

-- a rectangle of extents 2×2048×128 is examined one coordinate of its long axes at a time
set_option maxRecDepth 16384

noncomputable section

namespace Cert.TcBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] {U : Type} [URA U]

local notation "𝕄" => MT nD τ sig (Idealize.ShloMosaic.SparseCore.Cfg.HIx 1) (Elt F) ℕ U ℕ

-- what the TensorCore's buffers hold when the region is entered: left open, fixed by whoever enters it
variable (V : (c : Dev nD) → (b : Ref sig .tc) → Buf (Elt F) ((c : Thread nD τ).loc b))
-- a bound on the (semaphore, index) pairs the core's waits have recorded: left open as well, the same at every point
variable (Rc : Set (SemLoc sig × Idealize.ShloMosaic.SparseCore.Cfg.HIx 1))

/-! ## An input's buffer holds its block at every point

Stated for ANY proof data whose arrays are the entry contents (`hA`) and whose body leaves the input's block in place
(`hafter`); none of the five windows is clipped at an edge and none has an idle point. -/

/-- The word-rows window: fetched at both points, a different block at each. -/
theorem before0_of {c : Dev nD} (dat : Dat τ (Elt F) (Idealize.ShloMosaic.SparseCore.Cfg.HIx 1) ℕ U ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The position table: fetched once; its index map is constant, so the block never changes. -/
theorem before1_of {c : Dev nD} (dat : Dat τ (Elt F) (Idealize.ShloMosaic.SparseCore.Cfg.HIx 1) ℕ U ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The token-type pair: fetched once, whole; constant index map. -/
theorem before2_of {c : Dev nD} (dat : Dat τ (Elt F) (Idealize.ShloMosaic.SparseCore.Cfg.HIx 1) ℕ U ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The scale: fetched once; constant index map. -/
theorem before3_of {c : Dev nD} (dat : Dat τ (Elt F) (Idealize.ShloMosaic.SparseCore.Cfg.HIx 1) ℕ U ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The shift: fetched once; constant index map. -/
theorem before4_of {c : Dev nD} (dat : Dat τ (Elt F) (Idealize.ShloMosaic.SparseCore.Cfg.HIx 1) ℕ U ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The invariant and the proof data -/

/-- What the region carries from point to point on core `c` and the body never looks at: the core's scoped buffers
    that are no staging buffer of this pipeline, each at some contents, and its generator register at some state. -/
def ΦTc (c : Dev nD) : sProp 𝕄 :=
  iprop(Pipeline.scopedRest (Ix := Idealize.ShloMosaic.SparseCore.Cfg.HIx 1) (Name := ℕ) (U := U) (Lvl := ℕ) (Val := Elt F) spec1 c ∗ ∃ r, prngReg c r)

/-- The proof data of the pipeline on core `c`: the arrays as the region finds them; after the body at point `t`
    each input buffer at its block and the result buffer at `out5` of the five input blocks; the invariant `ΦTc`;
    full shares; nothing owed; the recorded pairs within `Rc` at every point (the body records none). -/
def dat (c : Dev nD) : Dat τ (Elt F) (Idealize.ShloMosaic.SparseCore.Cfg.HIx 1) ℕ U ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := ΦTc c
  q _ := fullShare
  owed _ := 0
  recorded _ := Rc

/-- The proof data's arrays are the entry contents. -/
theorem A_eq (c : Dev nD) (w : Fin cfg1.W) : (dat (U := U) V Rc c).A w = V c (Pipeline.arrRef spec1 w) := by
  dsimp only [dat]

/-- Its invariant is the same at every point. -/
theorem Φ_eq (c : Dev nD) (t : Fin (cfg1.N + 1)) : (dat (U := U) V Rc c).Φ t = ΦTc c := by
  dsimp only [dat]

/-- What the body leaves, window by window. -/
theorem after0 (c : Dev nD) (t : Fin cfg1.N) : (dat (U := U) V Rc c).after 0 t = iblk V c 0 t := by dsimp only [dat]
theorem after1 (c : Dev nD) (t : Fin cfg1.N) : (dat (U := U) V Rc c).after 1 t = iblk V c 1 t := by dsimp only [dat]
theorem after2 (c : Dev nD) (t : Fin cfg1.N) : (dat (U := U) V Rc c).after 2 t = iblk V c 2 t := by dsimp only [dat]
theorem after3 (c : Dev nD) (t : Fin cfg1.N) : (dat (U := U) V Rc c).after 3 t = iblk V c 3 t := by dsimp only [dat]
theorem after4 (c : Dev nD) (t : Fin cfg1.N) : (dat (U := U) V Rc c).after 4 t = iblk V c 4 t := by dsimp only [dat]
theorem after5 (c : Dev nD) (t : Fin cfg1.N) :
    (dat (U := U) V Rc c).after 5 t = out5 (iblk V c 0 t) (iblk V c 1 t) (iblk V c 2 t) (iblk V c 3 t) (iblk V c 4 t) := by dsimp only [dat]

/-- What the body finds: every input's buffer at its block, at every point. -/
theorem before0 (c : Dev nD) (t : Fin cfg1.N) (d) : (dat (U := U) V Rc c).before 0 t d = iblk V c 0 t :=
  before0_of V (dat V Rc c) (A_eq V Rc c 0) (after0 V Rc c) t d
theorem before1 (c : Dev nD) (t : Fin cfg1.N) (d) : (dat (U := U) V Rc c).before 1 t d = iblk V c 1 t :=
  before1_of V (dat V Rc c) (A_eq V Rc c 1) (after1 V Rc c) t d
theorem before2 (c : Dev nD) (t : Fin cfg1.N) (d) : (dat (U := U) V Rc c).before 2 t d = iblk V c 2 t :=
  before2_of V (dat V Rc c) (A_eq V Rc c 2) (after2 V Rc c) t d
theorem before3 (c : Dev nD) (t : Fin cfg1.N) (d) : (dat (U := U) V Rc c).before 3 t d = iblk V c 3 t :=
  before3_of V (dat V Rc c) (A_eq V Rc c 3) (after3 V Rc c) t d
theorem before4 (c : Dev nD) (t : Fin cfg1.N) (d) : (dat (U := U) V Rc c).before 4 t d = iblk V c 4 t :=
  before4_of V (dat V Rc c) (A_eq V Rc c 4) (after4 V Rc c) t d

/-! ## The body's obligation at a point -/

/-- What the body is handed at point `t`: the invariant, what the core owes, and the six current staging buffers —
    each at what the schedule has left in it. -/
def bodyPre (c : Dev nD) (t : Fin cfg1.N) : sProp 𝕄 :=
  iprop((dat (U := U) V Rc c).Φ t.castSucc ∗ (dat (U := U) V Rc c).owesAt (default : Idealize.ShloMosaic.SparseCore.Cfg.HIx 1) t.castSucc
    ∗ (∃ d, owns (c : Thread nD τ) (st1_0 t) fullShare ((dat (U := U) V Rc c).before 0 t d))
    ∗ (∃ d, owns (c : Thread nD τ) (st1_1 t) fullShare ((dat (U := U) V Rc c).before 1 t d))
    ∗ (∃ d, owns (c : Thread nD τ) (st1_2 t) fullShare ((dat (U := U) V Rc c).before 2 t d))
    ∗ (∃ d, owns (c : Thread nD τ) (st1_3 t) fullShare ((dat (U := U) V Rc c).before 3 t d))
    ∗ (∃ d, owns (c : Thread nD τ) (st1_4 t) fullShare ((dat (U := U) V Rc c).before 4 t d))
    ∗ (∃ d, owns (c : Thread nD τ) (st1_5 t) fullShare ((dat (U := U) V Rc c).before 5 t d)))

/-- What it hands back: the same invariant and debts, and the six buffers at what the proof data says it leaves. -/
def bodyPost (c : Dev nD) (t : Fin cfg1.N) : sProp 𝕄 :=
  iprop((dat (U := U) V Rc c).Φ t.succ ∗ (dat (U := U) V Rc c).owesAt (default : Idealize.ShloMosaic.SparseCore.Cfg.HIx 1) t.succ
    ∗ owns (c : Thread nD τ) (st1_0 t) fullShare ((dat (U := U) V Rc c).after 0 t)
    ∗ owns (c : Thread nD τ) (st1_1 t) fullShare ((dat (U := U) V Rc c).after 1 t)
    ∗ owns (c : Thread nD τ) (st1_2 t) fullShare ((dat (U := U) V Rc c).after 2 t)
    ∗ owns (c : Thread nD τ) (st1_3 t) fullShare ((dat (U := U) V Rc c).after 3 t)
    ∗ owns (c : Thread nD τ) (st1_4 t) fullShare ((dat (U := U) V Rc c).after 4 t)
    ∗ owns (c : Thread nD τ) (st1_5 t) fullShare ((dat (U := U) V Rc c).after 5 t))

/-- The body at any point: the five input buffers hold their blocks, so the body's triple applies with those blocks
    for `x0 … x4`; the invariant and the core's debts are carried across untouched. -/
theorem sound_body (c : Dev nD) (t : Fin cfg1.N) :
    bodyPre (U := U) V Rc c t ⊢ wp frame (wpE (defs₀ (F := F)) Variants.none c none) Set.univ (bodyAt1 t) (fun _ => bodyPost (U := U) V Rc c t) := by
  unfold bodyPre bodyPost bodyAt1
  simp only [before0, before1, before2, before3, before4]
  rw [show (dat (U := U) V Rc c).Φ t.succ = (dat (U := U) V Rc c).Φ t.castSucc from rfl,
    show (dat (U := U) V Rc c).owesAt (default : Idealize.ShloMosaic.SparseCore.Cfg.HIx 1) t.succ = (dat (U := U) V Rc c).owesAt (default : Idealize.ShloMosaic.SparseCore.Cfg.HIx 1) t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel (grid1.coords t) c Set.univ _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's body obligation, at every point. -/
theorem body_obligation (c : Dev nD) :
    BodyObligation (dat (F := F) (U := U) V Rc c) (defs₀ (F := F)) Variants.none (default : Idealize.ShloMosaic.SparseCore.Cfg.HIx 1) Set.univ := fun t => by
  rw [bigSep_W1, bigSep_W1]
  exact sound_body V Rc c t

/-- info: 'Cert.TcBody.body_obligation' depends on axioms: [propext, Classical.choice, Quot.sound] -/
#guard_msgs in #print axioms body_obligation

end Cert.TcBody

end
-- ==== Proof.ScRegion.lean ====
/-
  The normalising kernel's region as @main enters it: from every unscoped buffer at the contents the gather and the four
  reshapes leave, to the same with the kernel's result written; the core owes nothing, and the pairs its waits have
  recorded stay within the level its handshake state allows after the one SparseCore call.
-/
import proofs.«203468_g17523466567843_cont_7to1_1283_23_alg».proof.Proof.ScPay
import proofs.«203468_g17523466567843_cont_7to1_1283_23_alg».proof.Proof.ScVals
import proofs.«203468_g17523466567843_cont_7to1_1283_23_alg».proof.Proof.TcBody
import Idealize.ShloMosaic.Lib.Pipeline.FrameSuffix
import Idealize.ShloMosaic.Lib.Pipeline.RegionsLoop

noncomputable section

namespace Cert.ScTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S4x2048 EltTy.i32)
local notation "xV" => (Memref.whole Cert.KernelIdeal.main_arg1_scv : Memref Cert.KernelIdeal.sig Kind.scVector Space.hbm Cert.KernelIdeal.S1000000x128 EltTy.f32)
local notation "oV" => (Memref.whole Cert.KernelIdeal.main_v0_scv : Memref Cert.KernelIdeal.sig Kind.scVector Space.hbm Cert.KernelIdeal.S4x2048x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x128 EltTy.f32)

open Idealize.ShloMosaic.TcCoe

/-! ## The normalising kernel's region, entered from the gathered rows and the reshaped tables -/

/-- No pipeline has a prefetched table. -/
abbrev adm : (p : Fin 1) → (pcfgs (F := F) p).Adm := fun p => (cfgs p).toPCfg_adm

/-- The (semaphore, index) pairs a TensorCore may have recorded when it reaches the region: those at or below the level
    its handshake state allows after the one call. -/
abbrev Rc (c : Dev nD) : Set (SemLoc sig × HIx 1) := {p | (K (F := F)).lev (T c, p.1) p.2 ≤ 8 * 1}

/-- The pipeline's proof data at the region's entry contents. -/
def pdats : (p : Fin 1) → (c : Dev nD) → Pipeline.Dat τ (Elt F) (HIx 1) ℕ UU ℕ (Pipeline.pin (pcfgs (F := F)) adm p) c
  | ⟨0, _⟩ => fun c => Cert.TcBody.dat (F := F) (U := UU) (V2 m) (Rc (F := F) c) c

/-- At the region's exit: its arrays at what the pipeline leaves, every other buffer as entered. -/
def W3 (c : Dev nD) : Valuation τ sig (Elt F) :=
  Pipeline.withArrays spec1 c (W2 m c) fun w => (Cert.TcBody.dat (F := F) (U := UU) (V2 m) (Rc (F := F) c) c).arrAt w cfg1.N
theorem W3_arr (c : Dev nD) (w : Fin cfg1.W) :
    W3 m c (Proc.devRef .tc (Pipeline.arrRef spec1 w)) = (Cert.TcBody.dat (F := F) (U := UU) (V2 m) (Rc (F := F) c) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) :
    (Cert.TcBody.dat (F := F) (U := UU) (V2 m) (Rc (F := F) c) c).arrAt w cfg1.N = V3 m c (Pipeline.arrRef spec1 w) := (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- What rides beside the buffers through the region: the generator register at some state, and the core owing nothing,
    its recorded pairs within the level its handshake state allows. -/
abbrev RR (c : Dev nD) : sProp 𝕄 :=
  iprop((∃ r, prngReg c r) ∗ ∃ W, ⌜(K (F := F)).WBelow (T c) W (8 * 1)⌝ ∗ owes (T c) (0 : CellTallies nD τ sig (HIx 1)) W)

set_option backward.isDefEq.respectTransparency.types false in
/-- The region over the thread state: entered from every unscoped buffer at the reshaped contents, left with the kernel's
    result written; the generator register into the class invariant and out; nothing owed. -/
def reg : Pipeline.RegionSeg (pcfgs (F := F)) adm (pdats m) (default : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (Cert.TcBody.body_obligation (F := F) (U := UU) (V2 m) (Rc (F := F) c) c).loose
  hwaits := Pipeline.hwaits_of_owed_zero _ _ _ _ _ _ 0 fun _ _ => rfl
  pre c := iprop(StableHlo.held (c : Thread nD τ) (Pipeline.ucRefs τ sig) (W2 m c) ∗ RR (F := F) c)
  post c := iprop(StableHlo.held (c : Thread nD τ) (Pipeline.ucRefs τ sig) (W3 m c) ∗ RR (F := F) c)
  X c := iprop(∃ r, prngReg c r)
  Y c := iprop(∃ r, prngReg c r)
  Z c := Pipeline.unscopedRest (Ix := HIx 1) (Name := ℕ) (U := UU) (Lvl := ℕ) spec1 c (V2 m c)
  hentry c := by
    rw [Pipeline.ownSems0_none]
    have hsplit := Pipeline.arrays_of_unscopedBufs (p := 0) (pcfgs (F := F)) adm (pdats m) launch1.win launch1.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 0 c).Φ 0 = Cert.TcBody.ΦTc c from rfl]; unfold Cert.TcBody.ΦTc
    iintro ⟨Hp, -, Hr⟩
    isplitl [Hr]; · iexact Hr
    iexact Hp
  hout c := by
    rw [Pipeline.ownSems0_none, show (pdats m 0 c).Φ (Fin.last _) = Cert.TcBody.ΦTc c from rfl]; unfold Cert.TcBody.ΦTc
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m) ((pdats m 0 c).share_full fun _ => rfl)
      (V2 m c) (V3 m c) ((pdats m 0 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW hp with h | ⟨w, s, rfl⟩
      · exact h
      · show (K (F := F)).lev _ none ≤ _; rw [SparseCore.Cfg.lev_none]; exact Nat.zero_le _
    iexact HO

end Cert.ScTile

end
-- ==== Proof.ScMain.lean ====
/-
  @main on the TensorCore and the program's run: the gather's call, the four reshapes, the normalising kernel's region;
  then the final memory read back — every argument as launched, the result buffer at the kernel's final array.
-/
import proofs.«203468_g17523466567843_cont_7to1_1283_23_alg».proof.Proof.ScRegion

noncomputable section

namespace Cert.ScTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S4x2048 EltTy.i32)
local notation "xV" => (Memref.whole Cert.KernelIdeal.main_arg1_scv : Memref Cert.KernelIdeal.sig Kind.scVector Space.hbm Cert.KernelIdeal.S1000000x128 EltTy.f32)
local notation "oV" => (Memref.whole Cert.KernelIdeal.main_v0_scv : Memref Cert.KernelIdeal.sig Kind.scVector Space.hbm Cert.KernelIdeal.S4x2048x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x128 EltTy.f32)

open Idealize.ShloMosaic.TcCoe

/-! ## @main on the TensorCore -/

/-- The three buffers the gather takes, among the TensorCore's unscoped ones. -/
abbrev gRefs : Finset (DevRef τ sig) := {Proc.devRef .tc main_arg0, Proc.devRef .tc main_arg1, Proc.devRef .tc main_v0}

theorem held3 (d : Dev nD) (W : Valuation τ sig (Elt F)) :
    (StableHlo.held (T d) (Pipeline.ucRefs τ sig) W : sProp 𝕄)
      = iprop(((iLoc d ↦{fullShare} W (Proc.devRef .tc main_arg0)) ∗ (xLoc d ↦{fullShare} W (Proc.devRef .tc main_arg1)) ∗ (oLoc d ↦{fullShare} W (Proc.devRef .tc main_v0)))
          ∗ StableHlo.held (T d) (Pipeline.ucRefs τ sig \ gRefs) W) := by
  rw [StableHlo.held_sub_split (T d) (show gRefs ⊆ Pipeline.ucRefs τ sig from by decide) W]
  congr 1
  unfold StableHlo.held
  rw [SparseCore.bigSep_insert' (by decide), SparseCore.bigSep_insert' (by decide), bigSep_singleton]

theorem W1_v0 (d : Dev nD) : W1 m d (Proc.devRef .tc main_v0) = gath m d := by unfold W1; exact Function.update_self _ _ _
theorem W1_of_ne (d : Dev nD) (b : DevRef τ sig) (h : b ≠ Proc.devRef .tc main_v0) : W1 m d b = W0 m d b := by
  unfold W1; exact Function.update_of_ne h _ _

/-- The unscoped buffers after the gather: the index array and the word table as launched, the result buffer at the
    gathered rows, the others as launched. -/
theorem held_W1 (d : Dev nD) :
    iprop(((iLoc d ↦{fullShare} m (iLoc d)) ∗ (xLoc d ↦{fullShare} m (xLoc d)) ∗ (oLoc d ↦{fullShare} gath m d))
        ∗ StableHlo.held (T d) (Pipeline.ucRefs τ sig \ gRefs) (W0 m d))
      ⊢ (StableHlo.held (T d) (Pipeline.ucRefs τ sig) (W1 m d) : sProp 𝕄) := by
  rw [held3 d (W1 m d), W1_v0, W1_of_ne m d _ (by decide), W1_of_ne m d _ (by decide),
    StableHlo.held_congr (T d) (V := W1 m d) (V' := W0 m d) fun b hb => W1_of_ne m d b fun e => by
      subst e; exact (Finset.mem_sdiff.mp hb).2 (by decide)]

theorem st0_eq (d : Dev nD) : (bigSep Finset.univ fun c : Fin ((K (F := F)).nCore 0) => (P m).st 0 d c)
    = iprop((bigSep Finset.univ fun c : Fin 2 => iSh m d (qC c)) ∗ (bigSep Finset.univ fun c : Fin 2 => xSh m d (qC c))
        ∗ bigSep Finset.univ fun c : Fin 2 => bigSep Finset.univ fun s : Fin 16 => oPcs d c s (m (oLoc d))) := by
  rw [← bigSep_sep', ← bigSep_sep']
  exact bigSep_congr fun c _ => rfl
theorem dn0_eq (d : Dev nD) : (bigSep Finset.univ fun c : Fin ((K (F := F)).nCore 0) => (P m).dn 0 d c)
    = iprop((bigSep Finset.univ fun c : Fin 2 => iSh m d (qC c)) ∗ (bigSep Finset.univ fun c : Fin 2 => xSh m d (qC c))
        ∗ bigSep Finset.univ fun c : Fin 2 => bigSep Finset.univ fun s : Fin 16 => oPcs d c s (gath m d)) := by
  rw [← bigSep_sep', ← bigSep_sep']
  exact bigSep_congr fun c _ => rfl

theorem Otc_one (d : Dev nD) : (K (F := F)).Otc d 1 = 0 := by
  unfold SparseCore.Cfg.Otc
  exact Finset.sum_eq_zero fun q _ => if_neg (by have := q.isLt; omega)

/-- What @main leaves: the unscoped buffers at the region's exit contents. -/
abbrev FIN (d : Dev nD) : sProp 𝕄 := StableHlo.held (T d) (Pipeline.ucRefs τ sig) (W3 m d)

/-- The launch's unscoped buffers, as the set held at the launch valuation. -/
theorem tcBufs_held (d : Dev nD) :
    (unscopedBufs d (fun b => m ((SparseCore.T d).loc b)) : sProp 𝕄) = StableHlo.held (SparseCore.T d) (Pipeline.ucRefs τ sig) (W0 m d) :=
  Pipeline.unscopedBufs_held d (W0 m d)

set_option maxHeartbeats 1000000 in
/-- The gather's call: from the unscoped buffers as launched to the same with the result buffer at the gathered rows. -/
theorem run_step (κ : GSem nD τ sig → ℕ) (d : Dev nD) {Φ : PUnit → sProp 𝕄} :
    iprop((K (F := F)).ctx EH (P m) κ ∗ (K (F := F)).tcSt EH d 0 ∗ StableHlo.held (SparseCore.T d) (Pipeline.ucRefs τ sig) (W0 m d)
        ∗ (iprop((K (F := F)).tcSt EH d 1 ∗ StableHlo.held (SparseCore.T d) (Pipeline.ucRefs τ sig) (W1 m d)) -∗ Φ ⟨⟩))
      ⊢ wp frame (wpE ((K (F := F)).defs (D (F := F))) 𝒱 (SparseCore.T d) none) Set.univ ((K (F := F)).run d 0) Φ := by
  rw [held3]
  iintro ⟨#Hctx, Hst, ⟨⟨Hi, Hx, Ho⟩, Hrest⟩, Hk⟩
  -- the read shares, one per SparseCore; the result buffer in its 64 chunks
  ihave Hi2 := (Transfers.pointsTo_toks_split fullShare 2) $$ Hi
  icases Hi2 with ⟨HiR, HiT⟩
  ihave Hx2 := (Transfers.pointsTo_toks_split fullShare 2) $$ Hx
  icases Hx2 with ⟨HxR, HxT⟩
  ihave Ho2 := (Entails.of_eq (oPts_chunks (F := F) d (W0 m d (Proc.devRef .tc main_v0)))) $$ Ho
  iapply ((K (F := F)).wp_run (D (F := F)) 𝒱 (EH := EH) (P := P m) κ d 0) $$ [Hst HiT HxT Ho2 HiR HxR Hrest Hk]
  isplitr; · iexact Hctx
  isplitl [Hst]; · iexact Hst
  isplitl [HiT HxT Ho2]
  · rw [st0_eq]
    isplitl [HiT]; · iexact HiT
    isplitl [HxT]; · iexact HxT
    iexact Ho2
  iintro ⟨Hst, Hdn⟩
  ihave Hdn' := (Entails.of_eq (dn0_eq m d)) $$ Hdn
  icases Hdn' with ⟨HiT, HxT, Ho2⟩
  ihave Hi := (Transfers.pointsTo_toks_join fullShare 2) $$ [HiR HiT]; · isplitl [HiR] <;> iassumption
  ihave Hx := (Transfers.pointsTo_toks_join fullShare 2) $$ [HxR HxT]; · isplitl [HxR] <;> iassumption
  ihave Ho := (Entails.of_eq (oPts_chunks (F := F) d (gath m d)).symm) $$ Ho2
  ihave Hh := (held_W1 m d) $$ [Hi Hx Ho Hrest]
  · isplitl [Hi Hx Ho]
    · isplitl [Hi]; · iexact Hi
      isplitl [Hx]; · iexact Hx
      iexact Ho
    iexact Hrest
  iapply Hk
  isplitl [Hst]; · iexact Hst
  iexact Hh

/-- The four reshapes, by name. -/
abbrev op1 : HloOp τ sig (Elt F) := StableHlo.reshape main_arg4 main_v1 rfl shapeCasts_S128_S1x1x128
abbrev op2 : HloOp τ sig (Elt F) := StableHlo.reshape main_arg5 main_v2 rfl shapeCasts_S128_S1x1x128
abbrev op3 : HloOp τ sig (Elt F) := StableHlo.reshape main_arg2 main_v3 rfl shapeCasts_S2048x128_S1x2048x128
abbrev op4 : HloOp τ sig (Elt F) := StableHlo.reshape main_arg3 main_v4 rfl shapeCasts_S2x128_S1x2x128
theorem op1_sub : (op1 (F := F)).bufs ⊆ Pipeline.ucRefs τ sig := Pipeline.sub_ucRefs _ (StableHlo.reshape_bufs_sub ..)
theorem op2_sub : (op2 (F := F)).bufs ⊆ Pipeline.ucRefs τ sig := Pipeline.sub_ucRefs _ (StableHlo.reshape_bufs_sub ..)
theorem op3_sub : (op3 (F := F)).bufs ⊆ Pipeline.ucRefs τ sig := Pipeline.sub_ucRefs _ (StableHlo.reshape_bufs_sub ..)
theorem op4_sub : (op4 (F := F)).bufs ⊆ Pipeline.ucRefs τ sig := Pipeline.sub_ucRefs _ (StableHlo.reshape_bufs_sub ..)

set_option backward.isDefEq.respectTransparency.types false in
/-- One host operation over the unscoped buffers held whole. -/
theorem hlo_step (d : Dev nD) (op : HloOp τ sig (Elt F)) (hS : op.bufs ⊆ Pipeline.ucRefs τ sig) (hf : op.fresh = ∅)
    (V : Valuation τ sig (Elt F)) {Q : PUnit → sProp 𝕄} :
    iprop(boundary (SparseCore.T d) ∗ StableHlo.held (SparseCore.T d) (Pipeline.ucRefs τ sig) V
        ∗ (iprop(boundary (SparseCore.T d) ∗ StableHlo.held (SparseCore.T d) (Pipeline.ucRefs τ sig) (op.result V)) -∗ Q ⟨⟩))
      ⊢ wp frame (wpE ((K (F := F)).defs (D (F := F))) 𝒱 (SparseCore.T d) none) Set.univ (hlo rfl op (fun _ => .ret ⟨⟩)) Q := by
  iintro ⟨Hb, Hh, Hk⟩
  iapply (StableHlo.wp_hlo_within 𝒱 (SparseCore.T d) none Set.univ (op := op) (S := Pipeline.ucRefs τ sig) hS (hf := hf)) $$ [Hb Hh]
  · isplitl [Hb] <;> iassumption
  iintro H
  rw [wp_ret]; imodintro
  iapply Hk; iexact H

set_option backward.isDefEq.respectTransparency.types false in
set_option maxHeartbeats 1000000 in
/-- The normalising kernel's region, entered through the SparseCore program's lift of the pipeline's entry. -/
theorem region_step (d : Dev nD) {Q : PUnit → sProp 𝕄} :
    iprop(boundary (SparseCore.T d) ∗ StableHlo.held (SparseCore.T d) (Pipeline.ucRefs τ sig) (W2 m d) ∗ RR (F := F) d
        ∗ levAts (K (F := F)).L (K (F := F)).lev ∗ Gd (F := F) d
        ∗ (iprop(boundary (SparseCore.T d) ∗ StableHlo.held (SparseCore.T d) (Pipeline.ucRefs τ sig) (W3 m d) ∗ RR (F := F) d) -∗ Q ⟨⟩))
      ⊢ wp frame (wpE ((K (F := F)).defs (D (F := F))) 𝒱 (SparseCore.T d) none) Set.univ
          (Prog.lift (.customCall (SparseCore.inner (Pipeline.entry (0 : Fin 1))) ())) Q := by
  iintro ⟨Hb, Hh, HR, Hlev, ⟨Hcg, Htk⟩, Hk⟩
  iapply ((K (F := F)).wp_liftProg (D (F := F)) 𝒱 (SparseCore.T d) Set.univ none
      (Prog.op (.customCall (Pipeline.entry (0 : Fin 1)) ()) fun _ => Prog.ret PUnit.unit) Q)
  iapply (Pipeline.RegionSeg.wp (pcfgs (F := F)) adm (pdats m) (default : HIx 1) cellOf_inj (EP (F := F)) defs₀ 𝒱₀ (K (F := F)).L (K (F := F)).lev
      (reg m) d none (fun u hu => nomatch hu) (fun _ => Prog.ret PUnit.unit) Q) $$ [Hb Hh HR Hlev Hcg Htk Hk]
  isplitl [Hk]
  · iintro ⟨Hb, Hpost⟩
    ihave Hpost' := (show (reg m).post d ⊢ iprop(StableHlo.held (SparseCore.T d) (Pipeline.ucRefs τ sig) (W3 m d) ∗ RR (F := F) d) from .rfl) $$ Hpost
    icases Hpost' with ⟨Hh, HR⟩
    rw [wp_ret]; imodintro
    iapply Hk
    isplitl [Hb]; · iexact Hb
    isplitl [Hh]; · iexact Hh
    iexact HR
  isplitl [Hb]; · iexact Hb
  isplitl [Hh HR]
  · iapply (show iprop(StableHlo.held (SparseCore.T d) (Pipeline.ucRefs τ sig) (W2 m d) ∗ RR (F := F) d) ⊢ (reg m).pre d from .rfl)
    isplitl [Hh]; · iexact Hh
    iexact HR
  isplitl [Hlev]; · iexact Hlev
  isplitl [Hcg]; · iexact Hcg
  iexact Htk

set_option maxHeartbeats 1000000 in
/-- @main on device `d`'s TensorCore: the gather's call, the four reshapes, the normalising kernel's region. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [tcBufs_held]
  simp only [main, wp_bind, wp_pure]
  iintro ⟨#Hctx, Hst, ⟨Hb, Hh, -, Hprng⟩, HG⟩
  iapply (run_step m κ d) $$ [Hst Hh Hb Hprng HG]
  isplitr; · iexact Hctx
  isplitl [Hst]; · iexact Hst
  isplitl [Hh]; · iexact Hh
  iintro ⟨Hst, Hh⟩
  iapply (hlo_step (F := F) d op1 op1_sub rfl _) $$ [Hb Hh Hst Hprng HG]
  isplitl [Hb]; · iexact Hb
  isplitl [Hh]; · iexact Hh
  iintro ⟨Hb, Hh⟩
  iapply (hlo_step (F := F) d op2 op2_sub rfl _) $$ [Hb Hh Hst Hprng HG]
  isplitl [Hb]; · iexact Hb
  isplitl [Hh]; · iexact Hh
  iintro ⟨Hb, Hh⟩
  iapply (hlo_step (F := F) d op3 op3_sub rfl _) $$ [Hb Hh Hst Hprng HG]
  isplitl [Hb]; · iexact Hb
  isplitl [Hh]; · iexact Hh
  iintro ⟨Hb, Hh⟩
  iapply (hlo_step (F := F) d op4 op4_sub rfl _) $$ [Hb Hh Hst Hprng HG]
  isplitl [Hb]; · iexact Hb
  isplitl [Hh]; · iexact Hh
  iintro ⟨Hb, Hh⟩
  -- the handshake state lends its `owes`: nothing is owed after the one call
  ihave Hlev := ((K (F := F)).ctx_levAts κ) $$ Hctx
  unfold SparseCore.Cfg.tcSt
  icases Hst with ⟨⟨%W, %hW, HO⟩, Hat, #Hrd, #Hrs, Htoks⟩
  rw [Otc_one]
  iapply (region_step m d) $$ [Hb Hh Hprng HO Hlev HG Hat Htoks]
  isplitl [Hb]; · iexact Hb
  isplitl [Hh]; · iexact Hh
  isplitl [Hprng HO]
  · isplitl [Hprng]; · iexists _; iexact Hprng
    iexists W; isplitr; · ipureintro; exact hW
    iexact HO
  isplitl [Hlev]; · iexact Hlev
  isplitl [HG]; · iexact HG
  iintro ⟨Hb, Hh, ⟨Hp, %W', %hW', HO⟩⟩
  imodintro
  isplitl [HO Hat Htoks]
  · isplitl [HO]
    · iexists W'; isplitr; · ipureintro; exact hW'
      iexact HO
    isplitl [Hat]; · iexact Hat
    isplitr; · iexact Hrd
    isplitr; · iexact Hrs
    iexact Htoks
  iexact Hh

/-! ## The final memory: the arguments as launched, the result at what the kernel's region leaves -/

/-- A buffer that is no window's array of the kernel, that no reshape writes and that is not the gather's result ends
    as launched. -/
theorem W3_kept (c : Dev nD) (b : Ref sig .tc) (hw : ∀ w, Pipeline.arrRef spec1 w ≠ b)
    (h1 : b ≠ main_v1) (h2 : b ≠ main_v2) (h3 : b ≠ main_v3) (h4 : b ≠ main_v4) (h0 : b ≠ main_v0) :
    W3 m c (Proc.devRef .tc b) = m ((c : Thread nD τ).loc b) := by
  refine (W3_of_ne m c b hw).trans ?_
  unfold W2
  refine (StableHlo.after_of_forall_not_mem (b := Proc.devRef .tc b) _ _ (List.forall_iff_forall_mem.mp ?_)).trans (W1_of_ne m c _ (StableHlo.devRef_ne_of_ne h0))
  simp only [hostOps, List.Forall, StableHlo.reshape_writes, Finset.mem_singleton]
  exact ⟨StableHlo.devRef_ne_of_ne h1, StableHlo.devRef_ne_of_ne h2, StableHlo.devRef_ne_of_ne h3, StableHlo.devRef_ne_of_ne h4⟩

/-- The result buffer ends at the kernel's final array. -/
theorem W3_out (c : Dev nD) :
    W3 m c (Proc.devRef .tc main_v5) = (Cert.TcBody.dat (F := F) (U := UU) (V2 m) (Rc (F := F) c) c).arrAt 5 cfg1.N := W3_arr m c 5

def fq (d : Dev nD) (s' : Phys nD τ sig (Elt F)) : Prop := ∀ b ∈ Pipeline.ucRefs τ sig, s'.mem.mem ((d, b) : Loc nD τ sig) = W3 m d b

theorem hfin (d : Dev nD) (s' : Phys nD τ sig (Elt F)) : iprop(FIN m d ∗ SI s') ⊢ (⌜fq m d s'⌝ : sProp 𝕄) := by
  unfold FIN StableHlo.held
  iintro ⟨Hh, HSI⟩
  ihave H := (pointsTo_read_all (Pipeline.ucRefs τ sig) (fun b => ((d, b) : Loc nD τ sig)) (W3 m d) s') $$ [Hh HSI]
  · isplitl [Hh] <;> iassumption
  icases H with ⟨%h, -⟩
  ipureintro; exact h

/-! ## The program's run -/

def QC : PUnit × MemSt nD τ sig (Elt F) → Prop := fun r => ∀ c : Dev nD, ∀ b ∈ Pipeline.ucRefs τ sig, r.2.mem ((c, b) : Loc nD τ sig) = W3 m c b

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => Gd (F := F) d) (FIN m) (u₀ (F := F)) (sep_elim_left.trans (hu₀ m)) (hmain m ρ) (fq m) (hfin m) (QC m) (fun _ h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with what the claims read off it: every argument buffer as launched, the result buffer at the kernel's final
    array over the gathered rows and the reshaped tables. -/
theorem run_claims [∀ e, Nonempty (Elt F e)] (hpre : PreOK m) :
    θ_run (Cert.KernelIdeal.defs (F := F)) (Cert.KernelIdeal.threads (F := F)) ⟨m, fun _ => 0, ρ⟩ (fun r => ∀ c : Dev nD,
      r.2.mem ((c.tc : Thread nD τ).loc main_v5) = (Cert.TcBody.dat (F := F) (U := UU) (V2 m) (Rc (F := F) c) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨(h c _ (mem_uc main_v5 (by decide))).trans (W3_out m c),
     (h c _ (mem_uc main_arg0 (by decide))).trans (W3_kept m c main_arg0 (by decide) (by decide) (by decide) (by decide) (by decide) (by decide)),
     (h c _ (mem_uc main_arg1 (by decide))).trans (W3_kept m c main_arg1 (by decide) (by decide) (by decide) (by decide) (by decide) (by decide)),
     (h c _ (mem_uc main_arg2 (by decide))).trans (W3_kept m c main_arg2 (by decide) (by decide) (by decide) (by decide) (by decide) (by decide)),
     (h c _ (mem_uc main_arg3 (by decide))).trans (W3_kept m c main_arg3 (by decide) (by decide) (by decide) (by decide) (by decide) (by decide)),
     (h c _ (mem_uc main_arg4 (by decide))).trans (W3_kept m c main_arg4 (by decide) (by decide) (by decide) (by decide) (by decide) (by decide)),
     (h c _ (mem_uc main_arg5 (by decide))).trans (W3_kept m c main_arg5 (by decide) (by decide) (by decide) (by decide) (by decide) (by decide))⟩)
    (run_main m ρ hpre)

end Cert.ScTile

end
-- ==== Proof.ScViewsK.lean ====
/-
  One vector subcore's task of the row gather. The 8192 tokens are dealt to the 32 vector subcores, 256 consecutive
  tokens each (subcore `(c, s)` has number `2 s + c`); a subcore handles its tokens in two chunks of 128: it copies the
  chunk's index words into its index scratch, gathers the rows of the word table those words name into its row scratch,
  and copies the gathered rows out to the chunk's rows of the result. Each gather completes on a semaphore of its own;
  the two copies out share one, and are both issued and both waited for with nothing touching their buffers between.
-/
import proofs.«203468_g17523466567843_cont_7to1_1283_23_alg».proof.Kernel
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Batch
import Idealize.ShloMosaic.Lib.Tactic
import Idealize.ShloMosaic.Lib.ValueIdx
import proofs.«203468_g17523466567843_cont_7to1_1283_23_alg».proof.Proof.Spec
import proofs.«203468_g17523466567843_cont_7to1_1283_23_alg».proof.Proof.Gen.Kernel
import proofs.«203468_g17523466567843_cont_7to1_1283_23_alg».proof.Proof.Gen.Kernel.Skeleton

noncomputable section

namespace Cert.ScTileK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

local notation "iV" => (Memref.whole Cert.Kernel.main_arg0_scv : Memref Cert.Kernel.sig Kind.scVector Space.hbm Cert.Kernel.S4x2048 EltTy.i32)
local notation "xV" => (Memref.whole Cert.Kernel.main_arg1_scv : Memref Cert.Kernel.sig Kind.scVector Space.hbm Cert.Kernel.S1000000x128 EltTy.f32)
local notation "oV" => (Memref.whole Cert.Kernel.main_v0_scv : Memref Cert.Kernel.sig Kind.scVector Space.hbm Cert.Kernel.S4x2048x128 EltTy.f32)
local notation "sV" => (Memref.whole Cert.Kernel.cc0_scratch0 : Memref Cert.Kernel.sig Kind.scVector Space.vmem Cert.Kernel.S256 EltTy.i32)
local notation "rV" => (Memref.whole Cert.Kernel.cc0_scratch1 : Memref Cert.Kernel.sig Kind.scVector Space.vmem Cert.Kernel.S256x128 EltTy.f32)

/-! ## The views a task addresses, spelt as the program spells them -/

section Tile

variable (d : Dev nD) (L : grid0.Coords)

abbrev cV (L : grid0.Coords) : Fin τ.nSC := (L 0).castLE hcore0
abbrev jV (L : grid0.Coords) : Fin τ.nSub := (L 1).castLE hsub0

/-- The two halves of the index scratch. -/
abbrev sCh0 : Memref sig .scVector .vmem S128 .i32 := (sV).slice (Rect.unit (s := S256) ![0] S128.size inb_S256_S128_0) (fun _ => rfl)
abbrev sCh1 : Memref sig .scVector .vmem S128 .i32 := (sV).slice (Rect.unit (s := S256) ![128] S128.size inb_S256_S128_128) (fun _ => rfl)
/-- The two halves of the row scratch. -/
abbrev rCh0 : Memref sig .scVector .vmem S128x128 .f32 := (rV).slice (Rect.unit (s := S256x128) ![0, 0] S128x128.size inb_S256x128_S128x128_0_0) (fun _ => rfl)
abbrev rCh1 : Memref sig .scVector .vmem S128x128 .f32 := (rV).slice (Rect.unit (s := S256x128) ![128, 0] S128x128.size inb_S256x128_S128x128_128_0) (fun _ => rfl)
/-- The subcore's two chunks of index words, and of result rows. -/
abbrev iCh0 (L : grid0.Coords) : Memref sig .scVector .hbm S128 .i32 :=
  ((iV).slice (Rect.unit (s := S4x2048) (k0_off1 L 0#32) S1x128.size (k0_off1_inb L 0)) (fun _ => rfl)).squeeze S128 squeezes_S1x128_S128
abbrev iCh1 (L : grid0.Coords) : Memref sig .scVector .hbm S128 .i32 :=
  ((iV).slice (Rect.unit (s := S4x2048) (k0_off1 L 128#32) S1x128.size (k0_off1_inb L 1)) (fun _ => rfl)).squeeze S128 squeezes_S1x128_S128
abbrev oCh0 (L : grid0.Coords) : Memref sig .scVector .hbm S128x128 .f32 :=
  ((oV).slice (Rect.unit (s := S4x2048x128) (k0_off2 L 0#32) S1x128x128.size (k0_off2_inb L 0)) (fun _ => rfl)).squeeze S128x128 squeezes_S1x128x128_S128x128
abbrev oCh1 (L : grid0.Coords) : Memref sig .scVector .hbm S128x128 .f32 :=
  ((oV).slice (Rect.unit (s := S4x2048x128) (k0_off2 L 128#32) S1x128x128.size (k0_off2_inb L 1)) (fun _ => rfl)).squeeze S128x128 squeezes_S1x128x128_S128x128
/-- The whole word table, as the gather names it. -/
abbrev xAll : Memref sig .scVector .hbm S1000000x128 .f32 :=
  (xV).slice (Rect.unit (s := S1000000x128) ![0, 0] S1000000x128.size inb_S1000000x128_S1000000x128_0_0) (fun _ => rfl)

/-- The semaphores: one per gather, one for the copies out, one per index fetch. -/
abbrev gSem0 : DmaSem sig := ((cc0_scratch2.slice (Rect.unit (s := S2) ![0] S1.size inb_S2_S1_0)).squeeze S_ squeezes_S1_S_).sem
abbrev gSem1 : DmaSem sig := ((cc0_scratch2.slice (Rect.unit (s := S2) ![1] S1.size inb_S2_S1_1)).squeeze S_ squeezes_S1_S_).sem

abbrev cell (d : Dev nD) (L : grid0.Coords) (sm : DmaSem sig) : GSem nD τ sig := (V d (cV L) (jV L), .dma sm)

theorem ownSems0_V :
    (ownSems0 (V d (cV L) (jV L)) : sProp 𝕄)
      = iprop(semVal (cell d L gSem0) 0 ∗ semVal (cell d L gSem1) 0 ∗ semVal (cell d L cc0_scratch3.sem) 0
          ∗ semVal (cell d L cc0_scoped0.sem) 0 ∗ semVal (cell d L cc0_scoped1.sem) 0
          ∗ bigSep (((((ownCells (V d (cV L) (jV L))).erase (cell d L gSem0)).erase (cell d L gSem1)).erase (cell d L cc0_scratch3.sem)).erase (cell d L cc0_scoped0.sem)
              |>.erase (cell d L cc0_scoped1.sem)) fun g => semVal g 0) := by
  unfold SparseCore.Cfg.ownSems0
  have hm : ∀ sm : DmaSem sig, (SemLoc.dma sm : SemLoc sig).isScoped .scVector = true → cell d L sm ∈ ownCells (V d (cV L) (jV L)) :=
    fun sm h => (mem_ownCells (g := cell d L sm)).mpr ⟨rfl, h⟩
  have hne : ∀ a b : DmaSem sig, a ≠ b → cell d L a ≠ cell d L b := fun a b h e => h (by simpa [cell] using e)
  rw [SparseCore.bigSep_erase' (hm gSem0 (by decide)),
    SparseCore.bigSep_erase' (Finset.mem_erase.mpr ⟨hne _ _ (by decide), hm gSem1 (by decide)⟩),
    SparseCore.bigSep_erase' (Finset.mem_erase.mpr ⟨hne _ _ (by decide), Finset.mem_erase.mpr ⟨hne _ _ (by decide), hm cc0_scratch3.sem (by decide)⟩⟩),
    SparseCore.bigSep_erase' (Finset.mem_erase.mpr ⟨hne _ _ (by decide), Finset.mem_erase.mpr ⟨hne _ _ (by decide), Finset.mem_erase.mpr ⟨hne _ _ (by decide), hm cc0_scoped0.sem (by decide)⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), hm cc0_scoped1.sem (by decide)⟩⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

abbrev oSet0 (L : grid0.Coords) : Finset S4x2048x128.Idx := (oCh0 L).view.set
abbrev oSet1 (L : grid0.Coords) : Finset S4x2048x128.Idx := (oCh1 L).view.set

/-! ## The scratch buffers in halves -/

abbrev sR0 : Rect S256 := Rect.unit (s := S256) ![0] S128.size inb_S256_S128_0
abbrev sR1 : Rect S256 := Rect.unit (s := S256) ![128] S128.size inb_S256_S128_128
abbrev rR0 : Rect S256x128 := Rect.unit (s := S256x128) ![0, 0] S128x128.size inb_S256x128_S128x128_0_0
abbrev rR1 : Rect S256x128 := Rect.unit (s := S256x128) ![128, 0] S128x128.size inb_S256x128_S128x128_128_0

theorem sCh0_set : (sCh0).view.set = sR0.set := by
  show ((View.whole (cc0_scratch0 : Ref sig .scVector)).slice sR0).set = _
  rw [View.set_slice]; exact Finset.map_refl
theorem sCh1_set : (sCh1).view.set = sR1.set := by
  show ((View.whole (cc0_scratch0 : Ref sig .scVector)).slice sR1).set = _
  rw [View.set_slice]; exact Finset.map_refl
theorem rCh0_set : (rCh0).view.set = rR0.set := by
  show ((View.whole (cc0_scratch1 : Ref sig .scVector)).slice rR0).set = _
  rw [View.set_slice]; exact Finset.map_refl
theorem rCh1_set : (rCh1).view.set = rR1.set := by
  show ((View.whole (cc0_scratch1 : Ref sig .scVector)).slice rR1).set = _
  rw [View.set_slice]; exact Finset.map_refl

theorem s_disj : Disjoint (sCh0).view.set (sCh1).view.set := by
  rw [sCh0_set, sCh1_set]; exact Rect.unit_disjoint 0 (.inl (by decide))
theorem r_disj : Disjoint (rCh0).view.set (rCh1).view.set := by
  rw [rCh0_set, rCh1_set]; exact Rect.unit_disjoint 0 (.inl (by decide))

theorem s_union : (sCh0).view.set ∪ (sCh1).view.set = Finset.univ := by
  rw [sCh0_set, sCh1_set]
  refine Finset.eq_univ_iff_forall.mpr fun i => Finset.mem_union.mpr ?_
  have hi : (i 0).val < 256 := (i 0).isLt
  by_cases h : (i 0).val < 128
  · exact .inl (Rect.mem_set_unit.mpr (Fin.forall_fin_one.mpr (show (0 : ℕ) ≤ (i 0).val ∧ (i 0).val < 0 + 128 from ⟨Nat.zero_le _, by omega⟩)))
  · exact .inr (Rect.mem_set_unit.mpr (Fin.forall_fin_one.mpr (show (128 : ℕ) ≤ (i 0).val ∧ (i 0).val < 128 + 128 from ⟨by omega, by omega⟩)))

theorem r_union : (rCh0).view.set ∪ (rCh1).view.set = Finset.univ := by
  rw [rCh0_set, rCh1_set]
  refine Finset.eq_univ_iff_forall.mpr fun i => Finset.mem_union.mpr ?_
  have hi : (i 0).val < 256 := (i 0).isLt
  have hk : (i 1).val < 128 := (i 1).isLt
  by_cases h : (i 0).val < 128
  · exact .inl (Rect.mem_set_unit.mpr (Fin.forall_fin_two.mpr
      ⟨show (0 : ℕ) ≤ (i 0).val ∧ (i 0).val < 0 + 128 from ⟨Nat.zero_le _, by omega⟩, show (0 : ℕ) ≤ (i 1).val ∧ (i 1).val < 0 + 128 from ⟨Nat.zero_le _, by omega⟩⟩))
  · exact .inr (Rect.mem_set_unit.mpr (Fin.forall_fin_two.mpr
      ⟨show (128 : ℕ) ≤ (i 0).val ∧ (i 0).val < 128 + 128 from ⟨by omega, by omega⟩, show (0 : ℕ) ≤ (i 1).val ∧ (i 1).val < 0 + 128 from ⟨Nat.zero_le _, by omega⟩⟩))

section Halves
variable (d : Dev nD) (L : grid0.Coords)

/-- The index scratch, whole, is its two halves; -/
theorem s_halves (f : Buf (Elt F) ((V d (cV L) (jV L)).loc cc0_scratch0)) :
    ((V d (cV L) (jV L)).loc cc0_scratch0 ↦{fullShare} f : sProp 𝕄)
      ⊣⊢ iprop(((sCh0).view.loc (V d (cV L) (jV L)) ↦[(sCh0).view.set]{fullShare} f) ∗ ((sCh1).view.loc (V d (cV L) (jV L)) ↦[(sCh1).view.set]{fullShare} f)) := by
  have h : (((V d (cV L) (jV L)).loc cc0_scratch0 ↦[(sCh0).view.set ∪ (sCh1).view.set]{fullShare} f : sProp 𝕄)
      ⊣⊢ iprop(((V d (cV L) (jV L)).loc cc0_scratch0 ↦[(sCh0).view.set]{fullShare} f) ∗ ((V d (cV L) (jV L)).loc cc0_scratch0 ↦[(sCh1).view.set]{fullShare} f))) :=
    pointsTo_union s_disj
  rw [s_union] at h
  exact h
/-- and the row scratch its two. -/
theorem r_halves (f : Buf (Elt F) ((V d (cV L) (jV L)).loc cc0_scratch1)) :
    ((V d (cV L) (jV L)).loc cc0_scratch1 ↦{fullShare} f : sProp 𝕄)
      ⊣⊢ iprop(((rCh0).view.loc (V d (cV L) (jV L)) ↦[(rCh0).view.set]{fullShare} f) ∗ ((rCh1).view.loc (V d (cV L) (jV L)) ↦[(rCh1).view.set]{fullShare} f)) := by
  have h : (((V d (cV L) (jV L)).loc cc0_scratch1 ↦[(rCh0).view.set ∪ (rCh1).view.set]{fullShare} f : sProp 𝕄)
      ⊣⊢ iprop(((V d (cV L) (jV L)).loc cc0_scratch1 ↦[(rCh0).view.set]{fullShare} f) ∗ ((V d (cV L) (jV L)).loc cc0_scratch1 ↦[(rCh1).view.set]{fullShare} f))) :=
    pointsTo_union r_disj
  rw [r_union] at h
  exact h

theorem pts_iV (q : PosShare TreeShare) (f : Buf (Elt F) (iLoc d)) :
    ((iV).view.loc (V d (cV L) (jV L)) ↦{q} f : sProp 𝕄) = iLoc d ↦{q} f := rfl
theorem pts_xV (q : PosShare TreeShare) (f : Buf (Elt F) (xLoc d)) :
    ((xV).view.loc (V d (cV L) (jV L)) ↦{q} f : sProp 𝕄) = xLoc d ↦{q} f := rfl
theorem pts_o0 (f : Buf (Elt F) (oLoc d)) :
    ((oCh0 L).view.loc (V d (cV L) (jV L)) ↦[(oCh0 L).view.set]{fullShare} f : sProp 𝕄) = oLoc d ↦[oSet0 L]{fullShare} f := rfl
theorem pts_o1 (f : Buf (Elt F) (oLoc d)) :
    ((oCh1 L).view.loc (V d (cV L) (jV L)) ↦[(oCh1 L).view.set]{fullShare} f : sProp 𝕄) = oLoc d ↦[oSet1 L]{fullShare} f := rfl
end Halves

/-! ## What a task holds, and what it leaves -/

/-- What the proof asks of the launch memory: every index word names a row of the word table. -/
def PreOK : Prop := ∀ (d : Dev nD) (j : S4x2048.Idx), (m (iLoc d) j).toNat < 1000000

/-- A read share of the index array, of the word table; a chunk of the result's rows outright. -/
abbrev iSh (d : Dev nD) (q : PosShare TreeShare) : sProp 𝕄 := iLoc d ↦{q} m (iLoc d)
abbrev xSh (d : Dev nD) (q : PosShare TreeShare) : sProp 𝕄 := xLoc d ↦{q} m (xLoc d)
abbrev oPc0 (d : Dev nD) (L : grid0.Coords) (f : Buf (Elt F) (oLoc d)) : sProp 𝕄 := oLoc d ↦[oSet0 L]{fullShare} f
abbrev oPc1 (d : Dev nD) (L : grid0.Coords) (f : Buf (Elt F) (oLoc d)) : sProp 𝕄 := oLoc d ↦[oSet1 L]{fullShare} f

/-- The gathered rows: entry `(b, s, k)` is entry `k` of the word-table row that index word `(b, s)` names. -/
def gath (d : Dev nD) : Buf (Elt F) (oLoc d) :=
  fun (i : S4x2048x128.Idx) => (m (xLoc d) : S1000000x128.Idx → Elt F .f32)
    (ValueIdx.ix2 (Cert.Spec.rowOf ((m (iLoc d) : S4x2048.Idx → BitVec 32) (ValueIdx.ix2 (i 0) (i 1)))) (i 2))

/-- What a copy out of a half of the row scratch carries, after the gather into that half has landed: the rows of the
    word table the fetched index words name. -/
def pay0 [∀ e, Nonempty (Elt F e)] (d : Dev nD) (L : grid0.Coords) (fr : Buf (Elt F) ((V d (cV L) (jV L)).loc cc0_scratch1))
    (hn : S128.numel = S128x128.size gathers_S1000000x128_S128x128.axis')
    (hin : ∀ x, ((sCh0).view.read (Elt F) ((sCh0).view.writes (Elt F) (sCh0).view.junk [⟨Rect.whole S128, (iCh0 L).view.read (Elt F) (m (iLoc d))⟩]) x).toNat
      < S1000000x128.size gathers_S1000000x128_S128x128.axis) : S128x128.Idx → Elt F .f32 :=
  ReadAs.same.apply ((rCh0).view.read (Elt F) (View.write (Elt F) (rCh0).view fr
    (SparseCore.gatherPayload gathers_S1000000x128_S128x128 ((xAll).view.read (Elt F) (m (xLoc d)))
      (SparseCore.rows ((sCh0).view.read (Elt F) ((sCh0).view.writes (Elt F) (sCh0).view.junk [⟨Rect.whole S128, (iCh0 L).view.read (Elt F) (m (iLoc d))⟩])) hn hin))
    Finset.univ))
def pay1 [∀ e, Nonempty (Elt F e)] (d : Dev nD) (L : grid0.Coords) (fr : Buf (Elt F) ((V d (cV L) (jV L)).loc cc0_scratch1))
    (hn : S128.numel = S128x128.size gathers_S1000000x128_S128x128.axis')
    (hin : ∀ x, ((sCh1).view.read (Elt F) ((sCh1).view.writes (Elt F) (sCh1).view.junk [⟨Rect.whole S128, (iCh1 L).view.read (Elt F) (m (iLoc d))⟩]) x).toNat
      < S1000000x128.size gathers_S1000000x128_S128x128.axis) : S128x128.Idx → Elt F .f32 :=
  ReadAs.same.apply ((rCh1).view.read (Elt F) (View.write (Elt F) (rCh1).view fr
    (SparseCore.gatherPayload gathers_S1000000x128_S128x128 ((xAll).view.read (Elt F) (m (xLoc d)))
      (SparseCore.rows ((sCh1).view.read (Elt F) ((sCh1).view.writes (Elt F) (sCh1).view.junk [⟨Rect.whole S128, (iCh1 L).view.read (Elt F) (m (iLoc d))⟩])) hn hin))
    Finset.univ))

/-- A subcore's two chunks of result rows, as a family. -/
abbrev oSetR (L : grid0.Coords) : Fin 2 → Finset S4x2048x128.Idx := fun | 0 => oSet0 L | 1 => oSet1 L

/-- On a chunk's rows, what the copy out wrote is the gathered rows. -/
def ChunkVal0 [∀ e, Nonempty (Elt F e)] (d : Dev nD) (L : grid0.Coords) : Prop :=
  ∀ (fo : Buf (Elt F) (oLoc d)) (fr : Buf (Elt F) ((V d (cV L) (jV L)).loc cc0_scratch1)) hn hin, ∀ i ∈ oSet0 L,
    ((oCh0 L).view.writes (Elt F) fo [⟨Rect.whole S128x128, pay0 m d L fr hn hin⟩]) i = gath m d i
def ChunkVal1 [∀ e, Nonempty (Elt F e)] (d : Dev nD) (L : grid0.Coords) : Prop :=
  ∀ (fo : Buf (Elt F) (oLoc d)) (fr : Buf (Elt F) ((V d (cV L) (jV L)).loc cc0_scratch1)) hn hin, ∀ i ∈ oSet1 L,
    ((oCh1 L).view.writes (Elt F) fo [⟨Rect.whole S128x128, pay1 m d L fr hn hin⟩]) i = gath m d i

end Tile

end Cert.ScTileK

end
-- ==== Proof.ScTileK.lean ====
/-
  One vector subcore's task, run: the two index fetches with their waits, the two gathers each on its own semaphore,
  their waits, the two copies out on the shared semaphore issued and then both waited for. On each chunk of result rows
  the task leaves the rows of the word table that the chunk's index words name.
-/
import proofs.«203468_g17523466567843_cont_7to1_1283_23_alg».proof.Proof.ScViewsK

noncomputable section

namespace Cert.ScTileK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S4x2048 EltTy.i32)
local notation "xV" => (Memref.whole Cert.Kernel.main_arg1_scv : Memref Cert.Kernel.sig Kind.scVector Space.hbm Cert.Kernel.S1000000x128 EltTy.f32)
local notation "oV" => (Memref.whole Cert.Kernel.main_v0_scv : Memref Cert.Kernel.sig Kind.scVector Space.hbm Cert.Kernel.S4x2048x128 EltTy.f32)
local notation "sV" => (Memref.whole Cert.Kernel.cc0_scratch0 : Memref Cert.Kernel.sig Kind.scVector Space.vmem Cert.Kernel.S256 EltTy.i32)
local notation "rV" => (Memref.whole Cert.Kernel.cc0_scratch1 : Memref Cert.Kernel.sig Kind.scVector Space.vmem Cert.Kernel.S256x128 EltTy.f32)

section Tile

variable (d : Dev nD) (L : grid0.Coords)

/-- The offsets a gather reads are in range: what the index fetch landed in its half of the scratch is the subcore's
    chunk of index words, each below the table's row count by the precondition. -/
theorem inb_of_pre0 [∀ e, Nonempty (Elt F e)] (hpre : PreOK m) (pay : S128.Idx → Elt F .i32) (hpay : pay = (iCh0 L).view.read (Elt F) (m (iLoc d))) :
    ∀ x, ((sCh0).view.read (Elt F) ((sCh0).view.writes (Elt F) (sCh0).view.junk [⟨Rect.whole S128, pay⟩]) x).toNat
      < S1000000x128.size gathers_S1000000x128_S128x128.axis := by
  subst hpay; intro x
  rw [View.read_writes_whole]
  rw [show ∀ j, (iCh0 L).view.read (Elt F) (m (iLoc d)) j = m (iLoc d) ((iCh0 L).view.emb j) from fun j => (View.read_apply _ _).trans (cast_eq _ _)]
  exact hpre d _
theorem inb_of_pre1 [∀ e, Nonempty (Elt F e)] (hpre : PreOK m) (pay : S128.Idx → Elt F .i32) (hpay : pay = (iCh1 L).view.read (Elt F) (m (iLoc d))) :
    ∀ x, ((sCh1).view.read (Elt F) ((sCh1).view.writes (Elt F) (sCh1).view.junk [⟨Rect.whole S128, pay⟩]) x).toNat
      < S1000000x128.size gathers_S1000000x128_S128x128.axis := by
  subst hpay; intro x
  rw [View.read_writes_whole]
  rw [show ∀ j, (iCh1 L).view.read (Elt F) (m (iLoc d)) j = m (iLoc d) ((iCh1 L).view.emb j) from fun j => (View.read_apply _ _).trans (cast_eq _ _)]
  exact hpre d _

set_option maxHeartbeats 4000000 in
theorem tile_body [∀ e, Nonempty (Elt F e)] (hF : (K (F := F)).Facts) (hpre : PreOK m) (qi qx : PosShare TreeShare) (O : CellTallies nD τ sig (HIx 1)) (W : Waits sig (HIx 1)) (hO : ∀ g, O g none = 0)
    (fo : Buf (Elt F) (oLoc d)) (hv0 : ChunkVal0 m d L) (hv1 : ChunkVal1 m d L) :
    iprop(levAts (K (F := F)).L (K (F := F)).lev ∗ emp
        ∗ (iSh m d qi ∗ xSh m d qx ∗ oPc0 d L fo ∗ oPc1 d L fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L iV (Memref.isWhole_whole _) xV (Memref.isWhole_whole _) oV (Memref.isWhole_whole _)
            sV (Memref.isWhole_whole _) rV (Memref.isWhole_whole _) cc0_scratch2 cc0_scratch3 cc0_scoped0 cc0_scoped1)
          fun _ => iprop((iSh m d qi ∗ xSh m d qx ∗ oPc0 d L (gath m d) ∗ oPc1 d L (gath m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  simp only [k0_part3_eq_skeleton]; unfold k0_part3_skel
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V, ownBufs_V]
  iintro ⟨#Hlv, -, ⟨Hi, Hx, Ho0, Ho1⟩, ⟨⟨%fs, Hs⟩, ⟨%fr, Hr⟩, Hbufs⟩, ⟨HsemG0, HsemG1, HsemO, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs2 := (s_halves (F := F) d L fs).1 $$ Hs
  icases Hs2 with ⟨Hs0, Hs1⟩
  ihave Hr2 := (r_halves (F := F) d L fr).1 $$ Hr
  icases Hr2 with ⟨Hr0, Hr1⟩
  ihave Hx2 := (pointsTo_share (PosShare.mem_left_op_right qx)).1 $$ Hx
  icases Hx2 with ⟨HxL, HxR⟩
  ihave Hi' := (Entails.of_eq (pts_iV (F := F) d L _ _).symm) $$ Hi
  ihave HxL' := (Entails.of_eq (pts_xV (F := F) d L _ _).symm) $$ HxL
  ihave HxR' := (Entails.of_eq (pts_xV (F := F) d L _ _).symm) $$ HxR
  ihave Ho0' := (Entails.of_eq (pts_o0 (F := F) d L _).symm) $$ Ho0
  ihave Ho1' := (Entails.of_eq (pts_o1 (F := F) d L _).symm) $$ Ho1
  have hB : Transfers.BatchOf (V d (cV L) (jV L)) (SemLoc.dma cc0_scratch3.sem) 2 := Transfers.BatchOf.intro _ _ _
  sl_exec
  -- the first gather, on its own semaphore: half the word table's share, the first half of the row scratch, the fetched words
  ihave Hxs := (pointsTo_split_subset (q := qx.left) (f := m (xLoc d)) (S := Finset.univ) (Finset.subset_univ (xAll).view.set)).1 $$ HxL'
  icases Hxs with ⟨Hxs0, Hxr0⟩
  iapply (SparseCore.wp_indirectGatherLocal countersEmb 𝒱₀ (V d (cV L) (jV L)) none (hg := gathers_S1000000x128_S128x128) (default : HIx 1)
      (rCh0).view.dmaCredit (SparseCore.sum_rowCredit_eq_dmaCredit (rCh0) _ (fun _ => rfl)) (by decide) (inb_of_pre0 m d L hpre _ rfl)) $$ [Hxs0 Hr0 Hs0 HsemG0]
  · isplitl [Hxs0]; · iexact Hxs0
    isplitl [Hr0]; · iexact Hr0
    isplitl [Hs0]; · iexact Hs0
    iexact HsemG0
  iintro Hfl0
  sl_exec
  -- the second gather, on the other: the other half of each
  ihave Hxs := (pointsTo_split_subset (q := qx.right) (f := m (xLoc d)) (S := Finset.univ) (Finset.subset_univ (xAll).view.set)).1 $$ HxR'
  icases Hxs with ⟨Hxs1, Hxr1⟩
  iapply (SparseCore.wp_indirectGatherLocal countersEmb 𝒱₀ (V d (cV L) (jV L)) none (hg := gathers_S1000000x128_S128x128) (default : HIx 1)
      (rCh1).view.dmaCredit (SparseCore.sum_rowCredit_eq_dmaCredit (rCh1) _ (fun _ => rfl)) (by decide) (inb_of_pre1 m d L hpre _ rfl)) $$ [Hxs1 Hr1 Hs1 HsemG1]
  · isplitl [Hxs1]; · iexact Hxs1
    isplitl [Hr1]; · iexact Hr1
    isplitl [Hs1]; · iexact Hs1
    iexact HsemG1
  iintro Hfl1
  sl_exec
  -- the first gather's wait: its rows landed
  iapply (Transfers.wp_waitLocalO countersEmb 𝒱₀ (V d (cV L) (jV L)) none (default : HIx 1) (rfl : (rCh0).view.dmaCredit = _)) $$ [Hfl0 HO]
  · isplitl [Hfl0]; · iexact Hfl0
    isplitl [HO]; · iexact HO
    iapply (Transfers.MayWaits.elim (SemLoc.dma gSem0)) $$ Hmw
  iintro ⟨⟨Hr0, Hxs0, Hs0⟩, HsemG0, HO⟩
  sl_exec
  -- the second gather's wait
  iapply (Transfers.wp_waitLocalO countersEmb 𝒱₀ (V d (cV L) (jV L)) none (default : HIx 1) (rfl : (rCh1).view.dmaCredit = _)) $$ [Hfl1 HO]
  · isplitl [Hfl1]; · iexact Hfl1
    isplitl [HO]; · iexact HO
    iapply (Transfers.MayWaits.elim (SemLoc.dma gSem1)) $$ Hmw
  iintro ⟨⟨Hr1, Hxs1, Hs1⟩, HsemG1, HO⟩
  sl_exec
  sl_step
  -- the shares of the word table joined again
  ihave HxL := (pointsTo_split_subset (q := qx.left) (f := m (xLoc d)) (S := Finset.univ) (Finset.subset_univ (xAll).view.set)).2 $$ [Hxs0 Hxr0]; · isplitl [Hxs0] <;> iassumption
  ihave HxR := (pointsTo_split_subset (q := qx.right) (f := m (xLoc d)) (S := Finset.univ) (Finset.subset_univ (xAll).view.set)).2 $$ [Hxs1 Hxr1]; · isplitl [Hxs1] <;> iassumption
  ihave Hx := (pointsTo_share (PosShare.mem_left_op_right qx)).2 $$ [HxL HxR]; · isplitl [HxL] <;> iassumption
  -- the scratch halves joined again, at whatever they hold
  ihave Hs := (pointsTo_join (ℓ := (V d (cV L) (jV L)).loc cc0_scratch0) (q := fullShare) s_disj) $$ [Hs0 Hs1]; · isplitl [Hs0] <;> iassumption
  ihave Hr := (pointsTo_join (ℓ := (V d (cV L) (jV L)).loc cc0_scratch1) (q := fullShare) r_disj) $$ [Hr0 Hr1]; · isplitl [Hr0] <;> iassumption
  rw [s_union, r_union]
  isplitl [Hi' Hx Ho0' Ho1']
  · isplitl [Hi']; · iexact Hi'
    isplitl [Hx]; · iexact Hx
    isplitl [Ho0']
    · iapply (Entails.of_eq (pointsTo_congr (hv0 fo fr _ _))); iexact Ho0'
    · iapply (Entails.of_eq (pointsTo_congr (hv1 fo fr _ _))); iexact Ho1'
  isplitl [Hs Hr Hbufs]
  · isplitl [Hs]; · iexists _; iexact Hs
    isplitl [Hr]; · iexists _; iexact Hr
    iexact Hbufs
  isplitl [HsemG0 HsemG1 HsemO HsemA HsemB Hsems]
  · isplitl [HsemG0]; · iexact HsemG0
    isplitl [HsemG1]; · iexact HsemG1
    isplitl [HsemO]; · iexact HsemO
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.ScTileK

end
-- ==== Proof.ScPartsK.lean ====
/-
  The gather's result array, dealt to the subcores that write it.

  The 4×2048×128 array of gathered rows is written by 32 subcores, vector subcore `(c, s)` having number `2 s + c`;
  each writes two chunks of 128 consecutive rows. Number the chunks `n = 4 s + 2 c + r`, `r` the chunk within the
  subcore: chunk `n` is rows `128 (n mod 16) … 128 (n mod 16) + 127` of batch row `n / 16`. The program does not say so
  in these words; it computes the chunk's corner by a chain of 32-bit operations on the subcore's coordinates, with a
  floor division spelt out through signs and remainders. Over the 64 chunks that chain has a closed form, checked
  once by evaluation.

  An index `(b, x, k)` of the array lies in exactly one chunk, number `16 b + x / 128`, and `n` determines `(c, s, r)`.
  So the 64 chunks are pairwise disjoint and cover the array, and holding the whole array at contents `f` is the
  same as holding every chunk at `f`: what lets the array be dealt out to the tasks and collected again.
-/
import proofs.«203468_g17523466567843_cont_7to1_1283_23_alg».proof.Proof.ScViewsK

noncomputable section

namespace Cert.ScTileK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S4x2048 EltTy.i32)
local notation "xV" => (Memref.whole Cert.Kernel.main_arg1_scv : Memref Cert.Kernel.sig Kind.scVector Space.hbm Cert.Kernel.S1000000x128 EltTy.f32)
local notation "oV" => (Memref.whole Cert.Kernel.main_v0_scv : Memref Cert.Kernel.sig Kind.scVector Space.hbm Cert.Kernel.S4x2048x128 EltTy.f32)
local notation "sV" => (Memref.whole Cert.Kernel.cc0_scratch0 : Memref Cert.Kernel.sig Kind.scVector Space.vmem Cert.Kernel.S256 EltTy.i32)
local notation "rV" => (Memref.whole Cert.Kernel.cc0_scratch1 : Memref Cert.Kernel.sig Kind.scVector Space.vmem Cert.Kernel.S256x128 EltTy.f32)

/-! ## A subcore's coordinates, and its chunks' corners in closed form -/

/-- The grid coordinates of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The corner of chunk `r` of the subcore at `L`, with `n = 4 (L 1) + 2 (L 0) + r`: batch row `n / 16`, row
    `128 (n mod 16)`, column 0 — the printed chain of 32-bit operations evaluated at each of the 64 chunks. -/
theorem off2_closed : ∀ L : grid0.Coords, ∀ r : Fin 2,
    k0_off2 L (BitVec.ofNat 32 (128 * r.val)) (0 : Fin 3) = (4 * (L 1).val + 2 * (L 0).val + r.val) / 16
    ∧ k0_off2 L (BitVec.ofNat 32 (128 * r.val)) (1 : Fin 3) = (4 * (L 1).val + 2 * (L 0).val + r.val) % 16 * 128
    ∧ k0_off2 L (BitVec.ofNat 32 (128 * r.val)) (2 : Fin 3) = 0 := by decide +kernel

/-! ## A chunk's element set is a rectangle's -/

/-- The 1×128×128 rectangle of chunk `r` of the subcore at `L`. -/
abbrev oR (L : grid0.Coords) (r : Fin 2) : Rect S4x2048x128 :=
  Rect.unit (s := S4x2048x128) (k0_off2 L (BitVec.ofNat 32 (128 * r.val))) S1x128x128.size (k0_off2_inb L r)

/-- Dropping the unit axis of a slice regroups its elements and loses none; a slice of the whole array holds the
    elements of its rectangle. -/
theorem oSet0_eq (L : grid0.Coords) : oSet0 L = (oR L 0).set := by
  show (((oV).view.slice (oR L 0)).reshape S128x128 squeezes_S1x128x128_S128x128.numel_eq).set = _
  rw [View.set_reshape]
  show ((View.whole (main_v0_scv : Ref sig .scVector)).slice (oR L 0)).set = _
  rw [View.set_slice]; exact Finset.map_refl
theorem oSet1_eq (L : grid0.Coords) : oSet1 L = (oR L 1).set := by
  show (((oV).view.slice (oR L 1)).reshape S128x128 squeezes_S1x128x128_S128x128.numel_eq).set = _
  rw [View.set_reshape]
  show ((View.whole (main_v0_scv : Ref sig .scVector)).slice (oR L 1)).set = _
  rw [View.set_slice]; exact Finset.map_refl

theorem oSetR_eq (L : grid0.Coords) (r : Fin 2) : oSetR L r = (oR L r).set := by
  match r with
  | ⟨0, _⟩ => exact oSet0_eq L
  | ⟨1, _⟩ => exact oSet1_eq L

/-- Index `(b, x, k)` is in chunk `r` of the subcore at `L` iff its chunk number `16 b + x / 128` is that chunk's. -/
theorem mem_oSetR (L : grid0.Coords) (r : Fin 2) (i : S4x2048x128.Idx) :
    i ∈ oSetR L r ↔ (i 0).val * 16 + (i 1).val / 128 = 4 * (L 1).val + 2 * (L 0).val + r.val := by
  obtain ⟨e0, e1, e2⟩ := off2_closed L r
  have h1 : (i 1).val < 2048 := (i 1).isLt
  have h2 : (i 2).val < 128 := (i 2).isLt
  have hc : (L 0).val < 2 := (L 0).isLt
  have hs : (L 1).val < 16 := (L 1).isLt
  have hr : r.val < 2 := r.isLt
  rw [oSetR_eq, Rect.mem_set_unit]
  constructor
  · intro h
    have a0 : k0_off2 L (BitVec.ofNat 32 (128 * r.val)) (0 : Fin 3) ≤ (i 0).val
        ∧ (i 0).val < k0_off2 L (BitVec.ofNat 32 (128 * r.val)) (0 : Fin 3) + 1 := h 0
    have a1 : k0_off2 L (BitVec.ofNat 32 (128 * r.val)) (1 : Fin 3) ≤ (i 1).val
        ∧ (i 1).val < k0_off2 L (BitVec.ofNat 32 (128 * r.val)) (1 : Fin 3) + 128 := h 1
    rw [e0] at a0; rw [e1] at a1
    omega
  · intro h a
    match a with
    | ⟨0, _⟩ =>
      show k0_off2 L (BitVec.ofNat 32 (128 * r.val)) (0 : Fin 3) ≤ (i 0).val
        ∧ (i 0).val < k0_off2 L (BitVec.ofNat 32 (128 * r.val)) (0 : Fin 3) + 1
      rw [e0]; omega
    | ⟨1, _⟩ =>
      show k0_off2 L (BitVec.ofNat 32 (128 * r.val)) (1 : Fin 3) ≤ (i 1).val
        ∧ (i 1).val < k0_off2 L (BitVec.ofNat 32 (128 * r.val)) (1 : Fin 3) + 128
      rw [e1]; omega
    | ⟨2, _⟩ =>
      show k0_off2 L (BitVec.ofNat 32 (128 * r.val)) (2 : Fin 3) ≤ (i 2).val
        ∧ (i 2).val < k0_off2 L (BitVec.ofNat 32 (128 * r.val)) (2 : Fin 3) + 128
      rw [e2]; omega

/-! ## The 64 chunks partition the array -/

/-- Chunk `r` of subcore `(c, s)`, as one family over the 64 triples. -/
abbrev chunkOf (t : Fin 2 × Fin 16 × Fin 2) : Finset S4x2048x128.Idx := oSetR (coordsV t.1 t.2.1) t.2.2

/-- Two different chunks share no index: an index has one chunk number, and the number `4 s + 2 c + r` with
    `c, r < 2` determines `(c, s, r)`. -/
theorem chunks_disjoint : ∀ t ∈ (Finset.univ : Finset (Fin 2 × Fin 16 × Fin 2)), ∀ t' ∈ (Finset.univ : Finset (Fin 2 × Fin 16 × Fin 2)),
    t ≠ t' → Disjoint (chunkOf t) (chunkOf t') := by
  rintro ⟨c, s, r⟩ - ⟨c', s', r'⟩ - hne
  refine Finset.disjoint_left.mpr fun i h h' => hne ?_
  have e : (i 0).val * 16 + (i 1).val / 128 = 4 * s.val + 2 * c.val + r.val := (mem_oSetR (coordsV c s) r i).mp h
  have e' : (i 0).val * 16 + (i 1).val / 128 = 4 * s'.val + 2 * c'.val + r'.val := (mem_oSetR (coordsV c' s') r' i).mp h'
  have hc := c.isLt; have hc' := c'.isLt; have hr := r.isLt; have hr' := r'.isLt
  have ec : c = c' := Fin.ext (by omega)
  have es : s = s' := Fin.ext (by omega)
  have er : r = r' := Fin.ext (by omega)
  rw [ec, es, er]

/-- Every index is in some chunk: its chunk number is below 64, and every number below 64 is some `4 s + 2 c + r`. -/
theorem chunks_cover : (Finset.univ : Finset (Fin 2 × Fin 16 × Fin 2)).biUnion chunkOf = Finset.univ := by
  refine Finset.eq_univ_iff_forall.mpr fun i => Finset.mem_biUnion.mpr ?_
  have h0 : (i 0).val < 4 := (i 0).isLt
  have h1 : (i 1).val < 2048 := (i 1).isLt
  refine ⟨(⟨((i 0).val * 16 + (i 1).val / 128) / 2 % 2, by omega⟩, ⟨((i 0).val * 16 + (i 1).val / 128) / 4, by omega⟩,
    ⟨((i 0).val * 16 + (i 1).val / 128) % 2, by omega⟩), Finset.mem_univ _, ?_⟩
  refine (mem_oSetR _ _ i).mpr ?_
  show (i 0).val * 16 + (i 1).val / 128
    = 4 * (((i 0).val * 16 + (i 1).val / 128) / 4) + 2 * (((i 0).val * 16 + (i 1).val / 128) / 2 % 2) + ((i 0).val * 16 + (i 1).val / 128) % 2
  omega

/-- The whole array at contents `f` is its 64 chunks at `f`, as one family over the triples `(c, s, r)`. -/
theorem oPts_family (d : Dev nD) (f : Buf (Elt F) (oLoc d)) :
    (oLoc d ↦{fullShare} f : sProp 𝕄) = bigSep Finset.univ fun t : Fin 2 × Fin 16 × Fin 2 => oLoc d ↦[chunkOf t]{fullShare} f := by
  rw [← pointsTo_biUnion Finset.univ (ℓ := oLoc d) chunkOf chunks_disjoint, chunks_cover]

/-- The same, subcore by subcore: each subcore's two chunks side by side. -/
theorem oPts_chunks (d : Dev nD) (f : Buf (Elt F) (oLoc d)) :
    (oLoc d ↦{fullShare} f : sProp 𝕄)
      = bigSep Finset.univ fun c : Fin 2 => bigSep Finset.univ fun s : Fin 16 => iprop(oPc0 d (coordsV c s) f ∗ oPc1 d (coordsV c s) f) := by
  rw [oPts_family d f, BI.bigSep_univ_prod]
  refine bigSep_congr fun c _ => ?_
  rw [BI.bigSep_univ_prod]
  refine bigSep_congr fun s _ => ?_
  rw [BI.bigSep_fin_two]
  try rfl

/-- info: 'Cert.ScTileK.oPts_chunks' depends on axioms: [propext, Classical.choice, Quot.sound] -/
#guard_msgs in #print axioms oPts_chunks

end Cert.ScTileK

end
-- ==== Proof.ScValueK.lean ====
/-
  The value of the row gather on one chunk: on the chunk's rows of the result, what the copy out wrote is the gathered
  rows — entry `(b, s, k)` is entry `k` of the word-table row that index word `(b, s)` names.

  A chunk of the result is the `128 × 128` block at offsets `(p, q, 0)` of the `4 × 2048 × 128` array, and the chunk of
  index words fetched for it is the run of 128 words at offsets `(p, q)` of the `4 × 2048` array: the two offset chains
  are the same arithmetic on the subcore's number, term by term. An entry of the chunk is the block's embedding of some
  `y = (r, k)`, that is `(p, q + r, k)`. The chunk written whole through its view reads back, there, the payload at `y`;
  the payload is the row scratch half written whole with the gather's rows, so it is the word table at row
  "index word `r` of the fetched run" and column `k`; the fetched run is the index scratch half written whole with the
  words at `(p, q + ·)`, so that word is index word `(p, q + r)` — the one under the result entry. It is below 1000000
  (the gather's side condition), so the row it names is the row the specification's `rowOf` gives.
-/
import proofs.«203468_g17523466567843_cont_7to1_1283_23_alg».proof.Proof.ScViewsK
import Idealize.ShloMosaic.Lib.Pipeline.Value
import Idealize.ShloMosaic.Lib.Exec.Geometry
import Idealize.ShloMosaic.Lib.ValueLayout
import Idealize.ShloMosaic.Lib.Writes

noncomputable section

namespace Cert.ScTileK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

local notation "iV" => (Memref.whole Cert.Kernel.main_arg0_scv : Memref Cert.Kernel.sig Kind.scVector Space.hbm Cert.Kernel.S4x2048 EltTy.i32)
local notation "xV" => (Memref.whole Cert.Kernel.main_arg1_scv : Memref Cert.Kernel.sig Kind.scVector Space.hbm Cert.Kernel.S1000000x128 EltTy.f32)
local notation "oV" => (Memref.whole Cert.Kernel.main_v0_scv : Memref Cert.Kernel.sig Kind.scVector Space.hbm Cert.Kernel.S4x2048x128 EltTy.f32)
local notation "sV" => (Memref.whole Cert.Kernel.cc0_scratch0 : Memref Cert.Kernel.sig Kind.scVector Space.vmem Cert.Kernel.S256 EltTy.i32)
local notation "rV" => (Memref.whole Cert.Kernel.cc0_scratch1 : Memref Cert.Kernel.sig Kind.scVector Space.vmem Cert.Kernel.S256x128 EltTy.f32)

/-! ## The two offset chains

The offsets of a result chunk and of its run of index words are computed by the same operations on the subcore's number:
the first two coordinates agree term by term, and the result chunk's third offset is 0. -/

theorem off2_0 (L : grid0.Coords) (c : BitVec 32) : k0_off2 L c 0 = k0_off1 L c 0 := rfl
theorem off2_1 (L : grid0.Coords) (c : BitVec 32) : k0_off2 L c 1 = k0_off1 L c 1 := rfl
theorem off2_2 (L : grid0.Coords) (c : BitVec 32) : k0_off2 L c 2 = 0 := rfl

/-! ## Indices matched by row-major position -/

/-- The index of a one-axis shape at a row-major position has that position as its coordinate. -/
theorem rowMajor_symm_val (k : Fin S128.numel) : ((S128.rowMajor.symm k) 0).val = k.val := by
  have h := Shape.rowMajor_val_one (S128.rowMajor.symm k)
  rw [Equiv.apply_symm_apply] at h
  exact h.symm

/-- A `[128]` index matched with shape `[1, 128]` by row-major position is `(0, z)`. -/
theorem squeeze1_idx (h : S128.numel = S1x128.numel) (z : S128.Idx) (a : Fin 2) :
    (Shape.reshapeEquiv h z a).val = if a = 0 then 0 else (z 0).val := by
  have e : Shape.reshapeEquiv h z = ValueIdx.ix2 (0 : Fin 1) (⟨(z 0).val, (z 0).isLt⟩ : Fin 128) :=
    Shape.reshapeEquiv_eq_of_rowMajor h (by
      rw [Shape.rowMajor_val_two, Shape.rowMajor_val_one]
      show (0 : ℕ) * 128 + (z 0).val = (z 0).val
      omega)
  rw [e]
  match a with
  | ⟨0, _⟩ => rfl
  | ⟨1, _⟩ => rfl

/-- A `[128, 128]` index matched with shape `[1, 128, 128]` by row-major position is `(0, r, k)`. -/
theorem squeeze2_idx (h : S128x128.numel = S1x128x128.numel) (y : S128x128.Idx) (a : Fin 3) :
    (Shape.reshapeEquiv h y a).val = if a = 0 then 0 else if a = 1 then (y 0).val else (y 1).val := by
  have e : Shape.reshapeEquiv h y = ValueIdx.ix3 (0 : Fin 1) (⟨(y 0).val, (y 0).isLt⟩ : Fin 128) (⟨(y 1).val, (y 1).isLt⟩ : Fin 128) :=
    Shape.reshapeEquiv_eq_of_rowMajor h (by
      rw [Shape.rowMajor_val_three, Shape.rowMajor_val_two]
      show ((0 : ℕ) * 128 + (y 0).val) * 128 + (y 1).val = (y 0).val * 128 + (y 1).val
      omega)
  rw [e]
  match a with
  | ⟨0, _⟩ => rfl
  | ⟨1, _⟩ => rfl
  | ⟨2, _⟩ => rfl

/-! ## The chunk views' embeddings, coordinate by coordinate -/

/-- The run of 128 index words at offsets `off`: word `z` sits at `(off 0, off 1 + z)`. -/
theorem iCh_emb_val (off : Fin 2 → ℕ) (inb : ∀ a, off a + S1x128.size a ≤ S4x2048.size a) (z : S128.Idx) (a : Fin 2) :
    ((((((iV).slice (Rect.unit (s := S4x2048) off S1x128.size inb) (fun _ => rfl)).squeeze S128 squeezes_S1x128_S128).view.emb z : S4x2048.Idx)) a).val
      = off a + (if a = 0 then 0 else (z 0).val) := by
  show off a + 1 * (Shape.reshapeEquiv squeezes_S1x128_S128.numel_eq z a).val = _
  rw [squeeze1_idx, Nat.one_mul]

/-- The `128 × 128` block of result rows at offsets `off`: entry `(r, k)` sits at `(off 0, off 1 + r, off 2 + k)`. -/
theorem oCh_emb_val (off : Fin 3 → ℕ) (inb : ∀ a, off a + S1x128x128.size a ≤ S4x2048x128.size a) (y : S128x128.Idx) (a : Fin 3) :
    ((((((oV).slice (Rect.unit (s := S4x2048x128) off S1x128x128.size inb) (fun _ => rfl)).squeeze S128x128 squeezes_S1x128x128_S128x128).view.emb y : S4x2048x128.Idx)) a).val
      = off a + (if a = 0 then 0 else if a = 1 then (y 0).val else (y 1).val) := by
  show off a + 1 * (Shape.reshapeEquiv squeezes_S1x128x128_S128x128.numel_eq y a).val = _
  rw [squeeze2_idx, Nat.one_mul]

/-- The whole word table named as a block at offsets `(0, 0)`: every entry sits at itself. -/
theorem xAll_emb_val (w : S1000000x128.Idx) (a : Fin 2) : (((xAll).view.emb w : S1000000x128.Idx) a).val = (w a).val := by
  show (![0, 0] : Fin 2 → ℕ) a + 1 * (w a).val = _
  match a with
  | ⟨0, _⟩ => show 0 + 1 * (w 0).val = (w 0).val; omega
  | ⟨1, _⟩ => show 0 + 1 * (w 1).val = (w 1).val; omega

/-! ## The chunks

The two chunks differ only in the constant added to the second offset (0 and 128) and in the scratch halves used. -/

section Chunks
variable [∀ e, Nonempty (Elt F e)] (d : Dev nD) (L : grid0.Coords)

/-- On the first chunk's rows the copy out wrote the gathered rows. -/
theorem chunkVal0 : ChunkVal0 m d L := by
  intro fo fr hn hin i hi
  obtain ⟨y, rfl⟩ := View.exists_emb_of_mem_set (oCh0 L).view hi
  -- the chunk written whole through its view, read back at an embedded index, is the payload there
  have hw : ((oCh0 L).view.writes (Elt F) fo [⟨Rect.whole S128x128, pay0 m d L fr hn hin⟩]) ((oCh0 L).view.emb y)
      = pay0 m d L fr hn hin y :=
    ((View.read_apply _ _).trans (cast_eq _ _)).symm.trans
      (congrFun (View.read_writes_whole (oCh0 L).view fo (pay0 m d L fr hn hin)) y)
  rw [hw]
  -- the index scratch half, written whole with the fetched words, reads back those words
  have hs : (sCh0).view.read (Elt F) ((sCh0).view.writes (Elt F) (sCh0).view.junk
        [⟨Rect.whole S128, (iCh0 L).view.read (Elt F) (m (iLoc d))⟩])
      = (iCh0 L).view.read (Elt F) (m (iLoc d)) := View.read_writes_whole _ _ _
  -- the row scratch half, written whole with the gathered rows, reads back those rows
  have hp : pay0 m d L fr hn hin
      = SparseCore.gatherPayload gathers_S1000000x128_S128x128 ((xAll).view.read (Elt F) (m (xLoc d)))
          (SparseCore.rows ((sCh0).view.read (Elt F) ((sCh0).view.writes (Elt F) (sCh0).view.junk
            [⟨Rect.whole S128, (iCh0 L).view.read (Elt F) (m (iLoc d))⟩])) hn hin) := by
    unfold pay0
    exact View.read_write_univ _ _
  rw [hp]
  unfold SparseCore.gatherPayload gath
  refine ((View.read_apply _ _).trans (cast_eq _ _)).trans ?_
  refine congrArg (m (xLoc d)) ?_
  funext a
  apply Fin.ext
  refine (xAll_emb_val _ a).trans ?_
  -- the word the gather reads for row `y 0` of the chunk is the index word under the result entry
  have K : (sCh0).view.read (Elt F) ((sCh0).view.writes (Elt F) (sCh0).view.junk
        [⟨Rect.whole S128, (iCh0 L).view.read (Elt F) (m (iLoc d))⟩])
        (S128.rowMajor.symm ((y gathers_S1000000x128_S128x128.axis').cast hn.symm))
      = m (iLoc d) (ValueIdx.ix2 ((oCh0 L).view.emb y 0) ((oCh0 L).view.emb y 1)) := by
    rw [hs]
    refine ((View.read_apply _ _).trans (cast_eq _ _)).trans ?_
    refine congrArg (m (iLoc d)) ?_
    funext b
    apply Fin.ext
    refine (iCh_emb_val _ _ _ b).trans ?_
    rw [rowMajor_symm_val]
    match b with
    | ⟨0, _⟩ =>
      refine Eq.trans ?_ (oCh_emb_val _ _ y 0).symm
      show k0_off1 L 0#32 0 + 0 = k0_off2 L 0#32 0 + 0
      rw [off2_0]
    | ⟨1, _⟩ =>
      refine Eq.trans ?_ (oCh_emb_val _ _ y 1).symm
      show k0_off1 L 0#32 1 + (y 0).val = k0_off2 L 0#32 1 + (y 0).val
      rw [off2_1]
  have hlt := hin (S128.rowMajor.symm ((y gathers_S1000000x128_S128x128.axis').cast hn.symm))
  rw [K] at hlt
  match a with
  | ⟨0, _⟩ =>
    show (gathers_S1000000x128_S128x128.idx _ y gathers_S1000000x128_S128x128.axis).val = (Cert.Spec.rowOf _).val
    rw [Shape.Gathers.idx_axis, Cert.Spec.rowOf_val hlt]
    have hK := congrArg BitVec.toNat K
    exact hK
  | ⟨1, _⟩ =>
    refine (Shape.Gathers.idx_of_ne gathers_S1000000x128_S128x128 _ y ⟨1, by decide⟩ (by decide)).trans ?_
    refine Eq.trans ?_ (oCh_emb_val _ _ y 2).symm
    show (y 1).val = k0_off2 L 0#32 2 + (y 1).val
    rw [off2_2, Nat.zero_add]

/-- On the second chunk's rows likewise. -/
theorem chunkVal1 : ChunkVal1 m d L := by
  intro fo fr hn hin i hi
  obtain ⟨y, rfl⟩ := View.exists_emb_of_mem_set (oCh1 L).view hi
  -- the chunk written whole through its view, read back at an embedded index, is the payload there
  have hw : ((oCh1 L).view.writes (Elt F) fo [⟨Rect.whole S128x128, pay1 m d L fr hn hin⟩]) ((oCh1 L).view.emb y)
      = pay1 m d L fr hn hin y :=
    ((View.read_apply _ _).trans (cast_eq _ _)).symm.trans
      (congrFun (View.read_writes_whole (oCh1 L).view fo (pay1 m d L fr hn hin)) y)
  rw [hw]
  -- the index scratch half, written whole with the fetched words, reads back those words
  have hs : (sCh1).view.read (Elt F) ((sCh1).view.writes (Elt F) (sCh1).view.junk
        [⟨Rect.whole S128, (iCh1 L).view.read (Elt F) (m (iLoc d))⟩])
      = (iCh1 L).view.read (Elt F) (m (iLoc d)) := View.read_writes_whole _ _ _
  -- the row scratch half, written whole with the gathered rows, reads back those rows
  have hp : pay1 m d L fr hn hin
      = SparseCore.gatherPayload gathers_S1000000x128_S128x128 ((xAll).view.read (Elt F) (m (xLoc d)))
          (SparseCore.rows ((sCh1).view.read (Elt F) ((sCh1).view.writes (Elt F) (sCh1).view.junk
            [⟨Rect.whole S128, (iCh1 L).view.read (Elt F) (m (iLoc d))⟩])) hn hin) := by
    unfold pay1
    exact View.read_write_univ _ _
  rw [hp]
  unfold SparseCore.gatherPayload gath
  refine ((View.read_apply _ _).trans (cast_eq _ _)).trans ?_
  refine congrArg (m (xLoc d)) ?_
  funext a
  apply Fin.ext
  refine (xAll_emb_val _ a).trans ?_
  -- the word the gather reads for row `y 0` of the chunk is the index word under the result entry
  have K : (sCh1).view.read (Elt F) ((sCh1).view.writes (Elt F) (sCh1).view.junk
        [⟨Rect.whole S128, (iCh1 L).view.read (Elt F) (m (iLoc d))⟩])
        (S128.rowMajor.symm ((y gathers_S1000000x128_S128x128.axis').cast hn.symm))
      = m (iLoc d) (ValueIdx.ix2 ((oCh1 L).view.emb y 0) ((oCh1 L).view.emb y 1)) := by
    rw [hs]
    refine ((View.read_apply _ _).trans (cast_eq _ _)).trans ?_
    refine congrArg (m (iLoc d)) ?_
    funext b
    apply Fin.ext
    refine (iCh_emb_val _ _ _ b).trans ?_
    rw [rowMajor_symm_val]
    match b with
    | ⟨0, _⟩ =>
      refine Eq.trans ?_ (oCh_emb_val _ _ y 0).symm
      show k0_off1 L 128#32 0 + 0 = k0_off2 L 128#32 0 + 0
      rw [off2_0]
    | ⟨1, _⟩ =>
      refine Eq.trans ?_ (oCh_emb_val _ _ y 1).symm
      show k0_off1 L 128#32 1 + (y 0).val = k0_off2 L 128#32 1 + (y 0).val
      rw [off2_1]
  have hlt := hin (S128.rowMajor.symm ((y gathers_S1000000x128_S128x128.axis').cast hn.symm))
  rw [K] at hlt
  match a with
  | ⟨0, _⟩ =>
    show (gathers_S1000000x128_S128x128.idx _ y gathers_S1000000x128_S128x128.axis).val = (Cert.Spec.rowOf _).val
    rw [Shape.Gathers.idx_axis, Cert.Spec.rowOf_val hlt]
    have hK := congrArg BitVec.toNat K
    exact hK
  | ⟨1, _⟩ =>
    refine (Shape.Gathers.idx_of_ne gathers_S1000000x128_S128x128 _ y ⟨1, by decide⟩ (by decide)).trans ?_
    refine Eq.trans ?_ (oCh_emb_val _ _ y 2).symm
    show (y 1).val = k0_off2 L 128#32 2 + (y 1).val
    rw [off2_2, Nat.zero_add]

end Chunks

end Cert.ScTileK

end
-- ==== Proof.ScPayK.lean ====
/-
  The gather's call on the SparseCores: what the handshakes carry. The TensorCore hands each of the two SparseCores a read
  share of the index array and of the word table and the sixteen pairs of result chunks its tiles write; each sequencer
  deals them on to its sixteen tiles and collects them again, the chunks now at the gathered rows.
-/
import proofs.«203468_g17523466567843_cont_7to1_1283_23_alg».proof.Proof.ScTileK
import proofs.«203468_g17523466567843_cont_7to1_1283_23_alg».proof.Proof.ScPartsK
import proofs.«203468_g17523466567843_cont_7to1_1283_23_alg».proof.Proof.ScValueK
import proofs.«203468_g17523466567843_cont_7to1_1283_23_alg».proof.Proof.Gen.Kernel.Launch

noncomputable section

namespace Cert.ScTileK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S4x2048 EltTy.i32)
local notation "xV" => (Memref.whole Cert.Kernel.main_arg1_scv : Memref Cert.Kernel.sig Kind.scVector Space.hbm Cert.Kernel.S1000000x128 EltTy.f32)
local notation "oV" => (Memref.whole Cert.Kernel.main_v0_scv : Memref Cert.Kernel.sig Kind.scVector Space.hbm Cert.Kernel.S4x2048x128 EltTy.f32)
local notation "sV" => (Memref.whole Cert.Kernel.cc0_scratch0 : Memref Cert.Kernel.sig Kind.scVector Space.vmem Cert.Kernel.S256 EltTy.i32)
local notation "rV" => (Memref.whole Cert.Kernel.cc0_scratch1 : Memref Cert.Kernel.sig Kind.scVector Space.vmem Cert.Kernel.S256x128 EltTy.f32)

open Idealize.ShloMosaic.TcCoe

/-- The pipeline library's rounds, embedded beside the handshakes' and the counters. -/
abbrev EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

/-! ## What the handshakes carry -/

/-- SparseCore `c`'s read share, and tile `i`'s of it. -/
abbrev qC (c : Fin 2) : PosShare TreeShare := Transfers.shareTok fullShare 2 c
abbrev qT (c : Fin 2) (i : Fin 16) : PosShare TreeShare := Transfers.shareTok (qC c) 16 i

abbrev cc (c : Fin ((K (F := F)).nCore 0)) : Fin 2 := Fin.cast nCore_zero c
abbrev ii (i : Fin ((K (F := F)).nSub 0)) : Fin 16 := Fin.cast nSub_zero i

/-- The two chunks of result rows of the subcore on SparseCore `c`, tile `s`. -/
abbrev oPcs (d : Dev nD) (c : Fin 2) (s : Fin 16) (f : Buf (Elt F) (oLoc d)) : sProp 𝕄 :=
  iprop(oPc0 d (coordsV c s) f ∗ oPc1 d (coordsV c s) f)

/-- The one call: each SparseCore takes its read shares and its tiles' chunks at the launch contents and brings them
    back with the chunks at the gathered rows; each tile the same of its own. -/
def P : (K (F := F)).Pay (nD := nD) (Val := Elt F) (Name := ℕ) (U := UU) where
  st := fun q d c => match q, c with
    | 0, c => iprop(iSh m d (qC (cc c)) ∗ xSh m d (qC (cc c)) ∗ bigSep Finset.univ fun s : Fin 16 => oPcs d (cc c) s (m (oLoc d)))
  dn := fun q d c => match q, c with
    | 0, c => iprop(iSh m d (qC (cc c)) ∗ xSh m d (qC (cc c)) ∗ bigSep Finset.univ fun s : Fin 16 => oPcs d (cc c) s (gath m d))
  go := fun q d c i => match q, c, i with
    | 0, c, i => iprop(iSh m d (qT (cc c) (ii i)) ∗ xSh m d (qT (cc c) (ii i)) ∗ oPcs d (cc c) (ii i) (m (oLoc d)))
  td := fun q d c i => match q, c, i with
    | 0, c, i => iprop(iSh m d (qT (cc c) (ii i)) ∗ xSh m d (qT (cc c) (ii i)) ∗ oPcs d (cc c) (ii i) (gath m d))
  x := fun _ _ => iprop(emp)

instance P_storable : (P (F := F) m).IsStorable where
  st q d c := match q, c with
    | 0, c => (inferInstance : BI.Storable (upEmb : UEmb _ 𝕄) iprop(iSh m d (qC (cc c)) ∗ xSh m d (qC (cc c)) ∗ bigSep Finset.univ fun s : Fin 16 => oPcs d (cc c) s (m (oLoc d))))
  dn q d c := match q, c with
    | 0, c => (inferInstance : BI.Storable (upEmb : UEmb _ 𝕄) iprop(iSh m d (qC (cc c)) ∗ xSh m d (qC (cc c)) ∗ bigSep Finset.univ fun s : Fin 16 => oPcs d (cc c) s (gath m d)))
  go q d c i := match q, c, i with
    | 0, c, i => (inferInstance : BI.Storable (upEmb : UEmb _ 𝕄) iprop(iSh m d (qT (cc c) (ii i)) ∗ xSh m d (qT (cc c) (ii i)) ∗ oPcs d (cc c) (ii i) (m (oLoc d))))
  td q d c i := match q, c, i with
    | 0, c, i => (inferInstance : BI.Storable (upEmb : UEmb _ 𝕄) iprop(iSh m d (qT (cc c) (ii i)) ∗ xSh m d (qT (cc c) (ii i)) ∗ oPcs d (cc c) (ii i) (gath m d)))

/-! ## The obligation -/

theorem defs₀_vector (c : Fin τ.nSC) (s : Fin τ.nSub) :
    defs₀ (F := F) (.scVector c s) 0 ()
      = SparseCore.onTile hcore0 hsub0 (fun c s => cc0__gather_body (coordsV c s)
          iV (Memref.isWhole_whole _) xV (Memref.isWhole_whole _) oV (Memref.isWhole_whole _)
          sV (Memref.isWhole_whole _) rV (Memref.isWhole_whole _) cc0_scratch2 cc0_scratch3 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [∀ e, Nonempty (Elt F e)] (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre _ _ O W hO _ (chunkVal0 m d _) (chunkVal1 m d _)).trans (wp_mono frame _ _ fun _ => obl_post)

/-! ## A SparseCore's operands among its tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep3 (A B C : Fin 16 → sProp 𝕄) :
    (bigSep Finset.univ fun i => iprop(A i ∗ B i ∗ C i)) = iprop((bigSep Finset.univ A) ∗ (bigSep Finset.univ B) ∗ bigSep Finset.univ C) := by
  rw [bigSep_sep', bigSep_sep']

theorem vecSplit : (K (F := F)).VecSplit' (P m) 0 := by
  intro d c
  show iprop(iSh m d (qC (cc c)) ∗ xSh m d (qC (cc c)) ∗ bigSep Finset.univ fun s : Fin 16 => oPcs d (cc c) s (m (oLoc d)))
    ⊢ |={Set.univ}=> iprop(
      (bigSep Finset.univ fun i : Fin ((K (F := F)).nSub 0) =>
        iprop(iSh m d (qT (cc c) (Fin.cast nSub_zero i)) ∗ xSh m d (qT (cc c) (Fin.cast nSub_zero i)) ∗ oPcs d (cc c) (Fin.cast nSub_zero i) (m (oLoc d))))
      ∗ ((bigSep Finset.univ fun i : Fin ((K (F := F)).nSub 0) =>
          iprop(iSh m d (qT (cc c) (Fin.cast nSub_zero i)) ∗ xSh m d (qT (cc c) (Fin.cast nSub_zero i)) ∗ oPcs d (cc c) (Fin.cast nSub_zero i) (gath m d)))
          -∗ iprop(iSh m d (qC (cc c)) ∗ xSh m d (qC (cc c)) ∗ bigSep Finset.univ fun s : Fin 16 => oPcs d (cc c) s (gath m d))))
  rw [bigSep_tasks (F := F) (fun i => iprop(iSh m d (qT (cc c) i) ∗ xSh m d (qT (cc c) i) ∗ oPcs d (cc c) i (m (oLoc d)))),
    bigSep_tasks (F := F) (fun i => iprop(iSh m d (qT (cc c) i) ∗ xSh m d (qT (cc c) i) ∗ oPcs d (cc c) i (gath m d))),
    bigSep3, bigSep3]
  iintro ⟨Hi, Hx, Ho⟩
  ihave Hi2 := (Transfers.pointsTo_toks_split (qC (cc c)) 16) $$ Hi
  icases Hi2 with ⟨HiR, HiT⟩
  ihave Hx2 := (Transfers.pointsTo_toks_split (qC (cc c)) 16) $$ Hx
  icases Hx2 with ⟨HxR, HxT⟩
  imodintro
  isplitl [HiT HxT Ho]
  · isplitl [HiT]; · iexact HiT
    isplitl [HxT]; · iexact HxT
    iexact Ho
  iintro ⟨HiT, HxT, Ho⟩
  isplitl [HiR HiT]
  · iapply (Transfers.pointsTo_toks_join (qC (cc c)) 16); isplitl [HiR] <;> iassumption
  isplitl [HxR HxT]
  · iapply (Transfers.pointsTo_toks_join (qC (cc c)) 16); isplitl [HxR] <;> iassumption
  iexact Ho

/-! ## The launch element of the ghost state -/

/-- The pipeline library's launch element at the normalising kernel's staging cells. -/
abbrev pInit : UP := initOf (Pipeline.cells cfgs cellOf_inj) (Pipeline.launchToks cfgs cellOf_inj)

def u₀ : UU := (initOf (K (F := F)).hsCells (K (F := F)).hsToks, (pInit, 1))

/-- What the launch deals TensorCore `d` for the kernel's region: its staging cells' ghost state and duty tokens. -/
abbrev Gd (d : Dev nD) : sProp 𝕄 := iprop(Pipeline.cellsGhost cfgs (EP (F := F)) 0 d ∗ Pipeline.toksInit cfgs (EP (F := F)) 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((pInit, 1) : UP × Counters)) $$ Hu
  icases H with ⟨HH, HR⟩
  ihave H2 := (own_pair_emb (embR : Emb (UP × Counters) 𝕄) pInit (1 : Counters)) $$ HR
  icases H2 with ⟨HP, -⟩
  imod (Pipeline.fund_ghost cfgs (EP (F := F)) cellOf_inj) $$ HP with ⟨Hg, Ht⟩
  imodintro
  isplitl [HH]; · iexact HH
  isplitl [Hg Ht]
  · rw [bigSep_sep']
    isplitl [Hg]
    · iapply (Entails.of_eq (bigSep_congr fun c _ => bigSep_univ_of_subsingleton (0 : Fin 1))) $$ Hg
    · iapply (Entails.of_eq (bigSep_congr fun c _ => bigSep_univ_of_subsingleton (0 : Fin 1))) $$ Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.ScTileK

end
-- ==== Proof.ScValsK.lean ====
/-
  The TensorCore's buffer contents at the stages of @main: as launched; after the gather, the gathered rows in its
  result buffer; after the four reshapes of the position table, the token-type table, the scale and the shift into
  the ranks the normalising kernel's windows take — the contents the kernel's region is entered from.
-/
import proofs.«203468_g17523466567843_cont_7to1_1283_23_alg».proof.Proof.ScViewsK

noncomputable section

namespace Cert.ScTileK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S4x2048 EltTy.i32)
local notation "xV" => (Memref.whole Cert.Kernel.main_arg1_scv : Memref Cert.Kernel.sig Kind.scVector Space.hbm Cert.Kernel.S1000000x128 EltTy.f32)
local notation "oV" => (Memref.whole Cert.Kernel.main_v0_scv : Memref Cert.Kernel.sig Kind.scVector Space.hbm Cert.Kernel.S4x2048x128 EltTy.f32)
local notation "sV" => (Memref.whole Cert.Kernel.cc0_scratch0 : Memref Cert.Kernel.sig Kind.scVector Space.vmem Cert.Kernel.S256 EltTy.i32)
local notation "rV" => (Memref.whole Cert.Kernel.cc0_scratch1 : Memref Cert.Kernel.sig Kind.scVector Space.vmem Cert.Kernel.S256x128 EltTy.f32)

open Idealize.ShloMosaic.TcCoe

/-- Core `d`'s buffers at launch. -/
abbrev W0 (d : Dev nD) : Valuation τ sig (Elt F) := fun b => m (d, b)

/-- After the gather: its result buffer holds the gathered rows, every other buffer as launched. -/
def W1 (d : Dev nD) : Valuation τ sig (Elt F) := Function.update (W0 m d) (Proc.devRef .tc main_v0) (gath m d)

/-- The four reshapes between the gather and the normalising kernel. -/
abbrev hostOps : List (HloOp τ sig (Elt F)) :=
  [StableHlo.reshape main_arg4 main_v1 rfl shapeCasts_S128_S1x1x128,
   StableHlo.reshape main_arg5 main_v2 rfl shapeCasts_S128_S1x1x128,
   StableHlo.reshape main_arg2 main_v3 rfl shapeCasts_S2048x128_S1x2048x128,
   StableHlo.reshape main_arg3 main_v4 rfl shapeCasts_S2x128_S1x2x128]

/-- After them: what the kernel's region is entered from. -/
def W2 (d : Dev nD) : Valuation τ sig (Elt F) := StableHlo.after hostOps (W1 m d)

/-- The same read at the TensorCore's references. -/
abbrev V2 : (c : Dev nD) → (b : Ref sig .tc) → Buf (Elt F) ((c : Thread nD τ).loc b) := fun c b => W2 m c b

end Cert.ScTileK

end
-- ==== Proof.TcBlocksK.lean ====
/-
  One grid point of the normalisation region, from the inside.

  The region walks a grid of two points. At a point the body is handed six staging buffers: a block of two batch
  rows of the gathered word rows, 2×2048×128 (window 0); the position table, 1×2048×128 (window 1); the pair of
  token-type rows, 1×2×128 (window 2); the scale `γ` and the shift `β`, each 1×1×128 (windows 3 and 4); and the
  block of the result it is to fill, 2×2048×128 (window 5). It reads the five inputs — of the token-type pair only
  row 0, the 1×1×128 corner at the origin — and overwrites the whole result block with ONE value, a pure function
  `k1_pay1` of what it read: the three rows summed, then normalised along the last axis, scaled and shifted.

  This module names that value as a function of the five input buffers (`out5`), shows that the one store covers the
  result buffer (`cover5`), and proves the body's triple (`sound_kernel`): the inputs are left as they were and the
  result buffer holds `out5` of them, whatever it held before. Everything is stated at any float instance `F` and over
  the separation algebra of a run that also launches the other processor's kernel: its indices are `Option (Fin 1)`,
  its user part `U` is left open.
-/
import proofs.«203468_g17523466567843_cont_7to1_1283_23_alg».proof.Proof.Gen.Kernel.Launch
import proofs.«203468_g17523466567843_cont_7to1_1283_23_alg».proof.Proof.Gen.Kernel.Skeleton
import proofs.«203468_g17523466567843_cont_7to1_1283_23_alg».proof.Proof.Gen.Kernel.Points
import Idealize.ShloMosaic.Lib.Pipeline.FrameBody
import Idealize.ShloMosaic.Lib.Pipeline.Regions
import Idealize.ShloMosaic.Lib.SparseCore.Launch
import Idealize.ShloMosaic.Lib.Tactic

-- a rectangle of extents 2×2048×128 is examined one coordinate of its long axes at a time
set_option maxRecDepth 16384

noncomputable section

namespace Cert.TcBodyK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F] {U : Type} [URA U]

local notation "𝕄" => MT nD τ sig (Idealize.ShloMosaic.SparseCore.Cfg.HIx 1) (Elt F) ℕ U ℕ

-- what the TensorCore's buffers hold when the region is entered: left open, fixed by whoever enters it
variable (V : (c : Dev nD) → (b : Ref sig .tc) → Buf (Elt F) ((c : Thread nD τ).loc b))

/-! ## A window's block at a point -/

/-- Window `w`'s block at grid point `t`: the part of its array, as the region finds it, that the window's index
    map selects there. For windows 1–4 the map is constant and the block is the whole array at both points. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes through -/

/-- All of a 2×2048×128 buffer: the word-rows block as read, the result block as written. -/
abbrev rBlock : Rect S2x2048x128 := Rect.unit (s := S2x2048x128) ![0, 0, 0] S2x2048x128.size inb_S2x2048x128_S2x2048x128_0_0_0
/-- All of the position table's buffer. -/
abbrev rPos : Rect S1x2048x128 := Rect.unit (s := S1x2048x128) ![0, 0, 0] S1x2048x128.size inb_S1x2048x128_S1x2048x128_0_0_0
/-- Row 0 of the token-type pair: the 1×1×128 corner at the origin of the 1×2×128 buffer. -/
abbrev rType0 : Rect S1x2x128 := Rect.unit (s := S1x2x128) ![0, 0, 0] S1x1x128.size inb_S1x2x128_S1x1x128_0_0_0
/-- All of a 1×1×128 buffer: the scale, the shift. -/
abbrev rVec : Rect S1x1x128 := Rect.unit (s := S1x1x128) ![0, 0, 0] S1x1x128.size inb_S1x1x128_S1x1x128_0_0_0

/-! ## What the body leaves in the result buffer -/

/-- The result buffer after the body, as a function of the five input buffers: its one store, of `k1_pay1` at the
    five values read — each input through its rectangle, the token-type pair through its row-0 corner. -/
def out5 (x0 : Vec F S2x2048x128 .f32) (x1 : Vec F S1x2048x128 .f32) (x2 : Vec F S1x2x128 .f32) (x3 x4 : Vec F S1x1x128 .f32) :
    Vec F S2x2048x128 .f32 :=
  View.canon [⟨rBlock, k1_pay1 (View.ld x0 rBlock) (View.ld x1 rPos) (View.ld x2 rType0) (View.ld x3 rVec) (View.ld x4 rVec)⟩]

/-- The one store is through the whole-buffer rectangle, so every index of the result buffer lies in it. -/
theorem cover5 (p0 : Vec F S2x2048x128 .f32) (y : S2x2048x128.Idx) :
    ∃ pc ∈ ([⟨rBlock, p0⟩] : List (View.Piece (Elt F) S2x2048x128 .f32)), y ∈ pc.1.set :=
  View.cover_of_tiled [⟨rBlock, p0⟩] S2x2048x128.size (by rfl) y

/-! ## The body's triple -/

set_option maxHeartbeats 1000000 in
/-- The body on six whole buffers — the inputs at contents `x0 … x4`, the result buffer at anything — runs, at every
    grid coordinate `i`, to a state where the inputs hold what they held and the result buffer holds
    `out5 x0 x1 x2 x3 x4`. The body reads the result buffer once before it writes it; the value read goes nowhere,
    which is why the buffer's earlier contents do not matter. -/
theorem sound_kernel (i : grid1.Coords) (c : Dev nD) (E : Set ℕ)
    (arg1 : Memref sig .tc .vmem S2x2048x128 .f32) (harg1 : arg1.IsWhole) (arg2 : Memref sig .tc .vmem S1x2048x128 .f32) (harg2 : arg2.IsWhole)
    (arg3 : Memref sig .tc .vmem S1x2x128 .f32) (harg3 : arg3.IsWhole) (arg4 : Memref sig .tc .vmem S1x1x128 .f32) (harg4 : arg4.IsWhole)
    (arg5 : Memref sig .tc .vmem S1x1x128 .f32) (harg5 : arg5.IsWhole) (arg6 : Memref sig .tc .vmem S2x2048x128 .f32) (harg6 : arg6.IsWhole)
    (x0 : Vec F S2x2048x128 .f32) (x1 : Vec F S1x2048x128 .f32) (x2 : Vec F S1x2x128 .f32) (x3 x4 : Vec F S1x1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc1__ln_body i arg1 harg1 arg2 harg2 arg3 harg3 arg4 harg4 arg5 harg5 arg6 harg6) K := by
  simp only [cc1__ln_body_eq_skeleton]; unfold cc1__ln_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5 _)

/-- info: 'Cert.TcBodyK.sound_kernel' depends on axioms: [propext, Classical.choice, Quot.sound] -/
#guard_msgs in #print axioms sound_kernel

end Cert.TcBodyK

end
-- ==== Proof.TcBodyK.lean ====
/-
  The normalisation region's proof data, and the body's obligation at every grid point.

  The pipeline's rule asks, per core, for the contents of each window's staging buffer after the body at each point,
  and for a proof that the body, handed the buffers as the schedule leaves them, produces exactly those. Here the
  answer is uniform in the point: every input buffer holds its window's block there, before the body and after it,
  and the result buffer holds `out5` of the five input blocks.

  That an input buffer holds its block BEFORE the body needs an argument only for windows 1–4. Window 0 is fetched
  at both points. The other four are fetched at the first point alone; at the second the buffer still holds what the
  body left at the first, which is the first point's block, and the window's index map is constant, so that is the
  second point's block too. One library lemma covers both cases: an input whose body leaves its block in place
  holds, at every point, what a fetch there would have put — whether or not one happened.

  The body touches neither the core's scratch nor its generator register, and owes no other core anything; the
  invariant carried from point to point is just those two, at some contents, and the tallies stay at zero.
-/
import proofs.«203468_g17523466567843_cont_7to1_1283_23_alg».proof.Proof.TcBlocksK

-- a rectangle of extents 2×2048×128 is examined one coordinate of its long axes at a time
set_option maxRecDepth 16384

noncomputable section

namespace Cert.TcBodyK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F] {U : Type} [URA U]

local notation "𝕄" => MT nD τ sig (Idealize.ShloMosaic.SparseCore.Cfg.HIx 1) (Elt F) ℕ U ℕ

-- what the TensorCore's buffers hold when the region is entered: left open, fixed by whoever enters it
variable (V : (c : Dev nD) → (b : Ref sig .tc) → Buf (Elt F) ((c : Thread nD τ).loc b))
-- a bound on the (semaphore, index) pairs the core's waits have recorded: left open as well, the same at every point
variable (Rc : Set (SemLoc sig × Idealize.ShloMosaic.SparseCore.Cfg.HIx 1))

/-! ## An input's buffer holds its block at every point

Stated for ANY proof data whose arrays are the entry contents (`hA`) and whose body leaves the input's block in place
(`hafter`); none of the five windows is clipped at an edge and none has an idle point. -/

/-- The word-rows window: fetched at both points, a different block at each. -/
theorem before0_of {c : Dev nD} (dat : Dat τ (Elt F) (Idealize.ShloMosaic.SparseCore.Cfg.HIx 1) ℕ U ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The position table: fetched once; its index map is constant, so the block never changes. -/
theorem before1_of {c : Dev nD} (dat : Dat τ (Elt F) (Idealize.ShloMosaic.SparseCore.Cfg.HIx 1) ℕ U ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The token-type pair: fetched once, whole; constant index map. -/
theorem before2_of {c : Dev nD} (dat : Dat τ (Elt F) (Idealize.ShloMosaic.SparseCore.Cfg.HIx 1) ℕ U ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The scale: fetched once; constant index map. -/
theorem before3_of {c : Dev nD} (dat : Dat τ (Elt F) (Idealize.ShloMosaic.SparseCore.Cfg.HIx 1) ℕ U ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The shift: fetched once; constant index map. -/
theorem before4_of {c : Dev nD} (dat : Dat τ (Elt F) (Idealize.ShloMosaic.SparseCore.Cfg.HIx 1) ℕ U ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The invariant and the proof data -/

/-- What the region carries from point to point on core `c` and the body never looks at: the core's scoped buffers
    that are no staging buffer of this pipeline, each at some contents, and its generator register at some state. -/
def ΦTc (c : Dev nD) : sProp 𝕄 :=
  iprop(Pipeline.scopedRest (Ix := Idealize.ShloMosaic.SparseCore.Cfg.HIx 1) (Name := ℕ) (U := U) (Lvl := ℕ) (Val := Elt F) spec1 c ∗ ∃ r, prngReg c r)

/-- The proof data of the pipeline on core `c`: the arrays as the region finds them; after the body at point `t`
    each input buffer at its block and the result buffer at `out5` of the five input blocks; the invariant `ΦTc`;
    full shares; nothing owed; the recorded pairs within `Rc` at every point (the body records none). -/
def dat (c : Dev nD) : Dat τ (Elt F) (Idealize.ShloMosaic.SparseCore.Cfg.HIx 1) ℕ U ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := ΦTc c
  q _ := fullShare
  owed _ := 0
  recorded _ := Rc

/-- The proof data's arrays are the entry contents. -/
theorem A_eq (c : Dev nD) (w : Fin cfg1.W) : (dat (U := U) V Rc c).A w = V c (Pipeline.arrRef spec1 w) := by
  dsimp only [dat]

/-- Its invariant is the same at every point. -/
theorem Φ_eq (c : Dev nD) (t : Fin (cfg1.N + 1)) : (dat (U := U) V Rc c).Φ t = ΦTc c := by
  dsimp only [dat]

/-- What the body leaves, window by window. -/
theorem after0 (c : Dev nD) (t : Fin cfg1.N) : (dat (U := U) V Rc c).after 0 t = iblk V c 0 t := by dsimp only [dat]
theorem after1 (c : Dev nD) (t : Fin cfg1.N) : (dat (U := U) V Rc c).after 1 t = iblk V c 1 t := by dsimp only [dat]
theorem after2 (c : Dev nD) (t : Fin cfg1.N) : (dat (U := U) V Rc c).after 2 t = iblk V c 2 t := by dsimp only [dat]
theorem after3 (c : Dev nD) (t : Fin cfg1.N) : (dat (U := U) V Rc c).after 3 t = iblk V c 3 t := by dsimp only [dat]
theorem after4 (c : Dev nD) (t : Fin cfg1.N) : (dat (U := U) V Rc c).after 4 t = iblk V c 4 t := by dsimp only [dat]
theorem after5 (c : Dev nD) (t : Fin cfg1.N) :
    (dat (U := U) V Rc c).after 5 t = out5 (iblk V c 0 t) (iblk V c 1 t) (iblk V c 2 t) (iblk V c 3 t) (iblk V c 4 t) := by dsimp only [dat]

/-- What the body finds: every input's buffer at its block, at every point. -/
theorem before0 (c : Dev nD) (t : Fin cfg1.N) (d) : (dat (U := U) V Rc c).before 0 t d = iblk V c 0 t :=
  before0_of V (dat V Rc c) (A_eq V Rc c 0) (after0 V Rc c) t d
theorem before1 (c : Dev nD) (t : Fin cfg1.N) (d) : (dat (U := U) V Rc c).before 1 t d = iblk V c 1 t :=
  before1_of V (dat V Rc c) (A_eq V Rc c 1) (after1 V Rc c) t d
theorem before2 (c : Dev nD) (t : Fin cfg1.N) (d) : (dat (U := U) V Rc c).before 2 t d = iblk V c 2 t :=
  before2_of V (dat V Rc c) (A_eq V Rc c 2) (after2 V Rc c) t d
theorem before3 (c : Dev nD) (t : Fin cfg1.N) (d) : (dat (U := U) V Rc c).before 3 t d = iblk V c 3 t :=
  before3_of V (dat V Rc c) (A_eq V Rc c 3) (after3 V Rc c) t d
theorem before4 (c : Dev nD) (t : Fin cfg1.N) (d) : (dat (U := U) V Rc c).before 4 t d = iblk V c 4 t :=
  before4_of V (dat V Rc c) (A_eq V Rc c 4) (after4 V Rc c) t d

/-! ## The body's obligation at a point -/

/-- What the body is handed at point `t`: the invariant, what the core owes, and the six current staging buffers —
    each at what the schedule has left in it. -/
def bodyPre (c : Dev nD) (t : Fin cfg1.N) : sProp 𝕄 :=
  iprop((dat (U := U) V Rc c).Φ t.castSucc ∗ (dat (U := U) V Rc c).owesAt (default : Idealize.ShloMosaic.SparseCore.Cfg.HIx 1) t.castSucc
    ∗ (∃ d, owns (c : Thread nD τ) (st1_0 t) fullShare ((dat (U := U) V Rc c).before 0 t d))
    ∗ (∃ d, owns (c : Thread nD τ) (st1_1 t) fullShare ((dat (U := U) V Rc c).before 1 t d))
    ∗ (∃ d, owns (c : Thread nD τ) (st1_2 t) fullShare ((dat (U := U) V Rc c).before 2 t d))
    ∗ (∃ d, owns (c : Thread nD τ) (st1_3 t) fullShare ((dat (U := U) V Rc c).before 3 t d))
    ∗ (∃ d, owns (c : Thread nD τ) (st1_4 t) fullShare ((dat (U := U) V Rc c).before 4 t d))
    ∗ (∃ d, owns (c : Thread nD τ) (st1_5 t) fullShare ((dat (U := U) V Rc c).before 5 t d)))

/-- What it hands back: the same invariant and debts, and the six buffers at what the proof data says it leaves. -/
def bodyPost (c : Dev nD) (t : Fin cfg1.N) : sProp 𝕄 :=
  iprop((dat (U := U) V Rc c).Φ t.succ ∗ (dat (U := U) V Rc c).owesAt (default : Idealize.ShloMosaic.SparseCore.Cfg.HIx 1) t.succ
    ∗ owns (c : Thread nD τ) (st1_0 t) fullShare ((dat (U := U) V Rc c).after 0 t)
    ∗ owns (c : Thread nD τ) (st1_1 t) fullShare ((dat (U := U) V Rc c).after 1 t)
    ∗ owns (c : Thread nD τ) (st1_2 t) fullShare ((dat (U := U) V Rc c).after 2 t)
    ∗ owns (c : Thread nD τ) (st1_3 t) fullShare ((dat (U := U) V Rc c).after 3 t)
    ∗ owns (c : Thread nD τ) (st1_4 t) fullShare ((dat (U := U) V Rc c).after 4 t)
    ∗ owns (c : Thread nD τ) (st1_5 t) fullShare ((dat (U := U) V Rc c).after 5 t))

/-- The body at any point: the five input buffers hold their blocks, so the body's triple applies with those blocks
    for `x0 … x4`; the invariant and the core's debts are carried across untouched. -/
theorem sound_body (c : Dev nD) (t : Fin cfg1.N) :
    bodyPre (U := U) V Rc c t ⊢ wp frame (wpE (defs₀ (F := F)) Variants.none c none) Set.univ (bodyAt1 t) (fun _ => bodyPost (U := U) V Rc c t) := by
  unfold bodyPre bodyPost bodyAt1
  simp only [before0, before1, before2, before3, before4]
  rw [show (dat (U := U) V Rc c).Φ t.succ = (dat (U := U) V Rc c).Φ t.castSucc from rfl,
    show (dat (U := U) V Rc c).owesAt (default : Idealize.ShloMosaic.SparseCore.Cfg.HIx 1) t.succ = (dat (U := U) V Rc c).owesAt (default : Idealize.ShloMosaic.SparseCore.Cfg.HIx 1) t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel (grid1.coords t) c Set.univ _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's body obligation, at every point. -/
theorem body_obligation (c : Dev nD) :
    BodyObligation (dat (F := F) (U := U) V Rc c) (defs₀ (F := F)) Variants.none (default : Idealize.ShloMosaic.SparseCore.Cfg.HIx 1) Set.univ := fun t => by
  rw [bigSep_W1, bigSep_W1]
  exact sound_body V Rc c t

/-- info: 'Cert.TcBodyK.body_obligation' depends on axioms: [propext, Classical.choice, Quot.sound] -/
#guard_msgs in #print axioms body_obligation

end Cert.TcBodyK

end
-- ==== Proof.ScRegionK.lean ====
/-
  The normalising kernel's region as @main enters it: from every unscoped buffer at the contents the gather and the four
  reshapes leave, to the same with the kernel's result written; the core owes nothing, and the pairs its waits have
  recorded stay within the level its handshake state allows after the one SparseCore call.
-/
import proofs.«203468_g17523466567843_cont_7to1_1283_23_alg».proof.Proof.ScPayK
import proofs.«203468_g17523466567843_cont_7to1_1283_23_alg».proof.Proof.ScValsK
import proofs.«203468_g17523466567843_cont_7to1_1283_23_alg».proof.Proof.TcBodyK
import Idealize.ShloMosaic.Lib.Pipeline.FrameSuffix
import Idealize.ShloMosaic.Lib.Pipeline.RegionsLoop

noncomputable section

namespace Cert.ScTileK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S4x2048 EltTy.i32)
local notation "xV" => (Memref.whole Cert.Kernel.main_arg1_scv : Memref Cert.Kernel.sig Kind.scVector Space.hbm Cert.Kernel.S1000000x128 EltTy.f32)
local notation "oV" => (Memref.whole Cert.Kernel.main_v0_scv : Memref Cert.Kernel.sig Kind.scVector Space.hbm Cert.Kernel.S4x2048x128 EltTy.f32)
local notation "sV" => (Memref.whole Cert.Kernel.cc0_scratch0 : Memref Cert.Kernel.sig Kind.scVector Space.vmem Cert.Kernel.S256 EltTy.i32)
local notation "rV" => (Memref.whole Cert.Kernel.cc0_scratch1 : Memref Cert.Kernel.sig Kind.scVector Space.vmem Cert.Kernel.S256x128 EltTy.f32)

open Idealize.ShloMosaic.TcCoe

/-! ## The normalising kernel's region, entered from the gathered rows and the reshaped tables -/

/-- No pipeline has a prefetched table. -/
abbrev adm : (p : Fin 1) → (pcfgs (F := F) p).Adm := fun p => (cfgs p).toPCfg_adm

/-- The (semaphore, index) pairs a TensorCore may have recorded when it reaches the region: those at or below the level
    its handshake state allows after the one call. -/
abbrev Rc (c : Dev nD) : Set (SemLoc sig × HIx 1) := {p | (K (F := F)).lev (T c, p.1) p.2 ≤ 8 * 1}

/-- The pipeline's proof data at the region's entry contents. -/
def pdats : (p : Fin 1) → (c : Dev nD) → Pipeline.Dat τ (Elt F) (HIx 1) ℕ UU ℕ (Pipeline.pin (pcfgs (F := F)) adm p) c
  | ⟨0, _⟩ => fun c => Cert.TcBodyK.dat (F := F) (U := UU) (V2 m) (Rc (F := F) c) c

/-- At the region's exit: its arrays at what the pipeline leaves, every other buffer as entered. -/
def W3 (c : Dev nD) : Valuation τ sig (Elt F) :=
  Pipeline.withArrays spec1 c (W2 m c) fun w => (Cert.TcBodyK.dat (F := F) (U := UU) (V2 m) (Rc (F := F) c) c).arrAt w cfg1.N
theorem W3_arr (c : Dev nD) (w : Fin cfg1.W) :
    W3 m c (Proc.devRef .tc (Pipeline.arrRef spec1 w)) = (Cert.TcBodyK.dat (F := F) (U := UU) (V2 m) (Rc (F := F) c) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) :
    (Cert.TcBodyK.dat (F := F) (U := UU) (V2 m) (Rc (F := F) c) c).arrAt w cfg1.N = V3 m c (Pipeline.arrRef spec1 w) := (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- What rides beside the buffers through the region: the generator register at some state, and the core owing nothing,
    its recorded pairs within the level its handshake state allows. -/
abbrev RR (c : Dev nD) : sProp 𝕄 :=
  iprop((∃ r, prngReg c r) ∗ ∃ W, ⌜(K (F := F)).WBelow (T c) W (8 * 1)⌝ ∗ owes (T c) (0 : CellTallies nD τ sig (HIx 1)) W)

set_option backward.isDefEq.respectTransparency.types false in
/-- The region over the thread state: entered from every unscoped buffer at the reshaped contents, left with the kernel's
    result written; the generator register into the class invariant and out; nothing owed. -/
def reg : Pipeline.RegionSeg (pcfgs (F := F)) adm (pdats m) (default : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (Cert.TcBodyK.body_obligation (F := F) (U := UU) (V2 m) (Rc (F := F) c) c).loose
  hwaits := Pipeline.hwaits_of_owed_zero _ _ _ _ _ _ 0 fun _ _ => rfl
  pre c := iprop(StableHlo.held (c : Thread nD τ) (Pipeline.ucRefs τ sig) (W2 m c) ∗ RR (F := F) c)
  post c := iprop(StableHlo.held (c : Thread nD τ) (Pipeline.ucRefs τ sig) (W3 m c) ∗ RR (F := F) c)
  X c := iprop(∃ r, prngReg c r)
  Y c := iprop(∃ r, prngReg c r)
  Z c := Pipeline.unscopedRest (Ix := HIx 1) (Name := ℕ) (U := UU) (Lvl := ℕ) spec1 c (V2 m c)
  hentry c := by
    rw [Pipeline.ownSems0_none]
    have hsplit := Pipeline.arrays_of_unscopedBufs (p := 0) (pcfgs (F := F)) adm (pdats m) launch1.win launch1.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 0 c).Φ 0 = Cert.TcBodyK.ΦTc c from rfl]; unfold Cert.TcBodyK.ΦTc
    iintro ⟨Hp, -, Hr⟩
    isplitl [Hr]; · iexact Hr
    iexact Hp
  hout c := by
    rw [Pipeline.ownSems0_none, show (pdats m 0 c).Φ (Fin.last _) = Cert.TcBodyK.ΦTc c from rfl]; unfold Cert.TcBodyK.ΦTc
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m) ((pdats m 0 c).share_full fun _ => rfl)
      (V2 m c) (V3 m c) ((pdats m 0 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW hp with h | ⟨w, s, rfl⟩
      · exact h
      · show (K (F := F)).lev _ none ≤ _; rw [SparseCore.Cfg.lev_none]; exact Nat.zero_le _
    iexact HO

end Cert.ScTileK

end
-- ==== Proof.ScMainK.lean ====
/-
  @main on the TensorCore and the program's run: the gather's call, the four reshapes, the normalising kernel's region;
  then the final memory read back — every argument as launched, the result buffer at the kernel's final array.
-/
import proofs.«203468_g17523466567843_cont_7to1_1283_23_alg».proof.Proof.ScRegionK

noncomputable section

namespace Cert.ScTileK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S4x2048 EltTy.i32)
local notation "xV" => (Memref.whole Cert.Kernel.main_arg1_scv : Memref Cert.Kernel.sig Kind.scVector Space.hbm Cert.Kernel.S1000000x128 EltTy.f32)
local notation "oV" => (Memref.whole Cert.Kernel.main_v0_scv : Memref Cert.Kernel.sig Kind.scVector Space.hbm Cert.Kernel.S4x2048x128 EltTy.f32)
local notation "sV" => (Memref.whole Cert.Kernel.cc0_scratch0 : Memref Cert.Kernel.sig Kind.scVector Space.vmem Cert.Kernel.S256 EltTy.i32)
local notation "rV" => (Memref.whole Cert.Kernel.cc0_scratch1 : Memref Cert.Kernel.sig Kind.scVector Space.vmem Cert.Kernel.S256x128 EltTy.f32)

open Idealize.ShloMosaic.TcCoe

/-! ## @main on the TensorCore -/

/-- The three buffers the gather takes, among the TensorCore's unscoped ones. -/
abbrev gRefs : Finset (DevRef τ sig) := {Proc.devRef .tc main_arg0, Proc.devRef .tc main_arg1, Proc.devRef .tc main_v0}

theorem held3 (d : Dev nD) (W : Valuation τ sig (Elt F)) :
    (StableHlo.held (T d) (Pipeline.ucRefs τ sig) W : sProp 𝕄)
      = iprop(((iLoc d ↦{fullShare} W (Proc.devRef .tc main_arg0)) ∗ (xLoc d ↦{fullShare} W (Proc.devRef .tc main_arg1)) ∗ (oLoc d ↦{fullShare} W (Proc.devRef .tc main_v0)))
          ∗ StableHlo.held (T d) (Pipeline.ucRefs τ sig \ gRefs) W) := by
  rw [StableHlo.held_sub_split (T d) (show gRefs ⊆ Pipeline.ucRefs τ sig from by decide) W]
  congr 1
  unfold StableHlo.held
  rw [SparseCore.bigSep_insert' (by decide), SparseCore.bigSep_insert' (by decide), bigSep_singleton]

theorem W1_v0 (d : Dev nD) : W1 m d (Proc.devRef .tc main_v0) = gath m d := by unfold W1; exact Function.update_self _ _ _
theorem W1_of_ne (d : Dev nD) (b : DevRef τ sig) (h : b ≠ Proc.devRef .tc main_v0) : W1 m d b = W0 m d b := by
  unfold W1; exact Function.update_of_ne h _ _

/-- The unscoped buffers after the gather: the index array and the word table as launched, the result buffer at the
    gathered rows, the others as launched. -/
theorem held_W1 (d : Dev nD) :
    iprop(((iLoc d ↦{fullShare} m (iLoc d)) ∗ (xLoc d ↦{fullShare} m (xLoc d)) ∗ (oLoc d ↦{fullShare} gath m d))
        ∗ StableHlo.held (T d) (Pipeline.ucRefs τ sig \ gRefs) (W0 m d))
      ⊢ (StableHlo.held (T d) (Pipeline.ucRefs τ sig) (W1 m d) : sProp 𝕄) := by
  rw [held3 d (W1 m d), W1_v0, W1_of_ne m d _ (by decide), W1_of_ne m d _ (by decide),
    StableHlo.held_congr (T d) (V := W1 m d) (V' := W0 m d) fun b hb => W1_of_ne m d b fun e => by
      subst e; exact (Finset.mem_sdiff.mp hb).2 (by decide)]

theorem st0_eq (d : Dev nD) : (bigSep Finset.univ fun c : Fin ((K (F := F)).nCore 0) => (P m).st 0 d c)
    = iprop((bigSep Finset.univ fun c : Fin 2 => iSh m d (qC c)) ∗ (bigSep Finset.univ fun c : Fin 2 => xSh m d (qC c))
        ∗ bigSep Finset.univ fun c : Fin 2 => bigSep Finset.univ fun s : Fin 16 => oPcs d c s (m (oLoc d))) := by
  rw [← bigSep_sep', ← bigSep_sep']
  exact bigSep_congr fun c _ => rfl
theorem dn0_eq (d : Dev nD) : (bigSep Finset.univ fun c : Fin ((K (F := F)).nCore 0) => (P m).dn 0 d c)
    = iprop((bigSep Finset.univ fun c : Fin 2 => iSh m d (qC c)) ∗ (bigSep Finset.univ fun c : Fin 2 => xSh m d (qC c))
        ∗ bigSep Finset.univ fun c : Fin 2 => bigSep Finset.univ fun s : Fin 16 => oPcs d c s (gath m d)) := by
  rw [← bigSep_sep', ← bigSep_sep']
  exact bigSep_congr fun c _ => rfl

theorem Otc_one (d : Dev nD) : (K (F := F)).Otc d 1 = 0 := by
  unfold SparseCore.Cfg.Otc
  exact Finset.sum_eq_zero fun q _ => if_neg (by have := q.isLt; omega)

/-- What @main leaves: the unscoped buffers at the region's exit contents. -/
abbrev FIN (d : Dev nD) : sProp 𝕄 := StableHlo.held (T d) (Pipeline.ucRefs τ sig) (W3 m d)

/-- The launch's unscoped buffers, as the set held at the launch valuation. -/
theorem tcBufs_held (d : Dev nD) :
    (unscopedBufs d (fun b => m ((SparseCore.T d).loc b)) : sProp 𝕄) = StableHlo.held (SparseCore.T d) (Pipeline.ucRefs τ sig) (W0 m d) :=
  Pipeline.unscopedBufs_held d (W0 m d)

set_option maxHeartbeats 1000000 in
/-- The gather's call: from the unscoped buffers as launched to the same with the result buffer at the gathered rows. -/
theorem run_step (κ : GSem nD τ sig → ℕ) (d : Dev nD) {Φ : PUnit → sProp 𝕄} :
    iprop((K (F := F)).ctx EH (P m) κ ∗ (K (F := F)).tcSt EH d 0 ∗ StableHlo.held (SparseCore.T d) (Pipeline.ucRefs τ sig) (W0 m d)
        ∗ (iprop((K (F := F)).tcSt EH d 1 ∗ StableHlo.held (SparseCore.T d) (Pipeline.ucRefs τ sig) (W1 m d)) -∗ Φ ⟨⟩))
      ⊢ wp frame (wpE ((K (F := F)).defs (D (F := F))) 𝒱 (SparseCore.T d) none) Set.univ ((K (F := F)).run d 0) Φ := by
  rw [held3]
  iintro ⟨#Hctx, Hst, ⟨⟨Hi, Hx, Ho⟩, Hrest⟩, Hk⟩
  -- the read shares, one per SparseCore; the result buffer in its 64 chunks
  ihave Hi2 := (Transfers.pointsTo_toks_split fullShare 2) $$ Hi
  icases Hi2 with ⟨HiR, HiT⟩
  ihave Hx2 := (Transfers.pointsTo_toks_split fullShare 2) $$ Hx
  icases Hx2 with ⟨HxR, HxT⟩
  ihave Ho2 := (Entails.of_eq (oPts_chunks (F := F) d (W0 m d (Proc.devRef .tc main_v0)))) $$ Ho
  iapply ((K (F := F)).wp_run (D (F := F)) 𝒱 (EH := EH) (P := P m) κ d 0) $$ [Hst HiT HxT Ho2 HiR HxR Hrest Hk]
  isplitr; · iexact Hctx
  isplitl [Hst]; · iexact Hst
  isplitl [HiT HxT Ho2]
  · rw [st0_eq]
    isplitl [HiT]; · iexact HiT
    isplitl [HxT]; · iexact HxT
    iexact Ho2
  iintro ⟨Hst, Hdn⟩
  ihave Hdn' := (Entails.of_eq (dn0_eq m d)) $$ Hdn
  icases Hdn' with ⟨HiT, HxT, Ho2⟩
  ihave Hi := (Transfers.pointsTo_toks_join fullShare 2) $$ [HiR HiT]; · isplitl [HiR] <;> iassumption
  ihave Hx := (Transfers.pointsTo_toks_join fullShare 2) $$ [HxR HxT]; · isplitl [HxR] <;> iassumption
  ihave Ho := (Entails.of_eq (oPts_chunks (F := F) d (gath m d)).symm) $$ Ho2
  ihave Hh := (held_W1 m d) $$ [Hi Hx Ho Hrest]
  · isplitl [Hi Hx Ho]
    · isplitl [Hi]; · iexact Hi
      isplitl [Hx]; · iexact Hx
      iexact Ho
    iexact Hrest
  iapply Hk
  isplitl [Hst]; · iexact Hst
  iexact Hh

/-- The four reshapes, by name. -/
abbrev op1 : HloOp τ sig (Elt F) := StableHlo.reshape main_arg4 main_v1 rfl shapeCasts_S128_S1x1x128
abbrev op2 : HloOp τ sig (Elt F) := StableHlo.reshape main_arg5 main_v2 rfl shapeCasts_S128_S1x1x128
abbrev op3 : HloOp τ sig (Elt F) := StableHlo.reshape main_arg2 main_v3 rfl shapeCasts_S2048x128_S1x2048x128
abbrev op4 : HloOp τ sig (Elt F) := StableHlo.reshape main_arg3 main_v4 rfl shapeCasts_S2x128_S1x2x128
theorem op1_sub : (op1 (F := F)).bufs ⊆ Pipeline.ucRefs τ sig := Pipeline.sub_ucRefs _ (StableHlo.reshape_bufs_sub ..)
theorem op2_sub : (op2 (F := F)).bufs ⊆ Pipeline.ucRefs τ sig := Pipeline.sub_ucRefs _ (StableHlo.reshape_bufs_sub ..)
theorem op3_sub : (op3 (F := F)).bufs ⊆ Pipeline.ucRefs τ sig := Pipeline.sub_ucRefs _ (StableHlo.reshape_bufs_sub ..)
theorem op4_sub : (op4 (F := F)).bufs ⊆ Pipeline.ucRefs τ sig := Pipeline.sub_ucRefs _ (StableHlo.reshape_bufs_sub ..)

set_option backward.isDefEq.respectTransparency.types false in
/-- One host operation over the unscoped buffers held whole. -/
theorem hlo_step (d : Dev nD) (op : HloOp τ sig (Elt F)) (hS : op.bufs ⊆ Pipeline.ucRefs τ sig) (hf : op.fresh = ∅)
    (V : Valuation τ sig (Elt F)) {Q : PUnit → sProp 𝕄} :
    iprop(boundary (SparseCore.T d) ∗ StableHlo.held (SparseCore.T d) (Pipeline.ucRefs τ sig) V
        ∗ (iprop(boundary (SparseCore.T d) ∗ StableHlo.held (SparseCore.T d) (Pipeline.ucRefs τ sig) (op.result V)) -∗ Q ⟨⟩))
      ⊢ wp frame (wpE ((K (F := F)).defs (D (F := F))) 𝒱 (SparseCore.T d) none) Set.univ (hlo rfl op (fun _ => .ret ⟨⟩)) Q := by
  iintro ⟨Hb, Hh, Hk⟩
  iapply (StableHlo.wp_hlo_within 𝒱 (SparseCore.T d) none Set.univ (op := op) (S := Pipeline.ucRefs τ sig) hS (hf := hf)) $$ [Hb Hh]
  · isplitl [Hb] <;> iassumption
  iintro H
  rw [wp_ret]; imodintro
  iapply Hk; iexact H

set_option backward.isDefEq.respectTransparency.types false in
set_option maxHeartbeats 1000000 in
/-- The normalising kernel's region, entered through the SparseCore program's lift of the pipeline's entry. -/
theorem region_step (d : Dev nD) {Q : PUnit → sProp 𝕄} :
    iprop(boundary (SparseCore.T d) ∗ StableHlo.held (SparseCore.T d) (Pipeline.ucRefs τ sig) (W2 m d) ∗ RR (F := F) d
        ∗ levAts (K (F := F)).L (K (F := F)).lev ∗ Gd (F := F) d
        ∗ (iprop(boundary (SparseCore.T d) ∗ StableHlo.held (SparseCore.T d) (Pipeline.ucRefs τ sig) (W3 m d) ∗ RR (F := F) d) -∗ Q ⟨⟩))
      ⊢ wp frame (wpE ((K (F := F)).defs (D (F := F))) 𝒱 (SparseCore.T d) none) Set.univ
          (Prog.lift (.customCall (SparseCore.inner (Pipeline.entry (0 : Fin 1))) ())) Q := by
  iintro ⟨Hb, Hh, HR, Hlev, ⟨Hcg, Htk⟩, Hk⟩
  iapply ((K (F := F)).wp_liftProg (D (F := F)) 𝒱 (SparseCore.T d) Set.univ none
      (Prog.op (.customCall (Pipeline.entry (0 : Fin 1)) ()) fun _ => Prog.ret PUnit.unit) Q)
  iapply (Pipeline.RegionSeg.wp (pcfgs (F := F)) adm (pdats m) (default : HIx 1) cellOf_inj (EP (F := F)) defs₀ 𝒱₀ (K (F := F)).L (K (F := F)).lev
      (reg m) d none (fun u hu => nomatch hu) (fun _ => Prog.ret PUnit.unit) Q) $$ [Hb Hh HR Hlev Hcg Htk Hk]
  isplitl [Hk]
  · iintro ⟨Hb, Hpost⟩
    ihave Hpost' := (show (reg m).post d ⊢ iprop(StableHlo.held (SparseCore.T d) (Pipeline.ucRefs τ sig) (W3 m d) ∗ RR (F := F) d) from .rfl) $$ Hpost
    icases Hpost' with ⟨Hh, HR⟩
    rw [wp_ret]; imodintro
    iapply Hk
    isplitl [Hb]; · iexact Hb
    isplitl [Hh]; · iexact Hh
    iexact HR
  isplitl [Hb]; · iexact Hb
  isplitl [Hh HR]
  · iapply (show iprop(StableHlo.held (SparseCore.T d) (Pipeline.ucRefs τ sig) (W2 m d) ∗ RR (F := F) d) ⊢ (reg m).pre d from .rfl)
    isplitl [Hh]; · iexact Hh
    iexact HR
  isplitl [Hlev]; · iexact Hlev
  isplitl [Hcg]; · iexact Hcg
  iexact Htk

set_option maxHeartbeats 1000000 in
/-- @main on device `d`'s TensorCore: the gather's call, the four reshapes, the normalising kernel's region. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [tcBufs_held]
  simp only [main, wp_bind, wp_pure]
  iintro ⟨#Hctx, Hst, ⟨Hb, Hh, -, Hprng⟩, HG⟩
  iapply (run_step m κ d) $$ [Hst Hh Hb Hprng HG]
  isplitr; · iexact Hctx
  isplitl [Hst]; · iexact Hst
  isplitl [Hh]; · iexact Hh
  iintro ⟨Hst, Hh⟩
  iapply (hlo_step (F := F) d op1 op1_sub rfl _) $$ [Hb Hh Hst Hprng HG]
  isplitl [Hb]; · iexact Hb
  isplitl [Hh]; · iexact Hh
  iintro ⟨Hb, Hh⟩
  iapply (hlo_step (F := F) d op2 op2_sub rfl _) $$ [Hb Hh Hst Hprng HG]
  isplitl [Hb]; · iexact Hb
  isplitl [Hh]; · iexact Hh
  iintro ⟨Hb, Hh⟩
  iapply (hlo_step (F := F) d op3 op3_sub rfl _) $$ [Hb Hh Hst Hprng HG]
  isplitl [Hb]; · iexact Hb
  isplitl [Hh]; · iexact Hh
  iintro ⟨Hb, Hh⟩
  iapply (hlo_step (F := F) d op4 op4_sub rfl _) $$ [Hb Hh Hst Hprng HG]
  isplitl [Hb]; · iexact Hb
  isplitl [Hh]; · iexact Hh
  iintro ⟨Hb, Hh⟩
  -- the handshake state lends its `owes`: nothing is owed after the one call
  ihave Hlev := ((K (F := F)).ctx_levAts κ) $$ Hctx
  unfold SparseCore.Cfg.tcSt
  icases Hst with ⟨⟨%W, %hW, HO⟩, Hat, #Hrd, #Hrs, Htoks⟩
  rw [Otc_one]
  iapply (region_step m d) $$ [Hb Hh Hprng HO Hlev HG Hat Htoks]
  isplitl [Hb]; · iexact Hb
  isplitl [Hh]; · iexact Hh
  isplitl [Hprng HO]
  · isplitl [Hprng]; · iexists _; iexact Hprng
    iexists W; isplitr; · ipureintro; exact hW
    iexact HO
  isplitl [Hlev]; · iexact Hlev
  isplitl [HG]; · iexact HG
  iintro ⟨Hb, Hh, ⟨Hp, %W', %hW', HO⟩⟩
  imodintro
  isplitl [HO Hat Htoks]
  · isplitl [HO]
    · iexists W'; isplitr; · ipureintro; exact hW'
      iexact HO
    isplitl [Hat]; · iexact Hat
    isplitr; · iexact Hrd
    isplitr; · iexact Hrs
    iexact Htoks
  iexact Hh

/-! ## The final memory: the arguments as launched, the result at what the kernel's region leaves -/

/-- A buffer that is no window's array of the kernel, that no reshape writes and that is not the gather's result ends
    as launched. -/
theorem W3_kept (c : Dev nD) (b : Ref sig .tc) (hw : ∀ w, Pipeline.arrRef spec1 w ≠ b)
    (h1 : b ≠ main_v1) (h2 : b ≠ main_v2) (h3 : b ≠ main_v3) (h4 : b ≠ main_v4) (h0 : b ≠ main_v0) :
    W3 m c (Proc.devRef .tc b) = m ((c : Thread nD τ).loc b) := by
  refine (W3_of_ne m c b hw).trans ?_
  unfold W2
  refine (StableHlo.after_of_forall_not_mem (b := Proc.devRef .tc b) _ _ (List.forall_iff_forall_mem.mp ?_)).trans (W1_of_ne m c _ (StableHlo.devRef_ne_of_ne h0))
  simp only [hostOps, List.Forall, StableHlo.reshape_writes, Finset.mem_singleton]
  exact ⟨StableHlo.devRef_ne_of_ne h1, StableHlo.devRef_ne_of_ne h2, StableHlo.devRef_ne_of_ne h3, StableHlo.devRef_ne_of_ne h4⟩

/-- The result buffer ends at the kernel's final array. -/
theorem W3_out (c : Dev nD) :
    W3 m c (Proc.devRef .tc main_v5) = (Cert.TcBodyK.dat (F := F) (U := UU) (V2 m) (Rc (F := F) c) c).arrAt 5 cfg1.N := W3_arr m c 5

def fq (d : Dev nD) (s' : Phys nD τ sig (Elt F)) : Prop := ∀ b ∈ Pipeline.ucRefs τ sig, s'.mem.mem ((d, b) : Loc nD τ sig) = W3 m d b

theorem hfin (d : Dev nD) (s' : Phys nD τ sig (Elt F)) : iprop(FIN m d ∗ SI s') ⊢ (⌜fq m d s'⌝ : sProp 𝕄) := by
  unfold FIN StableHlo.held
  iintro ⟨Hh, HSI⟩
  ihave H := (pointsTo_read_all (Pipeline.ucRefs τ sig) (fun b => ((d, b) : Loc nD τ sig)) (W3 m d) s') $$ [Hh HSI]
  · isplitl [Hh] <;> iassumption
  icases H with ⟨%h, -⟩
  ipureintro; exact h

/-! ## The program's run -/

def QC : PUnit × MemSt nD τ sig (Elt F) → Prop := fun r => ∀ c : Dev nD, ∀ b ∈ Pipeline.ucRefs τ sig, r.2.mem ((c, b) : Loc nD τ sig) = W3 m c b

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => Gd (F := F) d) (FIN m) (u₀ (F := F)) (sep_elim_left.trans (hu₀ m)) (hmain m ρ) (fq m) (hfin m) (QC m) (fun _ h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with what the claims read off it: every argument buffer as launched, the result buffer at the kernel's final
    array over the gathered rows and the reshaped tables. -/
theorem run_claims [∀ e, Nonempty (Elt F e)] (hpre : PreOK m) :
    θ_run (Cert.Kernel.defs (F := F)) (Cert.Kernel.threads (F := F)) ⟨m, fun _ => 0, ρ⟩ (fun r => ∀ c : Dev nD,
      r.2.mem ((c.tc : Thread nD τ).loc main_v5) = (Cert.TcBodyK.dat (F := F) (U := UU) (V2 m) (Rc (F := F) c) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨(h c _ (mem_uc main_v5 (by decide))).trans (W3_out m c),
     (h c _ (mem_uc main_arg0 (by decide))).trans (W3_kept m c main_arg0 (by decide) (by decide) (by decide) (by decide) (by decide) (by decide)),
     (h c _ (mem_uc main_arg1 (by decide))).trans (W3_kept m c main_arg1 (by decide) (by decide) (by decide) (by decide) (by decide) (by decide)),
     (h c _ (mem_uc main_arg2 (by decide))).trans (W3_kept m c main_arg2 (by decide) (by decide) (by decide) (by decide) (by decide) (by decide)),
     (h c _ (mem_uc main_arg3 (by decide))).trans (W3_kept m c main_arg3 (by decide) (by decide) (by decide) (by decide) (by decide) (by decide)),
     (h c _ (mem_uc main_arg4 (by decide))).trans (W3_kept m c main_arg4 (by decide) (by decide) (by decide) (by decide) (by decide) (by decide)),
     (h c _ (mem_uc main_arg5 (by decide))).trans (W3_kept m c main_arg5 (by decide) (by decide) (by decide) (by decide) (by decide) (by decide))⟩)
    (run_main m ρ hpre)

end Cert.ScTileK

end
-- ==== Proof.Payload.lean ====
/-
  The TensorCore kernel body's arithmetic, read at one index on the extended reals.

  The body receives a `[2, 2048, 128]` block `a`, a `[1, 2048, 128]` block `p` and three `[1, 1, 128]` rows `t`, `γ`, `β`.
  It forms `x (b, s, k) = a (b, s, k) + p (0, s, k) + t (0, 0, k)` and normalises every row `x (b, s, ·)` of 128 entries:
  with `μ` the row's sum over the word of 128 and `σ²` the sum of the squared deviations `(x k − μ)²` over the same
  word, the stored entry is `(x k − μ) · rsqrt (σ² + ε) · γ k + β k`. That is `Cert.Spec.lnRow` of the row.

  The steps: each re-laying operation read at an index (a repetition along unit axes reads the operand's one entry; the
  `[2, 2048] → [2, 2048, 1]` re-shape keeps the two coordinates), the sum along the last axis as a sum over `Fin 128`,
  and then the body as a composition of four small array functions — the sum of the three blocks, the column of means,
  the centred array, the column of reciprocal roots — each read at an index by the previous ones.
-/
import proofs.«203468_g17523466567843_cont_7to1_1283_23_alg».proof.Proof.Gen.KernelIdeal.Skeleton
import proofs.«203468_g17523466567843_cont_7to1_1283_23_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Payload

open Idealize.ShloMosaic Idealize.ShloMosaic.ValueIdx Cert.KernelIdeal

/-! ## The re-laying operations at an index -/

section Layout
variable {α : Type}

/-- A `[1, 2048, 128]` array repeated along the first axis reads, at `(b, s, k)`, its entry `(0, s, k)`. -/
theorem bcast_rows (x : S1x2048x128.Idx → α) (h : S1x2048x128.Broadcasts S2x2048x128) (bb : Fin 2) (s : Fin 2048)
    (k : Fin 128) : broadcastTo S2x2048x128 x h (ix3 bb s k) = x (ix3 (0 : Fin 1) s k) :=
  broadcastTo_apply x h (ix3 bb s k) (ix3 (0 : Fin 1) s k) fun a =>
    match a with
    | ⟨0, _⟩ => rfl
    | ⟨1, _⟩ => rfl
    | ⟨2, _⟩ => rfl

/-- A `[1, 1, 128]` row repeated along the first two axes reads, at `(b, s, k)`, its entry `(0, 0, k)`. -/
theorem bcast_lane (x : S1x1x128.Idx → α) (h : S1x1x128.Broadcasts S2x2048x128) (bb : Fin 2) (s : Fin 2048)
    (k : Fin 128) : broadcastTo S2x2048x128 x h (ix3 bb s k) = x (ix3 (0 : Fin 1) (0 : Fin 1) k) :=
  broadcastTo_apply x h (ix3 bb s k) (ix3 (0 : Fin 1) (0 : Fin 1) k) fun a =>
    match a with
    | ⟨0, _⟩ => rfl
    | ⟨1, _⟩ => rfl
    | ⟨2, _⟩ => rfl

/-- A `[2, 2048, 1]` column repeated along the last axis reads, at `(b, s, k)`, its entry `(b, s, 0)`. -/
theorem bcast_col (x : S2x2048x1.Idx → α) (h : S2x2048x1.Broadcasts S2x2048x128) (bb : Fin 2) (s : Fin 2048)
    (k : Fin 128) : broadcastTo S2x2048x128 x h (ix3 bb s k) = x (ix3 bb s (0 : Fin 1)) :=
  broadcastTo_apply x h (ix3 bb s k) (ix3 bb s (0 : Fin 1)) fun a =>
    match a with
    | ⟨0, _⟩ => rfl
    | ⟨1, _⟩ => rfl
    | ⟨2, _⟩ => rfl

/-- A `[2, 2048]` array re-shaped to `[2, 2048, 1]` reads, at `(b, s, u)`, its entry `(b, s)`: the two row-major
    positions are `b · 2048 + s` and `(b · 2048 + s) · 1 + u` with `u = 0`. -/
theorem cast_col (x : S2x2048.Idx → α) (h : S2x2048.ShapeCasts S2x2048x1) (bb : Fin 2) (s : Fin 2048) (u : Fin 1) :
    shapeCast S2x2048x1 x h (ix3 bb s u) = x (ix2 bb s) :=
  shapeCast_apply x h _ _ (by
    rw [Shape.rowMajor_val_two, Shape.rowMajor_val_three]
    show bb.val * 2048 + s.val = (bb.val * 2048 + s.val) * 1 + u.val
    omega)

end Layout

/-- The sum along the last axis of a `[2, 2048, 128]` array, at `(b, s)`, is the sum over `k : Fin 128` of its entries
    `(b, s, k)`. -/
theorem lane_sum (x : FVec Ideal S2x2048x128 .f32) (bb : Fin 2) (s : Fin 2048) :
    multiReduction (F := Ideal) .add [2] S2x2048 x 0x00000000#32 Gen.reduces_S2x2048x128_S2x2048 (.inl rfl) rfl (ix2 bb s)
      = ∑ k : Fin 128, x (ix3 bb s k) := by
  refine (Ideal.multiReduction_add_single x 0x00000000#32 Gen.reduces_S2x2048x128_S2x2048 (.inl rfl) rfl (ix2 bb s)).trans ?_
  exact Finset.sum_congr rfl fun k _ => congrArg x (funext fun c => Fin.ext (by
    match c with
    | ⟨0, _⟩ => rfl
    | ⟨1, _⟩ => rfl
    | ⟨2, _⟩ => rfl))

/-! ## The body as a composition of array functions -/

/-- The sum of the three blocks, the second repeated along the first axis and the third along the first two. -/
def embSum (a : FVec Ideal S2x2048x128 .f32) (p : FVec Ideal S1x2048x128 .f32) (t : FVec Ideal S1x1x128 .f32) :
    FVec Ideal S2x2048x128 .f32 :=
  addf
    (addf (shapeCast S2x2048x128 a Gen.shapeCasts_S2x2048x128_S2x2048x128)
      (broadcastTo S2x2048x128 (shapeCast S1x2048x128 p Gen.shapeCasts_S1x2048x128_S1x2048x128)
        Gen.broadcasts_S1x2048x128_S2x2048x128))
    (broadcastTo S2x2048x128 (shapeCast S1x1x128 t Gen.shapeCasts_S1x1x128_S1x1x128) Gen.broadcasts_S1x1x128_S2x2048x128)

theorem embSum_at (a : FVec Ideal S2x2048x128 .f32) (p : FVec Ideal S1x2048x128 .f32) (t : FVec Ideal S1x1x128 .f32)
    (bb : Fin 2) (s : Fin 2048) (k : Fin 128) :
    embSum a p t (ix3 bb s k) = a (ix3 bb s k) + p (ix3 (0 : Fin 1) s k) + t (ix3 (0 : Fin 1) (0 : Fin 1) k) := by
  unfold embSum
  simp only [addf_apply, shapeCast_self, bcast_rows, bcast_lane]

/-- The column of row means: each row's sum along the last axis over the word of 128. -/
def colMean (x : FVec Ideal S2x2048x128 .f32) : FVec Ideal S2x2048x1 .f32 :=
  divf
    (shapeCast S2x2048x1
      (multiReduction (F := Ideal) .add [2] S2x2048 x 0x00000000#32 Gen.reduces_S2x2048x128_S2x2048 (.inl rfl) rfl)
      Gen.shapeCasts_S2x2048_S2x2048x1)
    (broadcast S2x2048x1 (Scalar.ofBits (F := Ideal) .f32 0x43000000#32))

theorem colMean_at (x : FVec Ideal S2x2048x128 .f32) (bb : Fin 2) (s : Fin 2048) (u : Fin 1) :
    colMean x (ix3 bb s u) = Cert.Spec.mean fun k => x (ix3 bb s k) := by
  unfold colMean Cert.Spec.mean Cert.Spec.c128
  rw [divf_apply, broadcast_apply, cast_col, lane_sum]
  rfl

/-- The array minus its row means. -/
def centred (x : FVec Ideal S2x2048x128 .f32) : FVec Ideal S2x2048x128 .f32 :=
  subf x (broadcastTo S2x2048x128 (colMean x) Gen.broadcasts_S2x2048x1_S2x2048x128)

theorem centred_at (x : FVec Ideal S2x2048x128 .f32) (bb : Fin 2) (s : Fin 2048) (k : Fin 128) :
    centred x (ix3 bb s k) = x (ix3 bb s k) - Cert.Spec.mean fun k' => x (ix3 bb s k') := by
  unfold centred
  rw [subf_apply, bcast_col, colMean_at]

/-- The reciprocal root of an array, at an index, is the reciprocal root of its entry there. -/
theorem rsqrt_apply {s : Shape} {φ : FTy} (a : FVec Ideal s φ) (i : s.Idx) : rsqrt a i = Ideal.rsqrt (a i) := rfl

/-- The column of reciprocal roots: of each row's mean squared deviation plus the stabiliser. -/
def scaleCol (x : FVec Ideal S2x2048x128 .f32) : FVec Ideal S2x2048x1 .f32 :=
  rsqrt (addf (colMean (mulf (centred x) (centred x))) (broadcast S2x2048x1 (Scalar.ofBits (F := Ideal) .f32 0x33D6BF95#32)))

theorem scaleCol_at (x : FVec Ideal S2x2048x128 .f32) (bb : Fin 2) (s : Fin 2048) (u : Fin 1) :
    scaleCol x (ix3 bb s u)
      = Ideal.rsqrt (Cert.Spec.mean (fun k' =>
          (x (ix3 bb s k') - Cert.Spec.mean fun k'' => x (ix3 bb s k'')) *
            (x (ix3 bb s k') - Cert.Spec.mean fun k'' => x (ix3 bb s k''))) + Cert.Spec.ceps) := by
  unfold scaleCol
  rw [rsqrt_apply, addf_apply, broadcast_apply, colMean_at]
  simp only [mulf_apply, centred_at]
  rfl

/-- The normalisation of every row of `x`, scaled by the row `g` and shifted by the row `b`. -/
def lnBody (x : FVec Ideal S2x2048x128 .f32) (g b : FVec Ideal S1x1x128 .f32) : FVec Ideal S2x2048x128 .f32 :=
  addf
    (mulf
      (mulf (centred x) (broadcastTo S2x2048x128 (scaleCol x) Gen.broadcasts_S2x2048x1_S2x2048x128))
      (broadcastTo S2x2048x128 (shapeCast S1x1x128 g Gen.shapeCasts_S1x1x128_S1x1x128) Gen.broadcasts_S1x1x128_S2x2048x128))
    (broadcastTo S2x2048x128 (shapeCast S1x1x128 b Gen.shapeCasts_S1x1x128_S1x1x128) Gen.broadcasts_S1x1x128_S2x2048x128)

theorem lnBody_at (x : FVec Ideal S2x2048x128 .f32) (g b : FVec Ideal S1x1x128 .f32) (bb : Fin 2) (s : Fin 2048)
    (k : Fin 128) :
    lnBody x g b (ix3 bb s k)
      = Cert.Spec.lnRow (fun k' => x (ix3 bb s k')) (fun k' => g (ix3 (0 : Fin 1) (0 : Fin 1) k'))
          (fun k' => b (ix3 (0 : Fin 1) (0 : Fin 1) k')) k := by
  unfold lnBody Cert.Spec.lnRow
  simp only [addf_apply, mulf_apply, centred_at, bcast_col, scaleCol_at, bcast_lane, shapeCast_self]

/-- The kernel body's stored value is that composition: the printed sequence of operations, with its intermediate
    values substituted, is `lnBody` of `embSum`. -/
theorem pay_eq (v0 : Vec Ideal S2x2048x128 .f32) (v2 : Vec Ideal S1x2048x128 .f32) (v6 v26 v30 : Vec Ideal S1x1x128 .f32) :
    Gen.k1_pay1 (F := Ideal) v0 v2 v6 v26 v30 = lnBody (embSum v0 v2 v6) v26 v30 := rfl

/-- The kernel body's stored value at `(b, s, k)`: the normalised row of the three blocks' sum, at `k`. -/
theorem pay_at (v0 : Vec Ideal S2x2048x128 .f32) (v2 : Vec Ideal S1x2048x128 .f32) (v6 v26 v30 : Vec Ideal S1x1x128 .f32)
    (bb : Fin 2) (s : Fin 2048) (k : Fin 128) :
    Gen.k1_pay1 (F := Ideal) v0 v2 v6 v26 v30 (ix3 bb s k)
      = Cert.Spec.lnRow
          (fun k' => v0 (ix3 bb s k') + v2 (ix3 (0 : Fin 1) s k') + v6 (ix3 (0 : Fin 1) (0 : Fin 1) k'))
          (fun k' => v26 (ix3 (0 : Fin 1) (0 : Fin 1) k')) (fun k' => v30 (ix3 (0 : Fin 1) (0 : Fin 1) k')) k := by
  rw [pay_eq, lnBody_at]
  simp only [embSum_at]

end Cert.Payload

end
-- ==== Proof.TcFinal.lean ====
/-
  From the blocks the region writes back to the whole result array.

  The region's grid has two points. Point `t` writes back, into batch rows `2t` and `2t + 1` of the 4×2048×128 result
  array, what the body left in the result buffer there: `out5` of the five input blocks at `t`. An input block is a
  piece of its array read in place: the word-rows block at `t` is batch rows `2t, 2t + 1` of the gathered rows; the
  position table, the token-type pair, the scale and the shift are each one block, the whole array, at both points.
  So entry `(bb, s, k)` of what point `t` writes is the normalised row — `Cert.Spec.lnRow` — of

      gathered (2t + bb, s, ·) + position (0, s, ·) + token-type (0, 0, ·),

  scaled and shifted entrywise, at `k`: a function of the array index `(2t + bb, s, k)` alone, the same function `G5`
  whichever point wrote it. Batch row `b` lies in the block of point `b / 2`, so the two blocks cover the array, and
  after the last point the array is `G5` everywhere. Nothing is assumed of the contents the region starts from.
-/
import proofs.«203468_g17523466567843_cont_7to1_1283_23_alg».proof.Proof.TcBody
import proofs.«203468_g17523466567843_cont_7to1_1283_23_alg».proof.Proof.Spec
import proofs.«203468_g17523466567843_cont_7to1_1283_23_alg».proof.Proof.Payload
import Idealize.ShloMosaic.Lib.Pipeline.Value
import Idealize.ShloMosaic.Lib.Tactic

set_option maxRecDepth 16384

noncomputable section

namespace Cert.TcFinal

open Idealize.ShloMosaic Idealize.ShloMosaic.TcCoe Idealize.ShloMosaic.ValueIdx
open Idealize.SL Idealize.SL.RA Idealize.SL.Sem
open Idealize.ShloMosaic.Pipeline (Dat)
open Cert.KernelIdeal Cert.KernelIdeal.Gen Cert.TcBody

variable {U : Type} [URA U]

-- what the TensorCore's buffers hold when the region is entered: any contents at all
variable (V : (c : Dev nD) → (b : Ref sig .tc) → Buf (Elt Ideal) ((c : Thread nD τ).loc b))
-- the bound on the recorded (semaphore, index) pairs the proof data carries: any set; no array content depends on it
variable (Rc : Set (SemLoc sig × Idealize.ShloMosaic.SparseCore.Cfg.HIx 1))

/-! ## The five arrays the region reads, typed by their printed shapes

Each is the entry contents of one buffer and nothing more; the names only fix the shape, so that sums of their
entries are sums of extended reals. -/

/-- The gathered word rows, 4×2048×128. -/
abbrev wordRows (c : Dev nD) : Vec Ideal S4x2048x128 .f32 := V c main_v0
/-- The position table, 1×2048×128. -/
abbrev posTable (c : Dev nD) : Vec Ideal S1x2048x128 .f32 := V c main_v3
/-- The pair of token-type rows, 1×2×128. -/
abbrev typeRows (c : Dev nD) : Vec Ideal S1x2x128 .f32 := V c main_v4
/-- The scale, 1×1×128. -/
abbrev scale (c : Dev nD) : Vec Ideal S1x1x128 .f32 := V c main_v1
/-- The shift, 1×1×128. -/
abbrev shift (c : Dev nD) : Vec Ideal S1x1x128 .f32 := V c main_v2

/-! ## The body's stored value, entry by entry -/

theorem hz3 : (![0, 0, 0] : Fin 3 → Nat) = fun _ => 0 := funext fun a => by fin_cases a <;> rfl

/-- Through the row-0 corner of the token-type pair, entry `(0, 0, k)` of what is read is entry `(0, 0, k)` of the
    pair: the corner sits at the origin and steps by one. -/
theorem type0_idx (k : Fin 128) : rType0.idx (ix3 (0 : Fin 1) (0 : Fin 1) k) = ix3 (0 : Fin 1) (0 : Fin 2) k := by
  funext a
  apply Fin.ext
  match a with
  | ⟨0, _⟩ => rfl
  | ⟨1, _⟩ => rfl
  | ⟨2, _⟩ => show 0 + 1 * k.val = k.val; omega

/-- Entry `(bb, s, k)` of the result buffer after the body, for ANY five input buffers: the normalised row of the
    three summands at `(bb, s)`, scaled and shifted, at `k`. The four whole-buffer reads are the buffers themselves;
    the corner read is row 0 of the pair. -/
theorem out5_at (x0 : Vec Ideal S2x2048x128 .f32) (x1 : Vec Ideal S1x2048x128 .f32) (x2 : Vec Ideal S1x2x128 .f32)
    (x3 x4 : Vec Ideal S1x1x128 .f32) (bb : Fin 2) (s : Fin 2048) (k : Fin 128) :
    out5 x0 x1 x2 x3 x4 (ix3 bb s k)
      = Cert.Spec.lnRow
          (fun k' => x0 (ix3 bb s k') + x1 (ix3 (0 : Fin 1) s k') + x2 (ix3 (0 : Fin 1) (0 : Fin 2) k'))
          (fun k' => x3 (ix3 (0 : Fin 1) (0 : Fin 1) k')) (fun k' => x4 (ix3 (0 : Fin 1) (0 : Fin 1) k')) k := by
  unfold out5
  rw [View.canon_unit_zero hz3]
  simp only [View.ld_unit_zero (S := S2x2048x128) hz3, View.ld_unit_zero (S := S1x2048x128) hz3, View.ld_unit_zero (S := S1x1x128) hz3]
  rw [Cert.Payload.pay_at]
  simp only [View.ld, type0_idx]

/-! ## The index maps, once over the grid -/

/-- The printed index maps at every point: the result window and the word-rows window sit at block `(t, 0, 0)`; the
    other four windows never move. -/
theorem idx_facts : ∀ t : Fin cfg1.N,
    win1_5.index t (0 : Fin 3) = t.val ∧ win1_5.index t (1 : Fin 3) = 0 ∧ win1_5.index t (2 : Fin 3) = 0
    ∧ win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 3) = 0 ∧ win1_3.index t (1 : Fin 3) = 0 ∧ win1_3.index t (2 : Fin 3) = 0
    ∧ win1_4.index t (0 : Fin 3) = 0 ∧ win1_4.index t (1 : Fin 3) = 0 ∧ win1_4.index t (2 : Fin 3) = 0 :=
  (by decide +kernel : ∀ t : Fin grid1.N, _)

/-! ## Each input block is its array read in place

An index inside a block sits in the array at block index × block extent + the index, axis by axis. -/

/-- The word-rows block at `t` is batch rows `2t, 2t + 1` of the gathered rows. -/
theorem blk0_at (c : Dev nD) (t : Fin cfg1.N) (bb : Fin 2) (s : Fin 2048) (k : Fin 128) (b : Fin 4) (hb : b.val = 2 * t.val + bb.val) :
    (iblk V c 0 t : Vec Ideal S2x2048x128 .f32) (ix3 bb s k) = wordRows V c (ix3 b s k) := by
  obtain ⟨-, -, -, a0, a1, a2, b0, b1, b2, c0, c1, c2, d0, d1, d2, e0, e1, e2⟩ := idx_facts t
  unfold iblk
  rw [View.read_apply]
  show V c main_v0 _ = V c main_v0 _
  congr 1
  funext a
  apply Fin.ext
  match a with
  | ⟨0, _⟩ => show win1_0.index t (0 : Fin 3) * 2 + 1 * bb.val = b.val; rw [a0, hb]; omega
  | ⟨1, _⟩ => show win1_0.index t (1 : Fin 3) * 2048 + 1 * s.val = s.val; rw [a1]; omega
  | ⟨2, _⟩ => show win1_0.index t (2 : Fin 3) * 128 + 1 * k.val = k.val; rw [a2]; omega

/-- The position table's block is the table, at both points. -/
theorem blk1_at (c : Dev nD) (t : Fin cfg1.N) (s : Fin 2048) (k : Fin 128) :
    (iblk V c 1 t : Vec Ideal S1x2048x128 .f32) (ix3 (0 : Fin 1) s k) = posTable V c (ix3 (0 : Fin 1) s k) := by
  obtain ⟨-, -, -, a0, a1, a2, b0, b1, b2, c0, c1, c2, d0, d1, d2, e0, e1, e2⟩ := idx_facts t
  unfold iblk
  rw [View.read_apply]
  show V c main_v3 _ = V c main_v3 _
  congr 1
  funext a
  apply Fin.ext
  match a with
  | ⟨0, _⟩ => show win1_1.index t (0 : Fin 3) * 1 + 1 * 0 = 0; rw [b0]
  | ⟨1, _⟩ => show win1_1.index t (1 : Fin 3) * 2048 + 1 * s.val = s.val; rw [b1]; omega
  | ⟨2, _⟩ => show win1_1.index t (2 : Fin 3) * 128 + 1 * k.val = k.val; rw [b2]; omega

/-- The token-type pair's block is the pair. -/
theorem blk2_at (c : Dev nD) (t : Fin cfg1.N) (r : Fin 2) (k : Fin 128) :
    (iblk V c 2 t : Vec Ideal S1x2x128 .f32) (ix3 (0 : Fin 1) r k) = typeRows V c (ix3 (0 : Fin 1) r k) := by
  obtain ⟨-, -, -, a0, a1, a2, b0, b1, b2, c0, c1, c2, d0, d1, d2, e0, e1, e2⟩ := idx_facts t
  unfold iblk
  rw [View.read_apply]
  show V c main_v4 _ = V c main_v4 _
  congr 1
  funext a
  apply Fin.ext
  match a with
  | ⟨0, _⟩ => show win1_2.index t (0 : Fin 3) * 1 + 1 * 0 = 0; rw [c0]
  | ⟨1, _⟩ => show win1_2.index t (1 : Fin 3) * 2 + 1 * r.val = r.val; rw [c1]; omega
  | ⟨2, _⟩ => show win1_2.index t (2 : Fin 3) * 128 + 1 * k.val = k.val; rw [c2]; omega

/-- The scale's block is the scale. -/
theorem blk3_at (c : Dev nD) (t : Fin cfg1.N) (k : Fin 128) :
    (iblk V c 3 t : Vec Ideal S1x1x128 .f32) (ix3 (0 : Fin 1) (0 : Fin 1) k) = scale V c (ix3 (0 : Fin 1) (0 : Fin 1) k) := by
  obtain ⟨-, -, -, a0, a1, a2, b0, b1, b2, c0, c1, c2, d0, d1, d2, e0, e1, e2⟩ := idx_facts t
  unfold iblk
  rw [View.read_apply]
  show V c main_v1 _ = V c main_v1 _
  congr 1
  funext a
  apply Fin.ext
  match a with
  | ⟨0, _⟩ => show win1_3.index t (0 : Fin 3) * 1 + 1 * 0 = 0; rw [d0]
  | ⟨1, _⟩ => show win1_3.index t (1 : Fin 3) * 1 + 1 * 0 = 0; rw [d1]
  | ⟨2, _⟩ => show win1_3.index t (2 : Fin 3) * 128 + 1 * k.val = k.val; rw [d2]; omega

/-- The shift's block is the shift. -/
theorem blk4_at (c : Dev nD) (t : Fin cfg1.N) (k : Fin 128) :
    (iblk V c 4 t : Vec Ideal S1x1x128 .f32) (ix3 (0 : Fin 1) (0 : Fin 1) k) = shift V c (ix3 (0 : Fin 1) (0 : Fin 1) k) := by
  obtain ⟨-, -, -, a0, a1, a2, b0, b1, b2, c0, c1, c2, d0, d1, d2, e0, e1, e2⟩ := idx_facts t
  unfold iblk
  rw [View.read_apply]
  show V c main_v2 _ = V c main_v2 _
  congr 1
  funext a
  apply Fin.ext
  match a with
  | ⟨0, _⟩ => show win1_4.index t (0 : Fin 3) * 1 + 1 * 0 = 0; rw [e0]
  | ⟨1, _⟩ => show win1_4.index t (1 : Fin 3) * 1 + 1 * 0 = 0; rw [e1]
  | ⟨2, _⟩ => show win1_4.index t (2 : Fin 3) * 128 + 1 * k.val = k.val; rw [e2]; omega

/-- Where the result block's entry `(bb, s, k)` at point `t` sits in the result array: batch row `2t + bb`. -/
theorem emb5 (t : Fin cfg1.N) (bb : Fin 2) (s : Fin 2048) (k : Fin 128) (b : Fin 4) (hb : b.val = 2 * t.val + bb.val) :
    ((cfg1.win 5).blk t).view.emb (ix3 bb s k) = (ix3 b s k : S4x2048x128.Idx) := by
  obtain ⟨o0, o1, o2, -⟩ := idx_facts t
  funext a
  apply Fin.ext
  match a with
  | ⟨0, _⟩ => show win1_5.index t (0 : Fin 3) * 2 + 1 * bb.val = b.val; rw [o0, hb]; omega
  | ⟨1, _⟩ => show win1_5.index t (1 : Fin 3) * 2048 + 1 * s.val = s.val; rw [o1]; omega
  | ⟨2, _⟩ => show win1_5.index t (2 : Fin 3) * 128 + 1 * k.val = k.val; rw [o2]; omega

/-! ## The result array as one function of the entry contents -/

/-- The result array, index by index: the normalised row of gathered row `(b, s)` plus position row `s` plus
    token-type row 0, scaled and shifted, at `k`. -/
def G5 (c : Dev nD) : Vec Ideal S4x2048x128 .f32 := fun j =>
  Cert.Spec.lnRow
    (fun k => wordRows V c (ix3 (j 0) (j 1) k) + posTable V c (ix3 (0 : Fin 1) (j 1) k)
      + typeRows V c (ix3 (0 : Fin 1) (0 : Fin 2) k))
    (fun k => scale V c (ix3 (0 : Fin 1) (0 : Fin 1) k))
    (fun k => shift V c (ix3 (0 : Fin 1) (0 : Fin 1) k)) (j 2)

/-- `G5` at an index given by its three coordinates. -/
theorem G5_at (c : Dev nD) (b : Fin 4) (s : Fin 2048) (k : Fin 128) :
    G5 V c (ix3 b s k) = Cert.Spec.lnRow
      (fun k' => wordRows V c (ix3 b s k') + posTable V c (ix3 (0 : Fin 1) s k') + typeRows V c (ix3 (0 : Fin 1) (0 : Fin 2) k'))
      (fun k' => scale V c (ix3 (0 : Fin 1) (0 : Fin 1) k')) (fun k' => shift V c (ix3 (0 : Fin 1) (0 : Fin 1) k')) k := rfl

/-- What point `t` writes back is block `t` of `G5`: entry `(bb, s, k)` of the buffer after the body is the
    normalised row of the three blocks' summands there, each block entry is its array's entry in place, and the
    block's entry `(bb, s, k)` sits at `(2t + bb, s, k)` of the array. -/
theorem flushed5_eq (c : Dev nD) (t : Fin cfg1.N) :
    (dat (F := Ideal) (U := U) V Rc c).flushed 5 t = ((cfg1.win 5).blk t).view.read (Elt Ideal) (G5 V c) := by
  show (cfg1.win 5).cut (grid1.coords t) ((dat (F := Ideal) (U := U) V Rc c).after 5 t) = _
  rw [after5]
  funext y
  obtain ⟨bb, s, k, rfl⟩ : ∃ (bb : Fin 2) (s : Fin 2048) (k : Fin 128), y = ix3 bb s k := ⟨y 0, y 1, y 2, eq_ix3 y⟩
  have hN : cfg1.N = 2 := N_1
  have hb : 2 * t.val + bb.val < 4 := by have := t.isLt; have := bb.isLt; omega
  have hread : ((cfg1.win 5).blk t).view.read (Elt Ideal) (G5 V c) (ix3 bb s k) = G5 V c (ix3 ⟨2 * t.val + bb.val, hb⟩ s k) := by
    rw [View.read_apply, emb5 t bb s k ⟨2 * t.val + bb.val, hb⟩ rfl]; rfl
  refine ((out5_at (iblk V c 0 t) (iblk V c 1 t) (iblk V c 2 t) (iblk V c 3 t) (iblk V c 4 t) bb s k).trans ?_).trans
    ((G5_at V c ⟨2 * t.val + bb.val, hb⟩ s k).symm.trans hread.symm)
  congr 1
  · funext k'
    exact congrArg₂ (· + ·) (congrArg₂ (· + ·) (blk0_at V c t bb s k' ⟨2 * t.val + bb.val, hb⟩ rfl) (blk1_at V c t s k')) (blk2_at V c t 0 k')
  · funext k'; exact blk3_at V c t k'
  · funext k'; exact blk4_at V c t k'

/-! ## The two blocks cover the array -/

/-- An index of the result array is in point `t`'s block iff, axis by axis, it lies in the block's range. -/
theorem mem_blk5 (t : Fin cfg1.N) (i : S4x2048x128.Idx) :
    i ∈ ((cfg1.win 5).blk t).view.set ↔ ∀ a : Fin 3, win1_5.index t a * S2x2048x128.size a ≤ (i a).val
      ∧ (i a).val < win1_5.index t a * S2x2048x128.size a + S2x2048x128.size a := by
  show i ∈ ((View.whole main_v5).slice (win1_5.rect t)).set ↔ _
  rw [View.set_slice_whole, Rect.mem_set_unit]
  exact Iff.rfl

/-- Batch row `b` is written back by point `b / 2`. -/
theorem covered5 (i : S4x2048x128.Idx) :
    ∃ t : Fin cfg1.N, (cfg1.win 5).flush t = true ∧ i ∈ ((cfg1.win 5).blk t).view.set := by
  have h0 : (i 0).val < 4 := (i 0).isLt
  have h1 : (i 1).val < 2048 := (i 1).isLt
  have h2 : (i 2).val < 128 := (i 2).isLt
  have hN : cfg1.N = 2 := N_1
  obtain ⟨t, ht⟩ : ∃ t : Fin cfg1.N, t.val = (i 0).val / 2 := ⟨⟨(i 0).val / 2, by omega⟩, rfl⟩
  obtain ⟨o0, o1, o2, -⟩ := idx_facts t
  refine ⟨t, flush1_5 t, ?_⟩
  rw [mem_blk5]
  intro a
  match a with
  | ⟨0, _⟩ => show win1_5.index t (0 : Fin 3) * 2 ≤ (i 0).val ∧ (i 0).val < win1_5.index t (0 : Fin 3) * 2 + 2; rw [o0, ht]; omega
  | ⟨1, _⟩ => show win1_5.index t (1 : Fin 3) * 2048 ≤ (i 1).val ∧ (i 1).val < win1_5.index t (1 : Fin 3) * 2048 + 2048; rw [o1]; omega
  | ⟨2, _⟩ => show win1_5.index t (2 : Fin 3) * 128 ≤ (i 2).val ∧ (i 2).val < win1_5.index t (2 : Fin 3) * 128 + 128; rw [o2]; omega

/-! ## The array after the last point -/

/-- The result array after the last point is `G5` of the entry contents, whatever those are. -/
theorem final5_G (c : Dev nD) : (dat (F := Ideal) (U := U) V Rc c).arrAt 5 cfg1.N = G5 V c :=
  (dat (F := Ideal) (U := U) V Rc c).arrAt_eq_of_cover 5 (G5 V c) (fun t _ => flushed5_eq V Rc c t) (fun i => covered5 i)

/-- The same, with `G5` written out. -/
theorem final5 (c : Dev nD) : (dat (F := Ideal) (U := U) V Rc c).arrAt 5 cfg1.N
    = fun j => Cert.Spec.lnRow
        (fun k => wordRows V c (ix3 (j 0) (j 1) k) + posTable V c (ix3 (0 : Fin 1) (j 1) k)
          + typeRows V c (ix3 (0 : Fin 1) (0 : Fin 2) k))
        (fun k => scale V c (ix3 (0 : Fin 1) (0 : Fin 1) k))
        (fun k => shift V c (ix3 (0 : Fin 1) (0 : Fin 1) k)) (j 2) :=
  final5_G V Rc c

/-- info: 'Cert.TcFinal.final5' depends on axioms: [propext, Classical.choice, Quot.sound] -/
#guard_msgs in #print axioms final5

end Cert.TcFinal

end
-- ==== Proof.KernelValue.lean ====
/-
  The kernel's result array is the specification of the argument arrays.

  The normalising region leaves, whatever contents it is entered from, the array whose entry `(b, s, k)` is the
  normalised row of

      gathered (b, s, ·) + position (0, s, ·) + token-type (0, 0, ·),

  scaled by `scale (0, 0, ·)` and shifted by `shift (0, 0, ·)`, at `k`. It is entered from the launch contents after
  the gather and four reshapes. The reshapes write the position table, the token-type table, the scale and the shift
  into buffers of their own with a leading unit axis (two, for the vectors); none writes the gather's result buffer,
  and the gather wrote nothing else. A reshape keeps the row-major order, so entry `(0, s, k)` of the reshaped position
  table is entry `(s, k)` of the table, entry `(0, r, k)` of the reshaped token-type table is entry `(r, k)`, and entry
  `(0, 0, k)` of a reshaped vector is its entry `k`. The gathered entry `(b, s, k)` is entry `k` of the word-table row
  that index word `(b, s)` names. Put together these are the three summands, the scale and the shift of
  `Cert.Spec.G`.
-/
import proofs.«203468_g17523466567843_cont_7to1_1283_23_alg».proof.Proof.ScVals
import proofs.«203468_g17523466567843_cont_7to1_1283_23_alg».proof.Proof.TcFinal
import proofs.«203468_g17523466567843_cont_7to1_1283_23_alg».proof.Proof.Spec
import Idealize.ShloMosaic.Lib.ValueLayout
import Idealize.ShloMosaic.Lib.StableHlo.Run

set_option maxRecDepth 16384

noncomputable section

namespace Cert.KernelValue

open Idealize.ShloMosaic Idealize.ShloMosaic.TcCoe Idealize.ShloMosaic.ValueIdx Idealize.ShloMosaic.StableHlo
open Idealize.SL Idealize.SL.RA Idealize.SL.Sem
open Cert.KernelIdeal Cert.KernelIdeal.Gen
open Cert.ScTile (V2 W0 W1 W2 hostOps gath)

variable {U : Type} [URA U]

variable (m : (ℓ : Loc nD τ sig) → Buf (Elt Ideal) ℓ)

/-! ## A vector given two leading unit axes -/

/-- An `[a]` array cast to `[1, 1, a]` reads, at `(u, v, i)`, the operand at `i`: the row-major positions agree. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp)

/-! ## The five arrays the region is entered from -/

/-- The gather's result buffer still holds the gathered rows: no reshape writes it. -/
theorem v0_eq (c : Dev nD) : W2 m c (Proc.devRef .tc main_v0) = gath m c := by
  unfold W2
  after_results
  unfold W1
  exact Function.update_self ..

/-- The position table's reshape: the launch contents of the table at the new shape. -/
theorem v3_eq (c : Dev nD) :
    W2 m c (Proc.devRef .tc main_v3)
      = shapeCast S1x2048x128 (m ((c.tc : Thread nD τ).loc main_arg2) : Vec Ideal S2048x128 .f32) shapeCasts_S2048x128_S1x2048x128 := by
  unfold W2
  after_results
  unfold W1
  rw [Function.update_of_ne (devRef_ne_of_ne (show main_arg2 ≠ main_v0 by decide))]
  rfl

/-- The token-type table's reshape. -/
theorem v4_eq (c : Dev nD) :
    W2 m c (Proc.devRef .tc main_v4)
      = shapeCast S1x2x128 (m ((c.tc : Thread nD τ).loc main_arg3) : Vec Ideal S2x128 .f32) shapeCasts_S2x128_S1x2x128 := by
  unfold W2
  after_results
  unfold W1
  rw [Function.update_of_ne (devRef_ne_of_ne (show main_arg3 ≠ main_v0 by decide))]
  rfl

/-- The scale's reshape. -/
theorem v1_eq (c : Dev nD) :
    W2 m c (Proc.devRef .tc main_v1)
      = shapeCast S1x1x128 (m ((c.tc : Thread nD τ).loc main_arg4) : Vec Ideal S128 .f32) shapeCasts_S128_S1x1x128 := by
  unfold W2
  after_results
  unfold W1
  rw [Function.update_of_ne (devRef_ne_of_ne (show main_arg4 ≠ main_v0 by decide))]
  rfl

/-- The shift's reshape. -/
theorem v2_eq (c : Dev nD) :
    W2 m c (Proc.devRef .tc main_v2)
      = shapeCast S1x1x128 (m ((c.tc : Thread nD τ).loc main_arg5) : Vec Ideal S128 .f32) shapeCasts_S128_S1x1x128 := by
  unfold W2
  after_results
  unfold W1
  rw [Function.update_of_ne (devRef_ne_of_ne (show main_arg5 ≠ main_v0 by decide))]
  rfl

/-! ## The same, entry by entry -/

/-- Gathered entry `(b, s, k)`: entry `k` of the word-table row index word `(b, s)` names. -/
theorem v0_at (c : Dev nD) (b : Fin 4) (s : Fin 2048) (k : Fin 128) :
    (V2 m c main_v0 : Vec Ideal S4x2048x128 .f32) (ix3 b s k)
      = (m ((c.tc : Thread nD τ).loc main_arg1) : Vec Ideal S1000000x128 .f32)
          (ix2 (Cert.Spec.rowOf ((m ((c.tc : Thread nD τ).loc main_arg0) : IVec S4x2048 32) (ix2 b s))) k) :=
  congrFun (v0_eq m c) (ix3 b s k)

theorem v3_at (c : Dev nD) (u : Fin 1) (s : Fin 2048) (k : Fin 128) :
    (V2 m c main_v3 : Vec Ideal S1x2048x128 .f32) (ix3 u s k)
      = (m ((c.tc : Thread nD τ).loc main_arg2) : Vec Ideal S2048x128 .f32) (ix2 s k) :=
  (congrFun (v3_eq m c) (ix3 u s k)).trans (shapeCast_ab_1ab_apply _ _ u s k)

theorem v4_at (c : Dev nD) (u : Fin 1) (r : Fin 2) (k : Fin 128) :
    (V2 m c main_v4 : Vec Ideal S1x2x128 .f32) (ix3 u r k)
      = (m ((c.tc : Thread nD τ).loc main_arg3) : Vec Ideal S2x128 .f32) (ix2 r k) :=
  (congrFun (v4_eq m c) (ix3 u r k)).trans (shapeCast_ab_1ab_apply _ _ u r k)

theorem v1_at (c : Dev nD) (u v : Fin 1) (k : Fin 128) :
    (V2 m c main_v1 : Vec Ideal S1x1x128 .f32) (ix3 u v k)
      = (m ((c.tc : Thread nD τ).loc main_arg4) : Vec Ideal S128 .f32) (ix1 k) :=
  (congrFun (v1_eq m c) (ix3 u v k)).trans (shapeCast_a_11a_apply _ _ u v k)

theorem v2_at (c : Dev nD) (u v : Fin 1) (k : Fin 128) :
    (V2 m c main_v2 : Vec Ideal S1x1x128 .f32) (ix3 u v k)
      = (m ((c.tc : Thread nD τ).loc main_arg5) : Vec Ideal S128 .f32) (ix1 k) :=
  (congrFun (v2_eq m c) (ix3 u v k)).trans (shapeCast_a_11a_apply _ _ u v k)

/-! ## The result array -/

/-- After the last point of the normalising region, entered from the contents the gather and the reshapes leave, the
    result array is the specification of the six argument arrays as launched. -/
theorem G5_eq_G (Rc : Set (SemLoc sig × Idealize.ShloMosaic.SparseCore.Cfg.HIx 1)) (c : Dev nD) :
    (Cert.TcBody.dat (F := Ideal) (U := U) (V2 m) Rc c).arrAt 5 cfg1.N
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [Cert.TcFinal.final5]
  funext j
  obtain ⟨b, s, k, rfl⟩ : ∃ (b : Fin 4) (s : Fin 2048) (k : Fin 128), j = ix3 b s k := ⟨j 0, j 1, j 2, eq_ix3 j⟩
  refine Eq.trans ?_ (Cert.Spec.G_ix3 _ _ _ _ _ _ b s k).symm
  unfold Cert.Spec.out
  congr 1
  · funext k'
    exact congrArg₂ (· + ·) (congrArg₂ (· + ·) (v0_at m c b s k') (v3_at m c 0 s k')) (v4_at m c 0 0 k')
  · funext k'
    exact v1_at m c 0 0 k'
  · funext k'
    exact v2_at m c 0 0 k'

end Cert.KernelValue

end
-- ==== Proof.RefRun.lean ====
/-
  The reference as a straight line. Its entry function is StableHLO operations and three calls of the outlined
  `take`; a call executes the callee's body over buffers of the call's own, so with each body written at its call
  site the program is one list of 105 operations, each writing one buffer from the buffers before it. Every weakly
  fair execution of such a line terminates with each buffer at the fold of the operations over the launch contents.
  Read at the result buffer that fold is one pure term of the six argument arrays:

    take(T, n, i)   = T's rows at the indices i — an index below zero has the row count n added; a row index outside
                      0 … n - 1 would give a fill value instead of the row;
    x               = take(word table, ids) + take(token-type table, zeros) + take(position table, 0 … 2047 per row);
    mean(y)         = (0 + sum of y over its last axis) / 128.0, kept as a column;
    result          = (x - mean x) / sqrt (mean ((x - mean x)²) + ε) · γ + β,

  with γ, β broadcast along the last axis. The term is named `refTerm` below, in stages.
-/
import proofs.«203468_g17523466567843_cont_7to1_1283_23_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## The composed term, in stages -/

/-- `take`'s index normalisation, laid out as a column: an index below zero has the row count `n` added. -/
def wrapIdx (n : BitVec 32) (idx : IVec S4x2048 32) : IVec S4x2048x1 32 :=
  broadcastInDim S4x2048x1 ![0, 1] bcast_S4x2048_S4x2048x1_0_1
    (select (cmpi .slt idx (broadcastInDim S4x2048 ![] bcast_S_S4x2048 (constantI S_ 32 0#32)))
      (addi idx (broadcastInDim S4x2048 ![] bcast_S_S4x2048 (constantI S_ 32 n))) idx)

/-- Where a normalised index lies in `0 … hi`, spread along the row. -/
def inRange (hi : BitVec 32) (i3 : IVec S4x2048x1 32) : IVec S4x2048x128 1 :=
  broadcastInDim S4x2048x128 ![0, 1] bcast_S4x2048_S4x2048x128_0_1
    (Host.reduce IntOp.andi
      (andi (cmpi .sge i3 (broadcastInDim S4x2048x1 ![] bcast_S_S4x2048x1 (constantI S_ 32 0#32)))
        (cmpi .sle i3 (broadcastInDim S4x2048x1 ![0, 1, 2] bcast_S1x1x1_S4x2048x1_0_1_2
          (broadcastInDim S1x1x1 ![2] bcast_S1_S1x1x1_2 (constantI S1 32 hi)))))
      (constantI S_ 1 1#1) reducesTo_S4x2048x1_S4x2048_d2 h_S_)

/-- `take`: the table's rows gathered at the normalised indices, the fill word where an index is out of range. -/
def takeRows {s : Shape} (gd : GatherDims s S4x2048x1 S4x2048x128) (hi n : BitVec 32) (tbl : FVec F s .f32)
    (idx : IVec S4x2048 32) : FVec F S4x2048x128 .f32 :=
  select (inRange hi (wrapIdx n idx)) (Host.gather gd tbl (wrapIdx n idx))
    (broadcastInDim S4x2048x128 ![] bcast_S_S4x2048x128 (constant S_ .f32 0x7FC00000#32))

/-- The position of each token: `0 … 2047` along every row. -/
def positions : IVec S4x2048 32 :=
  broadcastInDim S4x2048 ![0, 1] bcast_S1x2048_S4x2048_0_1 (broadcastInDim S1x2048 ![1] bcast_S2048_S1x2048_1 (iotaInDim S2048 32 0))

/-- The token type of each token: zero. -/
def zeroIdx : IVec S4x2048 32 := broadcastInDim S4x2048 ![] bcast_S_S4x2048 (constantI S_ 32 0#32)

/-- The embedding: word row plus token-type row, plus position row. -/
def embed (ids : IVec S4x2048 32) (wt : FVec F S1000000x128 .f32) (pos : FVec F S2048x128 .f32) (tt : FVec F S2x128 .f32) :
    FVec F S4x2048x128 .f32 :=
  addf (addf (takeRows gather_S1000000x128_S4x2048x1_S4x2048x128_2_0_n_n_0_2_1128 999999#32 1000000#32 wt ids)
      (takeRows gather_S2x128_S4x2048x1_S4x2048x128_2_0_n_n_0_2_1128 1#32 2#32 tt zeroIdx))
    (takeRows gather_S2048x128_S4x2048x1_S4x2048x128_2_0_n_n_0_2_1128 2047#32 2048#32 pos positions)

/-- The mean over the last axis, kept as a column: the sum from the zero word, over the word of 128. -/
def meanCol (y : FVec F S4x2048x128 .f32) : FVec F S4x2048x1 .f32 :=
  Host.divf (broadcastInDim S4x2048x1 ![0, 1] bcast_S4x2048_S4x2048x1_0_1
      (Host.reduceAdd y (constant S_ .f32 0x00000000#32) reducesTo_S4x2048x128_S4x2048_d2 h_S_))
    (broadcastInDim S4x2048x1 ![] bcast_S_S4x2048x1 (constant S_ .f32 0x43000000#32))

/-- The deviation from the row mean. -/
def centred (y : FVec F S4x2048x128 .f32) : FVec F S4x2048x128 .f32 :=
  subf y (broadcastInDim S4x2048x128 ![0, 1, 2] bcast_S4x2048x1_S4x2048x128_0_1_2 (meanCol y))

/-- A vector of 128 spread over every token. -/
def perEntry (g : FVec F S128 .f32) : FVec F S4x2048x128 .f32 :=
  broadcastInDim S4x2048x128 ![0, 1, 2] bcast_S1x1x128_S4x2048x128_0_1_2 (broadcastInDim S1x1x128 ![2] bcast_S128_S1x1x128_2 g)

/-- The reference's result as one term of its six arguments. -/
def refTerm (ids : IVec S4x2048 32) (wt : FVec F S1000000x128 .f32) (pos : FVec F S2048x128 .f32) (tt : FVec F S2x128 .f32)
    (g be : FVec F S128 .f32) : FVec F S4x2048x128 .f32 :=
  addf (mulf (Host.divf (centred (embed ids wt pos tt))
        (broadcastInDim S4x2048x128 ![0, 1, 2] bcast_S4x2048x1_S4x2048x128_0_1_2
          (Host.sqrt (addf (meanCol (mulf (centred (embed ids wt pos tt)) (centred (embed ids wt pos tt))))
            (broadcastInDim S4x2048x1 ![] bcast_S_S4x2048x1 (constant S_ .f32 0x33D6BF95#32))))))
      (perEntry g))
    (perEntry be)

/-! ## The line of operations -/

/-- The operations in order: five of the entry function (the positions and the zero indices), twenty-three per
    `take` (the normalisation with its select, the range test, the gather, the fill select), thirty-one after. -/
abbrev ops : List (HloOp τ sig (Elt F)) :=
  [ nullary main_v0 (iotaInDim S2048 32 0),
    unary main_v0 main_v1 (broadcastInDim S1x2048 ![1] bcast_S2048_S1x2048_1 : (⟨S2048, .i32⟩ : BufTy).Contents (Elt F) → (⟨S1x2048, .i32⟩ : BufTy).Contents (Elt F)),
    unary main_v1 main_v2 (broadcastInDim S4x2048 ![0, 1] bcast_S1x2048_S4x2048_0_1 : (⟨S1x2048, .i32⟩ : BufTy).Contents (Elt F) → (⟨S4x2048, .i32⟩ : BufTy).Contents (Elt F)),
    nullary main_c (constantI S_ 32 0#32),
    unary main_c main_v3 (broadcastInDim S4x2048 ![] bcast_S_S4x2048 : (⟨S_, .i32⟩ : BufTy).Contents (Elt F) → (⟨S4x2048, .i32⟩ : BufTy).Contents (Elt F)),
    nullary main_call0_c (constantI S_ 32 0#32 : (⟨S_, .i32⟩ : BufTy).Contents (Elt F)),
    unary main_call0_c main_call0_v0 (broadcastInDim S4x2048 ![] bcast_S_S4x2048 : (⟨S_, .i32⟩ : BufTy).Contents (Elt F) → (⟨S4x2048, .i32⟩ : BufTy).Contents (Elt F)),
    binary main_arg0 main_call0_v0 main_call0_v1 (cmpi .slt : (⟨S4x2048, .i32⟩ : BufTy).Contents (Elt F) → (⟨S4x2048, .i32⟩ : BufTy).Contents (Elt F) → (⟨S4x2048, .i1⟩ : BufTy).Contents (Elt F)),
    nullary main_call0_c_0 (constantI S_ 32 1000000#32 : (⟨S_, .i32⟩ : BufTy).Contents (Elt F)),
    unary main_call0_c_0 main_call0_v2 (broadcastInDim S4x2048 ![] bcast_S_S4x2048 : (⟨S_, .i32⟩ : BufTy).Contents (Elt F) → (⟨S4x2048, .i32⟩ : BufTy).Contents (Elt F)),
    binary main_arg0 main_call0_v2 main_call0_v3 (addi : (⟨S4x2048, .i32⟩ : BufTy).Contents (Elt F) → (⟨S4x2048, .i32⟩ : BufTy).Contents (Elt F) → (⟨S4x2048, .i32⟩ : BufTy).Contents (Elt F)),
    ternary main_call0_v1 main_call0_v3 main_arg0 main_call0_v4 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F)),
    unary main_call0_v4 main_call0_v5 (broadcastInDim S4x2048x1 ![0, 1] bcast_S4x2048_S4x2048x1_0_1 : (⟨S4x2048, .i32⟩ : BufTy).Contents (Elt F) → (⟨S4x2048x1, .i32⟩ : BufTy).Contents (Elt F)),
    nullary main_call0_c_1 (constantI S1 32 999999#32 : (⟨S1, .i32⟩ : BufTy).Contents (Elt F)),
    nullary main_call0_c_2 (constantI S_ 32 0#32 : (⟨S_, .i32⟩ : BufTy).Contents (Elt F)),
    unary main_call0_c_2 main_call0_v6 (broadcastInDim S4x2048x1 ![] bcast_S_S4x2048x1 : (⟨S_, .i32⟩ : BufTy).Contents (Elt F) → (⟨S4x2048x1, .i32⟩ : BufTy).Contents (Elt F)),
    binary main_call0_v5 main_call0_v6 main_call0_v7 (cmpi .sge : (⟨S4x2048x1, .i32⟩ : BufTy).Contents (Elt F) → (⟨S4x2048x1, .i32⟩ : BufTy).Contents (Elt F) → (⟨S4x2048x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S4x2048x1 ![0, 1, 2] bcast_S1x1x1_S4x2048x1_0_1_2 : (⟨S1x1x1, .i32⟩ : BufTy).Contents (Elt F) → (⟨S4x2048x1, .i32⟩ : BufTy).Contents (Elt F)),
    binary main_call0_v5 main_call0_v9 main_call0_v10 (cmpi .sle : (⟨S4x2048x1, .i32⟩ : BufTy).Contents (Elt F) → (⟨S4x2048x1, .i32⟩ : BufTy).Contents (Elt F) → (⟨S4x2048x1, .i1⟩ : BufTy).Contents (Elt F)),
    binary main_call0_v7 main_call0_v10 main_call0_v11 (andi : (⟨S4x2048x1, .i1⟩ : BufTy).Contents (Elt F) → (⟨S4x2048x1, .i1⟩ : BufTy).Contents (Elt F) → (⟨S4x2048x1, .i1⟩ : BufTy).Contents (Elt F)),
    nullary main_call0_c_3 (constantI S_ 1 1#1 : (⟨S_, .i1⟩ : BufTy).Contents (Elt F)),
    binary main_call0_v11 main_call0_c_3 main_call0_v12 (fun x v => Host.reduce IntOp.andi x v reducesTo_S4x2048x1_S4x2048_d2 h_S_ : (⟨S4x2048x1, .i1⟩ : BufTy).Contents (Elt F) → (⟨S_, .i1⟩ : BufTy).Contents (Elt F) → (⟨S4x2048, .i1⟩ : BufTy).Contents (Elt F)),
    binary main_arg1 main_call0_v5 main_call0_v13 (fun x i => Host.gather gather_S1000000x128_S4x2048x1_S4x2048x128_2_0_n_n_0_2_1128 x i : (⟨S1000000x128, .f32⟩ : BufTy).Contents (Elt F) → (⟨S4x2048x1, .i32⟩ : BufTy).Contents (Elt F) → (⟨S4x2048x128, .f32⟩ : BufTy).Contents (Elt F)),
    unary main_call0_v12 main_call0_v14 (broadcastInDim S4x2048x128 ![0, 1] bcast_S4x2048_S4x2048x128_0_1 : (⟨S4x2048, .i1⟩ : BufTy).Contents (Elt F) → (⟨S4x2048x128, .i1⟩ : BufTy).Contents (Elt F)),
    nullary main_call0_cst (constant S_ .f32 0x7FC00000#32 : (⟨S_, .f32⟩ : BufTy).Contents (Elt F)),
    unary main_call0_cst main_call0_v15 (broadcastInDim S4x2048x128 ![] bcast_S_S4x2048x128 : (⟨S_, .f32⟩ : BufTy).Contents (Elt F) → (⟨S4x2048x128, .f32⟩ : BufTy).Contents (Elt F)),
    ternary main_call0_v14 main_call0_v13 main_call0_v15 main_v4 (select : (⟨S4x2048x128, .i1⟩ : BufTy).Contents (Elt F) → (⟨S4x2048x128, .f32⟩ : BufTy).Contents (Elt F) → (⟨S4x2048x128, .f32⟩ : BufTy).Contents (Elt F) → (⟨S4x2048x128, .f32⟩ : BufTy).Contents (Elt F)),
    nullary main_call1_c (constantI S_ 32 0#32 : (⟨S_, .i32⟩ : BufTy).Contents (Elt F)),
    unary main_call1_c main_call1_v0 (broadcastInDim S4x2048 ![] bcast_S_S4x2048 : (⟨S_, .i32⟩ : BufTy).Contents (Elt F) → (⟨S4x2048, .i32⟩ : BufTy).Contents (Elt F)),
    binary main_v2 main_call1_v0 main_call1_v1 (cmpi .slt : (⟨S4x2048, .i32⟩ : BufTy).Contents (Elt F) → (⟨S4x2048, .i32⟩ : BufTy).Contents (Elt F) → (⟨S4x2048, .i1⟩ : BufTy).Contents (Elt F)),
    nullary main_call1_c_0 (constantI S_ 32 2048#32 : (⟨S_, .i32⟩ : BufTy).Contents (Elt F)),
    unary main_call1_c_0 main_call1_v2 (broadcastInDim S4x2048 ![] bcast_S_S4x2048 : (⟨S_, .i32⟩ : BufTy).Contents (Elt F) → (⟨S4x2048, .i32⟩ : BufTy).Contents (Elt F)),
    binary main_v2 main_call1_v2 main_call1_v3 (addi : (⟨S4x2048, .i32⟩ : BufTy).Contents (Elt F) → (⟨S4x2048, .i32⟩ : BufTy).Contents (Elt F) → (⟨S4x2048, .i32⟩ : BufTy).Contents (Elt F)),
    ternary main_call1_v1 main_call1_v3 main_v2 main_call1_v4 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F)),
    unary main_call1_v4 main_call1_v5 (broadcastInDim S4x2048x1 ![0, 1] bcast_S4x2048_S4x2048x1_0_1 : (⟨S4x2048, .i32⟩ : BufTy).Contents (Elt F) → (⟨S4x2048x1, .i32⟩ : BufTy).Contents (Elt F)),
    nullary main_call1_c_1 (constantI S1 32 2047#32 : (⟨S1, .i32⟩ : BufTy).Contents (Elt F)),
    nullary main_call1_c_2 (constantI S_ 32 0#32 : (⟨S_, .i32⟩ : BufTy).Contents (Elt F)),
    unary main_call1_c_2 main_call1_v6 (broadcastInDim S4x2048x1 ![] bcast_S_S4x2048x1 : (⟨S_, .i32⟩ : BufTy).Contents (Elt F) → (⟨S4x2048x1, .i32⟩ : BufTy).Contents (Elt F)),
    binary main_call1_v5 main_call1_v6 main_call1_v7 (cmpi .sge : (⟨S4x2048x1, .i32⟩ : BufTy).Contents (Elt F) → (⟨S4x2048x1, .i32⟩ : BufTy).Contents (Elt F) → (⟨S4x2048x1, .i1⟩ : BufTy).Contents (Elt F)),
    unary main_call1_c_1 main_call1_v8 (broadcastInDim S1x1x1 ![2] bcast_S1_S1x1x1_2 : (⟨S1, .i32⟩ : BufTy).Contents (Elt F) → (⟨S1x1x1, .i32⟩ : BufTy).Contents (Elt F)),
    unary main_call1_v8 main_call1_v9 (broadcastInDim S4x2048x1 ![0, 1, 2] bcast_S1x1x1_S4x2048x1_0_1_2 : (⟨S1x1x1, .i32⟩ : BufTy).Contents (Elt F) → (⟨S4x2048x1, .i32⟩ : BufTy).Contents (Elt F)),
    binary main_call1_v5 main_call1_v9 main_call1_v10 (cmpi .sle : (⟨S4x2048x1, .i32⟩ : BufTy).Contents (Elt F) → (⟨S4x2048x1, .i32⟩ : BufTy).Contents (Elt F) → (⟨S4x2048x1, .i1⟩ : BufTy).Contents (Elt F)),
    binary main_call1_v7 main_call1_v10 main_call1_v11 (andi : (⟨S4x2048x1, .i1⟩ : BufTy).Contents (Elt F) → (⟨S4x2048x1, .i1⟩ : BufTy).Contents (Elt F) → (⟨S4x2048x1, .i1⟩ : BufTy).Contents (Elt F)),
    nullary main_call1_c_3 (constantI S_ 1 1#1 : (⟨S_, .i1⟩ : BufTy).Contents (Elt F)),
    binary main_call1_v11 main_call1_c_3 main_call1_v12 (fun x v => Host.reduce IntOp.andi x v reducesTo_S4x2048x1_S4x2048_d2 h_S_ : (⟨S4x2048x1, .i1⟩ : BufTy).Contents (Elt F) → (⟨S_, .i1⟩ : BufTy).Contents (Elt F) → (⟨S4x2048, .i1⟩ : BufTy).Contents (Elt F)),
    binary main_arg2 main_call1_v5 main_call1_v13 (fun x i => Host.gather gather_S2048x128_S4x2048x1_S4x2048x128_2_0_n_n_0_2_1128 x i : (⟨S2048x128, .f32⟩ : BufTy).Contents (Elt F) → (⟨S4x2048x1, .i32⟩ : BufTy).Contents (Elt F) → (⟨S4x2048x128, .f32⟩ : BufTy).Contents (Elt F)),
    unary main_call1_v12 main_call1_v14 (broadcastInDim S4x2048x128 ![0, 1] bcast_S4x2048_S4x2048x128_0_1 : (⟨S4x2048, .i1⟩ : BufTy).Contents (Elt F) → (⟨S4x2048x128, .i1⟩ : BufTy).Contents (Elt F)),
    nullary main_call1_cst (constant S_ .f32 0x7FC00000#32 : (⟨S_, .f32⟩ : BufTy).Contents (Elt F)),
    unary main_call1_cst main_call1_v15 (broadcastInDim S4x2048x128 ![] bcast_S_S4x2048x128 : (⟨S_, .f32⟩ : BufTy).Contents (Elt F) → (⟨S4x2048x128, .f32⟩ : BufTy).Contents (Elt F)),
    ternary main_call1_v14 main_call1_v13 main_call1_v15 main_v5 (select : (⟨S4x2048x128, .i1⟩ : BufTy).Contents (Elt F) → (⟨S4x2048x128, .f32⟩ : BufTy).Contents (Elt F) → (⟨S4x2048x128, .f32⟩ : BufTy).Contents (Elt F) → (⟨S4x2048x128, .f32⟩ : BufTy).Contents (Elt F)),
    nullary main_call2_c (constantI S_ 32 0#32 : (⟨S_, .i32⟩ : BufTy).Contents (Elt F)),
    unary main_call2_c main_call2_v0 (broadcastInDim S4x2048 ![] bcast_S_S4x2048 : (⟨S_, .i32⟩ : BufTy).Contents (Elt F) → (⟨S4x2048, .i32⟩ : BufTy).Contents (Elt F)),
    binary main_v3 main_call2_v0 main_call2_v1 (cmpi .slt : (⟨S4x2048, .i32⟩ : BufTy).Contents (Elt F) → (⟨S4x2048, .i32⟩ : BufTy).Contents (Elt F) → (⟨S4x2048, .i1⟩ : BufTy).Contents (Elt F)),
    nullary main_call2_c_0 (constantI S_ 32 2#32 : (⟨S_, .i32⟩ : BufTy).Contents (Elt F)),
    unary main_call2_c_0 main_call2_v2 (broadcastInDim S4x2048 ![] bcast_S_S4x2048 : (⟨S_, .i32⟩ : BufTy).Contents (Elt F) → (⟨S4x2048, .i32⟩ : BufTy).Contents (Elt F)),
    binary main_v3 main_call2_v2 main_call2_v3 (addi : (⟨S4x2048, .i32⟩ : BufTy).Contents (Elt F) → (⟨S4x2048, .i32⟩ : BufTy).Contents (Elt F) → (⟨S4x2048, .i32⟩ : BufTy).Contents (Elt F)),
    ternary main_call2_v1 main_call2_v3 main_v3 main_call2_v4 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F)),
    unary main_call2_v4 main_call2_v5 (broadcastInDim S4x2048x1 ![0, 1] bcast_S4x2048_S4x2048x1_0_1 : (⟨S4x2048, .i32⟩ : BufTy).Contents (Elt F) → (⟨S4x2048x1, .i32⟩ : BufTy).Contents (Elt F)),
    nullary main_call2_c_1 (constantI S1 32 1#32 : (⟨S1, .i32⟩ : BufTy).Contents (Elt F)),
    nullary main_call2_c_2 (constantI S_ 32 0#32 : (⟨S_, .i32⟩ : BufTy).Contents (Elt F)),
    unary main_call2_c_2 main_call2_v6 (broadcastInDim S4x2048x1 ![] bcast_S_S4x2048x1 : (⟨S_, .i32⟩ : BufTy).Contents (Elt F) → (⟨S4x2048x1, .i32⟩ : BufTy).Contents (Elt F)),
    binary main_call2_v5 main_call2_v6 main_call2_v7 (cmpi .sge : (⟨S4x2048x1, .i32⟩ : BufTy).Contents (Elt F) → (⟨S4x2048x1, .i32⟩ : BufTy).Contents (Elt F) → (⟨S4x2048x1, .i1⟩ : BufTy).Contents (Elt F)),
    unary main_call2_c_1 main_call2_v8 (broadcastInDim S1x1x1 ![2] bcast_S1_S1x1x1_2 : (⟨S1, .i32⟩ : BufTy).Contents (Elt F) → (⟨S1x1x1, .i32⟩ : BufTy).Contents (Elt F)),
    unary main_call2_v8 main_call2_v9 (broadcastInDim S4x2048x1 ![0, 1, 2] bcast_S1x1x1_S4x2048x1_0_1_2 : (⟨S1x1x1, .i32⟩ : BufTy).Contents (Elt F) → (⟨S4x2048x1, .i32⟩ : BufTy).Contents (Elt F)),
    binary main_call2_v5 main_call2_v9 main_call2_v10 (cmpi .sle : (⟨S4x2048x1, .i32⟩ : BufTy).Contents (Elt F) → (⟨S4x2048x1, .i32⟩ : BufTy).Contents (Elt F) → (⟨S4x2048x1, .i1⟩ : BufTy).Contents (Elt F)),
    binary main_call2_v7 main_call2_v10 main_call2_v11 (andi : (⟨S4x2048x1, .i1⟩ : BufTy).Contents (Elt F) → (⟨S4x2048x1, .i1⟩ : BufTy).Contents (Elt F) → (⟨S4x2048x1, .i1⟩ : BufTy).Contents (Elt F)),
    nullary main_call2_c_3 (constantI S_ 1 1#1 : (⟨S_, .i1⟩ : BufTy).Contents (Elt F)),
    binary main_call2_v11 main_call2_c_3 main_call2_v12 (fun x v => Host.reduce IntOp.andi x v reducesTo_S4x2048x1_S4x2048_d2 h_S_ : (⟨S4x2048x1, .i1⟩ : BufTy).Contents (Elt F) → (⟨S_, .i1⟩ : BufTy).Contents (Elt F) → (⟨S4x2048, .i1⟩ : BufTy).Contents (Elt F)),
    binary main_arg3 main_call2_v5 main_call2_v13 (fun x i => Host.gather gather_S2x128_S4x2048x1_S4x2048x128_2_0_n_n_0_2_1128 x i : (⟨S2x128, .f32⟩ : BufTy).Contents (Elt F) → (⟨S4x2048x1, .i32⟩ : BufTy).Contents (Elt F) → (⟨S4x2048x128, .f32⟩ : BufTy).Contents (Elt F)),
    unary main_call2_v12 main_call2_v14 (broadcastInDim S4x2048x128 ![0, 1] bcast_S4x2048_S4x2048x128_0_1 : (⟨S4x2048, .i1⟩ : BufTy).Contents (Elt F) → (⟨S4x2048x128, .i1⟩ : BufTy).Contents (Elt F)),
    nullary main_call2_cst (constant S_ .f32 0x7FC00000#32 : (⟨S_, .f32⟩ : BufTy).Contents (Elt F)),
    unary main_call2_cst main_call2_v15 (broadcastInDim S4x2048x128 ![] bcast_S_S4x2048x128 : (⟨S_, .f32⟩ : BufTy).Contents (Elt F) → (⟨S4x2048x128, .f32⟩ : BufTy).Contents (Elt F)),
    ternary main_call2_v14 main_call2_v13 main_call2_v15 main_v6 (select : (⟨S4x2048x128, .i1⟩ : BufTy).Contents (Elt F) → (⟨S4x2048x128, .f32⟩ : BufTy).Contents (Elt F) → (⟨S4x2048x128, .f32⟩ : BufTy).Contents (Elt F) → (⟨S4x2048x128, .f32⟩ : BufTy).Contents (Elt F)),
    binary main_v4 main_v6 main_v7 (addf : (⟨S4x2048x128, .f32⟩ : BufTy).Contents (Elt F) → (⟨S4x2048x128, .f32⟩ : BufTy).Contents (Elt F) → (⟨S4x2048x128, .f32⟩ : BufTy).Contents (Elt F)),
    binary main_v7 main_v5 main_v8 (addf : (⟨S4x2048x128, .f32⟩ : BufTy).Contents (Elt F) → (⟨S4x2048x128, .f32⟩ : BufTy).Contents (Elt F) → (⟨S4x2048x128, .f32⟩ : BufTy).Contents (Elt F)),
    nullary main_cst (constant S_ .f32 0x00000000#32),
    binary main_v8 main_cst main_v9 ((fun x v => Host.reduceAdd x v reducesTo_S4x2048x128_S4x2048_d2 h_S_) : (⟨S4x2048x128, .f32⟩ : BufTy).Contents (Elt F) → (⟨S_, .f32⟩ : BufTy).Contents (Elt F) → (⟨S4x2048, .f32⟩ : BufTy).Contents (Elt F)),
    unary main_v9 main_v10 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x43000000#32),
    unary main_cst_0 main_v11 (broadcastInDim S4x2048x1 ![] bcast_S_S4x2048x1 : (⟨S_, .f32⟩ : BufTy).Contents (Elt F) → (⟨S4x2048x1, .f32⟩ : BufTy).Contents (Elt F)),
    binary main_v10 main_v11 main_v12 (Host.divf : (⟨S4x2048x1, .f32⟩ : BufTy).Contents (Elt F) → (⟨S4x2048x1, .f32⟩ : BufTy).Contents (Elt F) → (⟨S4x2048x1, .f32⟩ : BufTy).Contents (Elt F)),
    unary main_v12 main_v13 (broadcastInDim S4x2048x128 ![0, 1, 2] bcast_S4x2048x1_S4x2048x128_0_1_2 : (⟨S4x2048x1, .f32⟩ : BufTy).Contents (Elt F) → (⟨S4x2048x128, .f32⟩ : BufTy).Contents (Elt F)),
    binary main_v8 main_v13 main_v14 (subf : (⟨S4x2048x128, .f32⟩ : BufTy).Contents (Elt F) → (⟨S4x2048x128, .f32⟩ : BufTy).Contents (Elt F) → (⟨S4x2048x128, .f32⟩ : BufTy).Contents (Elt F)),
    binary main_v14 main_v14 main_v15 (mulf : (⟨S4x2048x128, .f32⟩ : BufTy).Contents (Elt F) → (⟨S4x2048x128, .f32⟩ : BufTy).Contents (Elt F) → (⟨S4x2048x128, .f32⟩ : BufTy).Contents (Elt F)),
    nullary main_cst_1 (constant S_ .f32 0x00000000#32),
    binary main_v15 main_cst_1 main_v16 ((fun x v => Host.reduceAdd x v reducesTo_S4x2048x128_S4x2048_d2 h_S_) : (⟨S4x2048x128, .f32⟩ : BufTy).Contents (Elt F) → (⟨S_, .f32⟩ : BufTy).Contents (Elt F) → (⟨S4x2048, .f32⟩ : BufTy).Contents (Elt F)),
    unary main_v16 main_v17 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_2 (constant S_ .f32 0x43000000#32),
    unary main_cst_2 main_v18 (broadcastInDim S4x2048x1 ![] bcast_S_S4x2048x1 : (⟨S_, .f32⟩ : BufTy).Contents (Elt F) → (⟨S4x2048x1, .f32⟩ : BufTy).Contents (Elt F)),
    binary main_v17 main_v18 main_v19 (Host.divf : (⟨S4x2048x1, .f32⟩ : BufTy).Contents (Elt F) → (⟨S4x2048x1, .f32⟩ : BufTy).Contents (Elt F) → (⟨S4x2048x1, .f32⟩ : BufTy).Contents (Elt F)),
    unary main_v12 main_v20 (broadcastInDim S4x2048x128 ![0, 1, 2] bcast_S4x2048x1_S4x2048x128_0_1_2 : (⟨S4x2048x1, .f32⟩ : BufTy).Contents (Elt F) → (⟨S4x2048x128, .f32⟩ : BufTy).Contents (Elt F)),
    binary main_v8 main_v20 main_v21 (subf : (⟨S4x2048x128, .f32⟩ : BufTy).Contents (Elt F) → (⟨S4x2048x128, .f32⟩ : BufTy).Contents (Elt F) → (⟨S4x2048x128, .f32⟩ : BufTy).Contents (Elt F)),
    nullary main_cst_3 (constant S_ .f32 0x33D6BF95#32),
    unary main_cst_3 main_v22 (broadcastInDim S4x2048x1 ![] bcast_S_S4x2048x1 : (⟨S_, .f32⟩ : BufTy).Contents (Elt F) → (⟨S4x2048x1, .f32⟩ : BufTy).Contents (Elt F)),
    binary main_v19 main_v22 main_v23 (addf : (⟨S4x2048x1, .f32⟩ : BufTy).Contents (Elt F) → (⟨S4x2048x1, .f32⟩ : BufTy).Contents (Elt F) → (⟨S4x2048x1, .f32⟩ : BufTy).Contents (Elt F)),
    unary main_v23 main_v24 (Host.sqrt : (⟨S4x2048x1, .f32⟩ : BufTy).Contents (Elt F) → (⟨S4x2048x1, .f32⟩ : BufTy).Contents (Elt F)),
    unary main_v24 main_v25 (broadcastInDim S4x2048x128 ![0, 1, 2] bcast_S4x2048x1_S4x2048x128_0_1_2 : (⟨S4x2048x1, .f32⟩ : BufTy).Contents (Elt F) → (⟨S4x2048x128, .f32⟩ : BufTy).Contents (Elt F)),
    binary main_v21 main_v25 main_v26 (Host.divf : (⟨S4x2048x128, .f32⟩ : BufTy).Contents (Elt F) → (⟨S4x2048x128, .f32⟩ : BufTy).Contents (Elt F) → (⟨S4x2048x128, .f32⟩ : BufTy).Contents (Elt F)),
    unary main_arg4 main_v27 (broadcastInDim S1x1x128 ![2] bcast_S128_S1x1x128_2 : (⟨S128, .f32⟩ : BufTy).Contents (Elt F) → (⟨S1x1x128, .f32⟩ : BufTy).Contents (Elt F)),
    unary main_v27 main_v28 (broadcastInDim S4x2048x128 ![0, 1, 2] bcast_S1x1x128_S4x2048x128_0_1_2 : (⟨S1x1x128, .f32⟩ : BufTy).Contents (Elt F) → (⟨S4x2048x128, .f32⟩ : BufTy).Contents (Elt F)),
    binary main_v26 main_v28 main_v29 (mulf : (⟨S4x2048x128, .f32⟩ : BufTy).Contents (Elt F) → (⟨S4x2048x128, .f32⟩ : BufTy).Contents (Elt F) → (⟨S4x2048x128, .f32⟩ : BufTy).Contents (Elt F)),
    unary main_arg5 main_v30 (broadcastInDim S1x1x128 ![2] bcast_S128_S1x1x128_2 : (⟨S128, .f32⟩ : BufTy).Contents (Elt F) → (⟨S1x1x128, .f32⟩ : BufTy).Contents (Elt F)),
    unary main_v30 main_v31 (broadcastInDim S4x2048x128 ![0, 1, 2] bcast_S1x1x128_S4x2048x128_0_1_2 : (⟨S1x1x128, .f32⟩ : BufTy).Contents (Elt F) → (⟨S4x2048x128, .f32⟩ : BufTy).Contents (Elt F)),
    binary main_v29 main_v31 main_v32 (addf : (⟨S4x2048x128, .f32⟩ : BufTy).Contents (Elt F) → (⟨S4x2048x128, .f32⟩ : BufTy).Contents (Elt F) → (⟨S4x2048x128, .f32⟩ : BufTy).Contents (Elt F)) ]

set_option maxRecDepth 65536 in
set_option maxHeartbeats 4000000 in
/-- The entry function is that line: the callees' bodies unfolded at their calls, sequencing reassociated. -/
theorem main_eq (c : Dev nD) : main (F := F) c = seq ops := by
  simp only [main, fn_take.body, fn_take_0.body, fn_take_2.body, fn_where.body, fn_where_1.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., binary_bufs_sub .., binary_bufs_sub .., nullary_bufs_sub .., binary_bufs_sub ..,
    unary_bufs_sub .., nullary_bufs_sub .., unary_bufs_sub .., binary_bufs_sub .., unary_bufs_sub .., binary_bufs_sub ..,
    binary_bufs_sub .., nullary_bufs_sub .., binary_bufs_sub .., unary_bufs_sub .., nullary_bufs_sub .., unary_bufs_sub ..,
    binary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub ..⟩

/-- Every weakly fair execution terminates with each buffer at the fold of the line over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold read at the result and at the arguments -/

set_option maxHeartbeats 4000000 in
/-- At the result buffer the fold is `refTerm` of the launch contents of the six arguments: each operation's result
    read at its own buffer is its function of its operands' buffers, and no later operation writes those. -/
theorem out_eq (V : Valuation τ sig (Elt F)) :
    after ops V (main_v32 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [refTerm, centred, meanCol, perEntry, embed, takeRows, inRange, wrapIdx, positions, zeroIdx]
  after_results_simp

/-! No operation writes an argument buffer. -/

set_option maxHeartbeats 2000000 in
theorem arg0_eq (V : Valuation τ sig (Elt F)) :
    after ops V (main_arg0 : DevRef τ sig) = V (main_arg0 : DevRef τ sig) := by
  after_results_simp

set_option maxHeartbeats 2000000 in
theorem arg1_eq (V : Valuation τ sig (Elt F)) :
    after ops V (main_arg1 : DevRef τ sig) = V (main_arg1 : DevRef τ sig) := by
  after_results_simp

set_option maxHeartbeats 2000000 in
theorem arg2_eq (V : Valuation τ sig (Elt F)) :
    after ops V (main_arg2 : DevRef τ sig) = V (main_arg2 : DevRef τ sig) := by
  after_results_simp

set_option maxHeartbeats 2000000 in
theorem arg3_eq (V : Valuation τ sig (Elt F)) :
    after ops V (main_arg3 : DevRef τ sig) = V (main_arg3 : DevRef τ sig) := by
  after_results_simp

set_option maxHeartbeats 2000000 in
theorem arg4_eq (V : Valuation τ sig (Elt F)) :
    after ops V (main_arg4 : DevRef τ sig) = V (main_arg4 : DevRef τ sig) := by
  after_results_simp

set_option maxHeartbeats 2000000 in
theorem arg5_eq (V : Valuation τ sig (Elt F)) :
    after ops V (main_arg5 : DevRef τ sig) = V (main_arg5 : DevRef τ sig) := by
  after_results_simp

/-- Every weakly fair execution of the reference terminates with its result at `refTerm` of the arguments and the
    arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = refTerm (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v32).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩) (run_after m ρ)

end Cert.RefSide

end
-- ==== Proof.RefValue.lean ====
/-
  The reference's composed term, read at an index, is the specification's `Gref` when every index word names a row.

  Under that hypothesis each `take` is a plain row read. A word below 2³¹ is not negative as a signed integer, so
  the wrap of negative indices keeps it; it lies in `0 … n - 1`, so the range test is 1 everywhere and the fill
  select keeps the gathered row; the gather's clamp into `0 … n - 1` keeps it too. The position indices are the
  iota `0 … 2047` along each row and the token-type indices are zero, both in range, so those two reads are row `s` of
  the position table and row `0` of the token-type table. The embedding at `(b, s, k)` is therefore the sum of the
  three entries the specification names, in the reference's order.

  The rest is pointwise: a sum over the last axis from the zero word is the sum of the 128 entries of the row; the mean
  is that sum over the word of 128; the result at `(b, s, k)` is the deviation from the mean over the square root of
  the mean squared deviation plus the word of `ε`, times `γ k`, plus `β k` — `refRow` of the row.
-/
import proofs.«203468_g17523466567843_cont_7to1_1283_23_alg».proof.Proof.RefRun
import proofs.«203468_g17523466567843_cont_7to1_1283_23_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.RefSide

open Cert.ReferenceIdeal Cert.ReferenceIdeal.Gen Idealize.ShloMosaic Idealize.ShloMosaic.ValueIdx Idealize.ShloMosaic.TcCoe
  Idealize.SL.Sem

/-! ## Index words

An index word below 2³¹ read as a signed integer is its unsigned value: it is not below zero, and it compares with
another such word as the naturals do. -/

theorem toInt_small (w : BitVec 32) (h : w.toNat < 2147483648) : w.toInt = (w.toNat : Int) := by
  rw [BitVec.toInt_eq_toNat_cond]
  split <;> omega

theorem slt_zero_small (w : BitVec 32) (h : w.toNat < 2147483648) : IntOp.cmpi .slt w 0#32 = 0#1 := by
  show BitVec.ofBool (w.slt 0#32) = 0#1
  have h0 : (0#32 : BitVec 32).toInt = 0 := by decide
  have e : w.slt 0#32 = false := by
    simp only [BitVec.slt, h0, toInt_small w h]
    exact decide_eq_false (by omega)
  rw [e]; rfl

theorem sge_zero_small (w : BitVec 32) (h : w.toNat < 2147483648) : IntOp.cmpi .sge w 0#32 = 1#1 := by
  show BitVec.ofBool ((0#32 : BitVec 32).sle w) = 1#1
  have h0 : (0#32 : BitVec 32).toInt = 0 := by decide
  have e : (0#32 : BitVec 32).sle w = true := by
    simp only [BitVec.sle, h0, toInt_small w h]
    exact decide_eq_true (by omega)
  rw [e]; rfl

theorem sle_small (w v : BitVec 32) (hw : w.toNat < 2147483648) (hv : v.toNat < 2147483648) (hle : w.toNat ≤ v.toNat) :
    IntOp.cmpi .sle w v = 1#1 := by
  show BitVec.ofBool (w.sle v) = 1#1
  have e : w.sle v = true := by
    simp only [BitVec.sle, toInt_small w hw, toInt_small v hv]
    exact decide_eq_true (by omega)
  rw [e]; rfl

/-! ## The range test

A reduction by `and` from the bit 1 over bits that are all 1 is 1. -/

theorem foldl_andi_ones {ι : Type} (f : ι → BitVec 1) (l : List ι) (hl : ∀ i ∈ l, f i = 1#1) :
    l.foldl (fun r i => IntOp.andi r (f i)) 1#1 = 1#1 := by
  induction l with
  | nil => rfl
  | cons a l ih =>
    have e : IntOp.andi 1#1 1#1 = 1#1 := by decide
    rw [List.foldl_cons, hl a List.mem_cons_self, e]
    exact ih (fun i hi => hl i (List.mem_cons_of_mem _ hi))

theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_ones x _ (fun i _ => hx i)

/-- The normalised index column read at a position is the index itself when no index is below zero. -/
theorem wrapIdx_apply (n : BitVec 32) (idx : IVec S4x2048 32) (hidx : ∀ j, (idx j).toNat < 2147483648)
    (b : Fin 4) (s : Fin 2048) (z : Fin 1) : wrapIdx n idx (ix3 b s z) = idx (ix2 b s) := by
  unfold wrapIdx
  rw [broadcastInDim_apply ![0, 1] bcast_S4x2048_S4x2048x1_0_1 _ (ix3 b s z) (ix2 b s)
    (fun a => by match a with | ⟨0, _⟩ => rfl | ⟨1, _⟩ => rfl)]
  rw [select_apply]
  have e : cmpi .slt idx (broadcastInDim S4x2048 ![] bcast_S_S4x2048 (constantI S_ 32 0#32)) (ix2 b s)
      = IntOp.cmpi .slt (idx (ix2 b s)) 0#32 := rfl
  rw [e, slt_zero_small _ (hidx _), select_zero]

/-- Every normalised index in `0 … hi` passes the range test. -/
theorem inRange_one (hi : BitVec 32) (i3 : IVec S4x2048x1 32) (hhi : hi.toNat < 2147483648)
    (hi3 : ∀ i, (i3 i).toNat ≤ hi.toNat) (j : S4x2048x128.Idx) : inRange hi i3 j = 1#1 := by
  unfold inRange
  unfold broadcastInDim
  refine reduce_andi_ones _ _ _ _ (fun i => ?_) (fun _ => rfl) _
  show IntOp.andi (IntOp.cmpi .sge (i3 i) 0#32) (IntOp.cmpi .sle (i3 i) hi) = 1#1
  rw [sge_zero_small _ (by have := hi3 i; omega), sle_small _ _ (by have := hi3 i; omega) hhi (hi3 i)]
  decide

/-! ## The gather of rows

The dimension numbers of `take` along axis 0 of a table of `N` rows of 128: the row axis collapsed and indexed by
the one component of the start index, the entry axis an offset axis of full extent. -/

abbrev rowDims (N : Nat)
    (wf : GatherDims.WF ⟨2, ![N, 128]⟩ ⟨3, ![4, 2048, 1]⟩ ⟨3, ![4, 2048, 128]⟩ [2] [0] [] [0] [] 2 ![1, 128]) :
    GatherDims ⟨2, ![N, 128]⟩ ⟨3, ![4, 2048, 1]⟩ ⟨3, ![4, 2048, 128]⟩ where
  offsetDims := [2]
  collapsedSliceDims := [0]
  operandBatchingDims := []
  startIndicesBatchingDims := []
  startIndexMap := [0]
  indexVectorDim := 2
  sliceSizes := ![1, 128]
  wf := wf

/-- The gather read at `(b, s, k)`: entry `k` of the row the start index at `(b, s)` names, read signed and clamped
    into `0 … N - 1`. -/
theorem gather_rows_apply {α : Type} {N w : Nat} (hN : 0 < N)
    (wf : GatherDims.WF ⟨2, ![N, 128]⟩ ⟨3, ![4, 2048, 1]⟩ ⟨3, ![4, 2048, 128]⟩ [2] [0] [] [0] [] 2 ![1, 128])
    (x : (⟨2, ![N, 128]⟩ : Shape).Idx → α) (idx : IVec ⟨3, ![4, 2048, 1]⟩ w) (b : Fin 4) (s : Fin 2048) (k : Fin 128) :
    Host.gather (rowDims N wf) x idx (ix3 b s k)
      = x (ix2 ⟨min (idx (ix3 b s (0 : Fin 1))).toInt.toNat (N - 1), by omega⟩ k) := by
  unfold Host.gather
  congr 1
  funext a
  refine Fin.ext ?_
  match a with
  | ⟨0, _⟩ =>
    show (rowDims N wf).start (ix3 b s k) idx 0 + (rowDims N wf).batchCoord (ix3 b s k) 0
      + (rowDims N wf).offCoord (ix3 b s k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx (ix3 b s k) ⟨List.idxOf (0 : Fin 2) (rowDims N wf).startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show (rowDims N wf).start (ix3 b s k) idx 1 + (rowDims N wf).batchCoord (ix3 b s k) 1
      + (rowDims N wf).offCoord (ix3 b s k) 1 = k.val
    have hst : (rowDims N wf).start (ix3 b s k) idx 1 = 0 := by
      unfold GatherDims.start
      exact dif_neg (show ¬ ((1 : Fin 2) ∈ ([0] : List (Fin 2))) by decide)
    rw [GatherDims.batchCoord_eq_zero _ _ _ List.not_mem_nil, hst]
    simp only [Nat.add_zero, Nat.zero_add]
    unfold GatherDims.offCoord
    split
    · rfl
    · rename_i hn
      exact absurd ((GatherDims.mem_sKept _ _).2
        ⟨(show ¬ ((1 : Fin 2) ∈ ([0] : List (Fin 2))) by decide), List.not_mem_nil⟩) hn

/-- `take` read at `(b, s, k)` when every index is a row of the table: entry `k` of that row. -/
theorem takeRows_apply {N : Nat} (hN : 0 < N) (hN' : N ≤ 2147483648)
    (wf : GatherDims.WF ⟨2, ![N, 128]⟩ ⟨3, ![4, 2048, 1]⟩ ⟨3, ![4, 2048, 128]⟩ [2] [0] [] [0] [] 2 ![1, 128])
    (hi n : BitVec 32) (hhi : hi.toNat = N - 1) (tbl : FVec Ideal ⟨2, ![N, 128]⟩ .f32) (idx : IVec S4x2048 32)
    (hidx : ∀ j, (idx j).toNat < N) (b : Fin 4) (s : Fin 2048) (k : Fin 128) :
    takeRows (rowDims N wf) hi n tbl idx (ix3 b s k) = tbl (ix2 ⟨(idx (ix2 b s)).toNat, hidx _⟩ k) := by
  have hsm : ∀ j, (idx j).toNat < 2147483648 := fun j => by have := hidx j; omega
  unfold takeRows
  have hin : inRange hi (wrapIdx n idx) (ix3 b s k) = 1#1 :=
    inRange_one hi (wrapIdx n idx) (by omega) (fun i => by
      obtain ⟨p, q, r, rfl⟩ : ∃ (p : Fin 4) (q : Fin 2048) (r : Fin 1), i = ix3 p q r := ⟨i 0, i 1, i 2, eq_ix3 i⟩
      rw [wrapIdx_apply n idx hsm]; have := hidx (ix2 p q); omega) (ix3 b s k)
  rw [select_apply, hin, select_one, gather_rows_apply hN]
  refine congrArg (fun r => tbl (ix2 r k)) (Fin.ext ?_)
  show min (wrapIdx n idx (ix3 b s (0 : Fin 1))).toInt.toNat (N - 1) = (idx (ix2 b s)).toNat
  rw [wrapIdx_apply n idx hsm, toInt_small _ (hsm _)]
  have := hidx (ix2 b s)
  omega

/-! ## The positions and the zero indices -/

theorem positions_apply (b : Fin 4) (s : Fin 2048) : positions (ix2 b s) = BitVec.ofNat 32 s.val := by
  unfold positions
  rw [broadcastInDim_apply ![0, 1] bcast_S1x2048_S4x2048_0_1 _ (ix2 b s) (ix2 (0 : Fin 1) s)
    (fun a => by match a with | ⟨0, _⟩ => rfl | ⟨1, _⟩ => rfl)]
  rw [broadcastInDim_apply ![1] bcast_S2048_S1x2048_1 _ (ix2 (0 : Fin 1) s) (ix1 s)
    (fun a => by match a with | ⟨0, _⟩ => rfl)]
  rfl

theorem positions_toNat (j : S4x2048.Idx) : (positions j).toNat = (j 1).val := by
  obtain ⟨b, s, rfl⟩ : ∃ (b : Fin 4) (s : Fin 2048), j = ix2 b s := ⟨j 0, j 1, eq_ix2 j⟩
  rw [positions_apply, BitVec.toNat_ofNat]
  show s.val % 2 ^ 32 = s.val
  have := s.isLt
  omega

theorem zeroIdx_apply (j : S4x2048.Idx) : zeroIdx j = 0#32 := rfl

/-! ## The embedding at an index -/

theorem embed_apply (ids : IVec S4x2048 32) (wt : FVec Ideal S1000000x128 .f32) (pos : FVec Ideal S2048x128 .f32)
    (tt : FVec Ideal S2x128 .f32) (hids : ∀ j, (ids j).toNat < 1000000) (b : Fin 4) (s : Fin 2048) (k : Fin 128) :
    embed ids wt pos tt (ix3 b s k) = Cert.Spec.embRef ids wt pos tt b s k := by
  unfold embed Cert.Spec.embRef
  rw [addf_apply, addf_apply]
  have e0 : takeRows gather_S1000000x128_S4x2048x1_S4x2048x128_2_0_n_n_0_2_1128 999999#32 1000000#32 wt ids (ix3 b s k)
      = wt (ix2 (Cert.Spec.rowOf (ids (ix2 b s))) k) :=
    (takeRows_apply (N := 1000000) (by omega) (by omega) gather_S1000000x128_S4x2048x1_S4x2048x128_2_0_n_n_0_2_1128_wf
      999999#32 1000000#32 (by decide) wt ids hids b s k).trans
      (congrArg (fun r => wt (ix2 r k)) (Fin.ext (Cert.Spec.rowOf_val (hids _)).symm))
  have e2 : takeRows gather_S2x128_S4x2048x1_S4x2048x128_2_0_n_n_0_2_1128 1#32 2#32 tt zeroIdx (ix3 b s k)
      = tt (ix2 (0 : Fin 2) k) :=
    (takeRows_apply (N := 2) (by omega) (by omega) gather_S2x128_S4x2048x1_S4x2048x128_2_0_n_n_0_2_1128_wf
      1#32 2#32 (by decide) tt zeroIdx (fun j => by rw [zeroIdx_apply]; decide) b s k).trans
      (congrArg (fun r => tt (ix2 r k)) (Fin.ext (show (zeroIdx (ix2 b s)).toNat = 0 from rfl)))
  have e1 : takeRows gather_S2048x128_S4x2048x1_S4x2048x128_2_0_n_n_0_2_1128 2047#32 2048#32 pos positions (ix3 b s k)
      = pos (ix2 s k) :=
    (takeRows_apply (N := 2048) (by omega) (by omega) gather_S2048x128_S4x2048x1_S4x2048x128_2_0_n_n_0_2_1128_wf
      2047#32 2048#32 (by decide) pos positions (fun j => by rw [positions_toNat]; exact (j 1).isLt) b s k).trans
      (congrArg (fun r => pos (ix2 r k)) (Fin.ext (positions_toNat (ix2 b s))))
  rw [e0, e2, e1]

/-! ## The normalisation at an index -/

/-- The sum over the last axis at `(b, s)` runs over the entries `(b, s, k)`. -/
theorem lift_last (h : S4x2048x128.Reduces [2] S4x2048) (b : Fin 4) (s : Fin 2048) (k : Fin 128) :
    h.lift (ix2 b s) k = ix3 b s k := by
  funext c; refine Fin.ext ?_
  match c with
  | ⟨0, _⟩ => rfl
  | ⟨1, _⟩ => rfl
  | ⟨2, _⟩ => rfl

theorem meanCol_apply (y : FVec Ideal S4x2048x128 .f32) (b : Fin 4) (s : Fin 2048) (z : Fin 1) :
    meanCol y (ix3 b s z) = Cert.Spec.mean (fun k => y (ix3 b s k)) := by
  unfold meanCol
  show Ideal.div (broadcastInDim S4x2048x1 ![0, 1] bcast_S4x2048_S4x2048x1_0_1
      (Host.reduceAdd y (constant (F := Ideal) S_ .f32 0x00000000#32) reducesTo_S4x2048x128_S4x2048_d2 h_S_) (ix3 b s z))
      (Ideal.ofBits .f32 0x43000000#32) = _
  rw [broadcastInDim_apply ![0, 1] bcast_S4x2048_S4x2048x1_0_1 _ (ix3 b s z) (ix2 b s)
    (fun a => by match a with | ⟨0, _⟩ => rfl | ⟨1, _⟩ => rfl)]
  show Ideal.div (Ideal.hostReduceAdd reducesTo_S4x2048x128_S4x2048_d2 y (Ideal.ofBits .f32 0x00000000#32) (ix2 b s))
      (Ideal.ofBits .f32 0x43000000#32) = _
  rw [Ideal.hostReduceAdd_single reducesTo_S4x2048x128_S4x2048_d2 (by decide : S4x2048x128.Reduces [2] S4x2048),
    Ideal.ofBits_zero_f32, zero_add]
  unfold Cert.Spec.mean Cert.Spec.c128
  refine congrArg (fun t => Ideal.div t _) ?_
  exact Finset.sum_congr rfl (fun k _ => congrArg y (lift_last _ b s k))

theorem centred_apply (y : FVec Ideal S4x2048x128 .f32) (b : Fin 4) (s : Fin 2048) (k : Fin 128) :
    centred y (ix3 b s k) = y (ix3 b s k) - Cert.Spec.mean (fun k' => y (ix3 b s k')) := by
  unfold centred
  rw [subf_apply, broadcastInDim_apply ![0, 1, 2] bcast_S4x2048x1_S4x2048x128_0_1_2 _ (ix3 b s k) (ix3 b s (0 : Fin 1))
    (fun a => by match a with | ⟨0, _⟩ => rfl | ⟨1, _⟩ => rfl | ⟨2, _⟩ => rfl), meanCol_apply]

theorem perEntry_apply (g : FVec Ideal S128 .f32) (b : Fin 4) (s : Fin 2048) (k : Fin 128) :
    perEntry g (ix3 b s k) = g (ix1 k) := by
  unfold perEntry
  rw [broadcastInDim_apply ![0, 1, 2] bcast_S1x1x128_S4x2048x128_0_1_2 _ (ix3 b s k) (ix3 (0 : Fin 1) (0 : Fin 1) k)
    (fun a => by match a with | ⟨0, _⟩ => rfl | ⟨1, _⟩ => rfl | ⟨2, _⟩ => rfl)]
  rw [broadcastInDim_apply ![2] bcast_S128_S1x1x128_2 _ (ix3 (0 : Fin 1) (0 : Fin 1) k) (ix1 k)
    (fun a => by match a with | ⟨0, _⟩ => rfl)]

/-- The composed term read at `(b, s, k)`, over any array `y` in the embedding's place: the row `y (b, s, ·)`
    normalised as the reference does. -/
theorem norm_apply (y : FVec Ideal S4x2048x128 .f32) (g be : FVec Ideal S128 .f32) (b : Fin 4) (s : Fin 2048) (k : Fin 128) :
    addf (mulf (Host.divf (centred y)
        (broadcastInDim S4x2048x128 ![0, 1, 2] bcast_S4x2048x1_S4x2048x128_0_1_2
          (Host.sqrt (addf (meanCol (mulf (centred y) (centred y)))
            (broadcastInDim S4x2048x1 ![] bcast_S_S4x2048x1 (constant (F := Ideal) S_ .f32 0x33D6BF95#32))))))
      (perEntry g)) (perEntry be) (ix3 b s k)
      = Cert.Spec.refRow (fun k' => y (ix3 b s k')) (fun k' => g (ix1 k')) (fun k' => be (ix1 k')) k := by
  rw [addf_apply, mulf_apply, perEntry_apply, perEntry_apply]
  show Ideal.div (centred y (ix3 b s k)) (broadcastInDim S4x2048x128 ![0, 1, 2] bcast_S4x2048x1_S4x2048x128_0_1_2
      (Host.sqrt (addf (meanCol (mulf (centred y) (centred y)))
        (broadcastInDim S4x2048x1 ![] bcast_S_S4x2048x1 (constant (F := Ideal) S_ .f32 0x33D6BF95#32)))) (ix3 b s k))
      * g (ix1 k) + be (ix1 k) = _
  rw [broadcastInDim_apply ![0, 1, 2] bcast_S4x2048x1_S4x2048x128_0_1_2 _ (ix3 b s k) (ix3 b s (0 : Fin 1))
    (fun a => by match a with | ⟨0, _⟩ => rfl | ⟨1, _⟩ => rfl | ⟨2, _⟩ => rfl)]
  show Ideal.div (centred y (ix3 b s k)) (Ideal.sqrt (meanCol (mulf (centred y) (centred y)) (ix3 b s (0 : Fin 1))
      + Ideal.ofBits .f32 0x33D6BF95#32)) * g (ix1 k) + be (ix1 k) = _
  rw [meanCol_apply, centred_apply]
  have e : (fun k' => mulf (centred y) (centred y) (ix3 b s k'))
      = fun k' => (y (ix3 b s k') - Cert.Spec.mean (fun k'' => y (ix3 b s k'')))
          * (y (ix3 b s k') - Cert.Spec.mean (fun k'' => y (ix3 b s k''))) := by
    funext k'; rw [mulf_apply, centred_apply]
  rw [e]
  rfl

/-! ## The term is the specification -/

theorem refTerm_eq_Gref (ids : IVec S4x2048 32) (wt : FVec Ideal S1000000x128 .f32) (pos : FVec Ideal S2048x128 .f32)
    (tt : FVec Ideal S2x128 .f32) (g be : FVec Ideal S128 .f32) (hids : ∀ j, (ids j).toNat < 1000000) :
    refTerm ids wt pos tt g be = Cert.Spec.Gref ids wt pos tt g be := by
  funext j
  obtain ⟨b, s, k, rfl⟩ : ∃ (b : Fin 4) (s : Fin 2048) (k : Fin 128), j = ix3 b s k := ⟨j 0, j 1, j 2, eq_ix3 j⟩
  refine (norm_apply (embed ids wt pos tt) g be b s k).trans ?_
  rw [show (fun k' => embed ids wt pos tt (ix3 b s k')) = fun k' => Cert.Spec.embRef ids wt pos tt b s k' from
    funext fun k' => embed_apply ids wt pos tt hids b s k']
  rfl

/-- Every weakly fair execution of the reference, from a memory whose index words all name rows of the word table,
    terminates with its result the specification's `Gref` of the arguments and the arguments unchanged. -/
theorem run (m' : (ℓ : Loc nD τ sig) → Buf (Elt Ideal) ℓ) (g' : Dev nD → PrngReg)
    (hids : ∀ (c : Dev nD) (j), (m' ((c.tc : Thread nD τ).loc main_arg0) j).toNat < 1000000) :
    θ_run (defs (F := Ideal)) (onTc (τ := τ) (main (F := Ideal))) ⟨m', fun _ => 0, g'⟩ (fun r => ∀ c : Dev nD,
      r.2.mem ((c.tc : Thread nD τ).loc main_v32)
          = Cert.Spec.Gref (m' ((c.tc : Thread nD τ).loc main_arg0)) (m' ((c.tc : Thread nD τ).loc main_arg1)) (m' ((c.tc : Thread nD τ).loc main_arg2))
              (m' ((c.tc : Thread nD τ).loc main_arg3)) (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run (defs (F := Ideal)) _ _).mono
    (fun _ h c => ⟨(h c).1.trans (refTerm_eq_Gref _ _ _ _ _ _ (hids c)), (h c).2⟩) (run_term m' g')

end Cert.RefSide

end
-- ==== Proof.Algebra.lean ====
/-
  The two arrangements of the normalised row agree where the row's entries are real numbers.

  The kernel multiplies the deviation from the mean by the reciprocal root of `σ² + ε`; the reference divides it by the
  square root. On the extended reals the two differ only at corners (`σ² + ε` zero, negative or infinite). For a row of
  real numbers the mean `μ` is real (the divisor is the real 128), every deviation `x k − μ` is real, the mean squared
  deviation `σ²` is a nonnegative real and `ε` a positive one, so `v = σ² + ε` is a positive real: the square root is the
  positive real `√v`, the reciprocal root is `(√v)⁻¹`, and dividing by `√v` is multiplying by `(√v)⁻¹`. The scale and
  the shift are the same factor and the same summand on both sides and need not be finite.

  The embeddings differ by the order of two summands only.
-/
import proofs.«203468_g17523466567843_cont_7to1_1283_23_alg».proof.Proof.Spec

noncomputable section

namespace Cert.Algebra

open Idealize.ShloMosaic Idealize.ShloMosaic.ValueIdx Cert.Spec

/-! ## The two words -/

/-- The divisor word denotes the real `128`. -/
theorem c128_eq : c128 = ((128 : ℝ) : EReal) := by
  simp [c128, Ideal.ofBits, Ideal.ieee, -EReal.coe_mul]; norm_num

/-- The stabiliser word denotes a positive real (`14073749 · 2⁻⁴⁷`; only its sign is used). -/
theorem ceps_pos : ∃ e : ℝ, 0 < e ∧ ceps = (e : EReal) := by
  refine ⟨14073749 * (2 : ℝ) ^ (-47 : ℤ), by positivity, ?_⟩
  simp [ceps, Ideal.ofBits, Ideal.ieee, -EReal.coe_mul]

/-! ## Sums and means of real rows -/

/-- A finite sum of real numbers, taken in the extended reals, is the real sum. -/
theorem coe_sum {ι : Type} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- The mean of a real row is the real sum times `1 / 128`. -/
theorem mean_coe (r : Fin 128 → ℝ) : mean (fun k => (r k : EReal)) = (((∑ k, r k) * (1 / 128) : ℝ) : EReal) := by
  unfold mean
  rw [c128_eq, Ideal.div_coe (by norm_num : (128 : ℝ) ≠ 0), coe_sum, ← EReal.coe_mul]

/-- The mean of a real row is a real. -/
theorem mean_real (r : Fin 128 → ℝ) : ∃ μ : ℝ, mean (fun k => (r k : EReal)) = (μ : EReal) := ⟨_, mean_coe r⟩

/-- The mean of the squares of a real row is a nonnegative real. -/
theorem meansq_real (d : Fin 128 → ℝ) :
    ∃ V : ℝ, 0 ≤ V ∧ mean (fun k => (d k : EReal) * (d k : EReal)) = (V : EReal) := by
  refine ⟨(∑ k, d k * d k) * (1 / 128),
    mul_nonneg (Finset.sum_nonneg fun k _ => mul_self_nonneg (d k)) (by norm_num), ?_⟩
  simp only [← EReal.coe_mul]
  exact mean_coe fun k => d k * d k

/-! ## The rows -/

/-- On a row of real numbers, dividing the deviation by the square root and multiplying it by the reciprocal root
    give the same normalised row. -/
theorem refRow_eq_lnRow (x g b : Fin 128 → EReal) (hx : ∀ k, ∃ r : ℝ, x k = (r : EReal)) :
    refRow x g b = lnRow x g b := by
  choose r hr using hx
  obtain rfl : x = fun k => (r k : EReal) := funext hr
  obtain ⟨e, he, hceps⟩ := ceps_pos
  obtain ⟨μ, hμ⟩ := mean_real r
  obtain ⟨V, hV0, hV⟩ := meansq_real fun k => r k - μ
  have hpos : 0 < V + e := by linarith
  funext k
  unfold refRow lnRow
  simp only [hμ, ← EReal.coe_sub]
  rw [hV, hceps, ← EReal.coe_add, Ideal.sqrt_coe, Ideal.rsqrt_coe, if_neg (not_lt.2 hpos.le),
    if_neg (not_lt.2 hpos.le), if_neg hpos.ne', Ideal.div_coe (Real.sqrt_pos.2 hpos).ne', one_div]

/-! ## The whole arrays -/

/-- The reference's array is the kernel's, where the three float tables are real: the embeddings are the same sum in
    another order, a real number at every entry, and the normalised rows agree on real rows. -/
theorem Gref_eq_G (ids : (⟨2, ![4, 2048]⟩ : Shape).Idx → BitVec 32) (wt : (⟨2, ![1000000, 128]⟩ : Shape).Idx → EReal)
    (pos : (⟨2, ![2048, 128]⟩ : Shape).Idx → EReal) (tt : (⟨2, ![2, 128]⟩ : Shape).Idx → EReal)
    (g be : (⟨1, ![128]⟩ : Shape).Idx → EReal)
    (hwt : ∀ j, ∃ r : ℝ, wt j = (r : EReal)) (hpos : ∀ j, ∃ r : ℝ, pos j = (r : EReal))
    (htt : ∀ j, ∃ r : ℝ, tt j = (r : EReal)) :
    Gref ids wt pos tt g be = G ids wt pos tt g be := by
  funext j
  show outRef ids wt pos tt g be (j 0) (j 1) (j 2) = out ids wt pos tt g be (j 0) (j 1) (j 2)
  unfold outRef out
  have hx : ∀ k, ∃ r : ℝ, embRef ids wt pos tt (j 0) (j 1) k = (r : EReal) := by
    intro k
    obtain ⟨a, ha⟩ := hwt (ix2 (rowOf (ids (ix2 (j 0) (j 1)))) k)
    obtain ⟨c, hc⟩ := htt (ix2 (0 : Fin 2) k)
    obtain ⟨p, hp⟩ := hpos (ix2 (j 1) k)
    refine ⟨a + c + p, ?_⟩
    unfold embRef
    rw [ha, hc, hp, EReal.coe_add, EReal.coe_add]
  have he : (fun k' => embRef ids wt pos tt (j 0) (j 1) k') = fun k' => emb ids wt pos tt (j 0) (j 1) k' := by
    funext k'
    unfold embRef emb
    exact add_right_comm _ _ _
  rw [refRow_eq_lnRow _ _ _ hx]
  exact congrArg (fun x => lnRow x (fun k' => g (ix1 k')) (fun k' => be (ix1 k')) (j 2)) he

end Cert.Algebra

end
-- ==== Proof.PreDecode.lean ====
/-
  What the certificate's precondition says of the argument arrays.

  The precondition is the conjunction of six reductions by "and" to one bit: for each of the five float arrays, that
  every entry's absolute value is below the word of `+∞`; for the index array, that every index word, read signed, is
  at least 0 and at most 999999. A conjunction that is 1 has every conjunct 1, and a reduction by "and" over all axes
  that is 1 met a 1 at every entry. On the extended reals an entry whose absolute value `max x (−x)` is below `+∞` is
  neither infinity, so it is a real number. A 32-bit word that is nonnegative read signed reads the same unsigned, so
  an index word at most 999999 is, as a natural number, below 1000000.
-/
import proofs.«203468_g17523466567843_cont_7to1_1283_23_alg».proof.Pre_input_domain
import proofs.«203468_g17523466567843_cont_7to1_1283_23_alg».proof.Proof.Gen.Pre_input_domain
import Idealize.ShloMosaic.Lib.ReduceAll
import Idealize.ShloMosaic.Lib.ValueIdx
import Idealize.ShloMosaic.PureOps.Ideal

noncomputable section

namespace Cert.PreDecode

open Idealize.ShloMosaic Idealize.ShloMosaic.ValueIdx Cert.Pre_input_domain

/-- The scalar shape has one index. -/
instance idx0_subsingleton : Subsingleton S_.Idx := ⟨fun _ _ => funext fun d => d.elim0⟩

/-- An entrywise "and" that is 1 at an index has both operands 1 there. -/
theorem vand_eq_one {s : Shape} (a b : IVec s 1) (i : s.Idx) (e : andi a b i = 1#1) : a i = 1#1 ∧ b i = 1#1 :=
  IntOp.andi_eq_one.1 e

/-- The precondition entry by entry: each float entry's absolute value compares below the word `0x7F800000`, and each
    index word compares at least 0 and at most 999999, signed. -/
theorem entries {F : FTy → Type} [FloatOps F] [Cert.Pre_input_domain.Facts] (ids : IVec S4x2048 32)
    (wt : FVec F S1000000x128 .f32) (pos : FVec F S2048x128 .f32) (tt : FVec F S2x128 .f32) (g b : FVec F S128 .f32)
    (h : Cert.Pre_input_domain.fn (F := F) ids wt pos tt g b = fun _ => 1#1) :
    (∀ j, FloatOps.cmpf .olt (FloatOps.hostAbsf (wt j)) (FloatOps.ofBits (F := F) .f32 0x7F800000#32) = 1#1) ∧
    (∀ j, FloatOps.cmpf .olt (FloatOps.hostAbsf (pos j)) (FloatOps.ofBits (F := F) .f32 0x7F800000#32) = 1#1) ∧
    (∀ j, FloatOps.cmpf .olt (FloatOps.hostAbsf (tt j)) (FloatOps.ofBits (F := F) .f32 0x7F800000#32) = 1#1) ∧
    (∀ j, FloatOps.cmpf .olt (FloatOps.hostAbsf (g j)) (FloatOps.ofBits (F := F) .f32 0x7F800000#32) = 1#1) ∧
    (∀ j, FloatOps.cmpf .olt (FloatOps.hostAbsf (b j)) (FloatOps.ofBits (F := F) .f32 0x7F800000#32) = 1#1) ∧
    (∀ j, IntOp.andi (IntOp.cmpi .sge (ids j) 0#32) (IntOp.cmpi .sle (ids j) 999999#32) = 1#1) := by
  have e := congrFun h ix0
  dsimp only [Cert.Pre_input_domain.fn, Cert.Pre_input_domain.fn_part1] at e
  obtain ⟨e, hids⟩ := vand_eq_one _ _ _ e
  obtain ⟨e, hb⟩ := vand_eq_one _ _ _ e
  obtain ⟨e, hg⟩ := vand_eq_one _ _ _ e
  obtain ⟨e, htt⟩ := vand_eq_one _ _ _ e
  obtain ⟨hwt, hpos⟩ := vand_eq_one _ _ _ e
  have awt := Host.reduce_andi_all _ _ _ _ _ hwt
  have apos := Host.reduce_andi_all _ _ _ _ _ hpos
  have att := Host.reduce_andi_all _ _ _ _ _ htt
  have ag := Host.reduce_andi_all _ _ _ _ _ hg
  have ab := Host.reduce_andi_all _ _ _ _ _ hb
  have aids := Host.reduce_andi_all _ _ _ _ _ hids
  exact ⟨awt, apos, att, ag, ab, aids⟩

/-- A word at least 0 and at most 999999, read signed, is below 1000000 read unsigned. -/
theorem lt_of_range (v : BitVec 32) (e : IntOp.andi (IntOp.cmpi .sge v 0#32) (IntOp.cmpi .sle v 999999#32) = 1#1) :
    v.toNat < 1000000 := by
  obtain ⟨h0, h1⟩ := IntOp.andi_eq_one.1 e
  rw [IntOp.cmpi_sge, show (0#32 : BitVec 32).toInt = 0 from by decide] at h0
  rw [IntOp.cmpi_sle, show (999999#32 : BitVec 32).toInt = 999999 from by decide] at h1
  have hv : 2 * v.toNat < 2 ^ 32 := BitVec.toInt_pos_iff.1 h0
  rw [BitVec.toInt_eq_toNat_of_lt hv] at h1
  omega

/-- Under the precondition every index word names a row of the word table. -/
theorem ids_lt {F : FTy → Type} [FloatOps F] [Cert.Pre_input_domain.Facts] (ids : IVec S4x2048 32)
    (wt : FVec F S1000000x128 .f32) (pos : FVec F S2048x128 .f32) (tt : FVec F S2x128 .f32) (g b : FVec F S128 .f32)
    (h : Cert.Pre_input_domain.fn (F := F) ids wt pos tt g b = fun _ => 1#1) : ∀ j, (ids j).toNat < 1000000 :=
  fun j => lt_of_range (ids j) ((entries ids wt pos tt g b h).2.2.2.2.2 j)

/-- The word `0x7F800000` denotes `+∞`. -/
theorem top_word : Ideal.ofBits .f32 0x7F800000#32 = ⊤ := by simp [Ideal.ofBits, Ideal.ieee]

/-- An extended real whose absolute value is below `+∞` is a real number. -/
theorem real_of_abs_lt (x : EReal) (e : Ideal.cmp .olt (max x (-x)) (Ideal.ofBits .f32 0x7F800000#32) = 1#1) :
    ∃ r : ℝ, x = (r : EReal) := by
  rw [top_word] at e
  induction x using EReal.rec with
  | bot => exact absurd e (by simp [Ideal.cmp])
  | coe r => exact ⟨r, rfl⟩
  | top => exact absurd e (by simp [Ideal.cmp])

/-- Under the precondition every entry of the five float arrays is a real number. -/
theorem finite [Cert.Pre_input_domain.Facts] (ids : IVec S4x2048 32) (wt : FVec Ideal S1000000x128 .f32)
    (pos : FVec Ideal S2048x128 .f32) (tt : FVec Ideal S2x128 .f32) (g b : FVec Ideal S128 .f32)
    (h : Cert.Pre_input_domain.fn (F := Ideal) ids wt pos tt g b = fun _ => 1#1) :
    (∀ j, ∃ r : ℝ, wt j = (r : EReal)) ∧ (∀ j, ∃ r : ℝ, pos j = (r : EReal)) ∧ (∀ j, ∃ r : ℝ, tt j = (r : EReal)) ∧
      (∀ j, ∃ r : ℝ, g j = (r : EReal)) ∧ (∀ j, ∃ r : ℝ, b j = (r : EReal)) := by
  obtain ⟨awt, apos, att, ag, ab, -⟩ := entries ids wt pos tt g b h
  exact ⟨fun j => real_of_abs_lt _ (awt j), fun j => real_of_abs_lt _ (apos j), fun j => real_of_abs_lt _ (att j),
    fun j => real_of_abs_lt _ (ag j), fun j => real_of_abs_lt _ (ab j)⟩

end Cert.PreDecode

end
-- ==== Proof.Claims.lean ====
/-
  The five claims assembled. The kernel's program first gathers, for every token, the row of the word table its index
  names; then one TensorCore kernel adds the position row and token-type row 0 and normalises each row of 128. Its frame
  is the run of those threads with the values dropped. At the extended reals the kernel's result is the specification
  `Cert.Spec.G` of the argument arrays, and so is the reference's: its own arrangement (the token-type row added before the
  position row; a division by the square root where the kernel multiplies by the reciprocal root) agrees with the
  kernel's where the tables' entries are real numbers, which the precondition says. The index words' range, also the
  precondition's, is what lets every gather's transfer issue.
-/
import proofs.«203468_g17523466567843_cont_7to1_1283_23_alg».proof.Defs
import proofs.«203468_g17523466567843_cont_7to1_1283_23_alg».proof.Proof.ScMain
import proofs.«203468_g17523466567843_cont_7to1_1283_23_alg».proof.Proof.ScMainK
import proofs.«203468_g17523466567843_cont_7to1_1283_23_alg».proof.Proof.KernelValue
import proofs.«203468_g17523466567843_cont_7to1_1283_23_alg».proof.Proof.RefValue
import proofs.«203468_g17523466567843_cont_7to1_1283_23_alg».proof.Proof.Algebra
import proofs.«203468_g17523466567843_cont_7to1_1283_23_alg».proof.Proof.PreDecode
import proofs.«203468_g17523466567843_cont_7to1_1283_23_alg».proof.Proof.Gen.Kernel
import proofs.«203468_g17523466567843_cont_7to1_1283_23_alg».proof.Proof.Gen.KernelIdeal
import proofs.«203468_g17523466567843_cont_7to1_1283_23_alg».proof.Proof.Gen.ReferenceIdeal
import proofs.«203468_g17523466567843_cont_7to1_1283_23_alg».proof.Proof.Gen.Pre_input_domain

noncomputable section

namespace Cert.Proof.Claims

open Idealize.ShloMosaic Idealize.ShloMosaic.TcCoe Idealize.SL.Sem

/-- The precondition bounds every index word of the kernel's program by the table's row count, -/
theorem preOK_K (m : (ℓ : Loc Cert.Kernel.nD Cert.Kernel.τ Cert.Kernel.sig) → Buf (Elt Bits) ℓ) (h : Cert.Pre_Kernel m) :
    Cert.ScTileK.PreOK (F := Bits) m := fun d j => Cert.PreDecode.ids_lt (F := Bits) _ _ _ _ _ _ (h d) j
/-- of its idealization, -/
theorem preOK_KI (m : (ℓ : Loc Cert.KernelIdeal.nD Cert.KernelIdeal.τ Cert.KernelIdeal.sig) → Buf (Elt Ideal) ℓ) (h : Cert.Pre_KernelIdeal m) :
    Cert.ScTile.PreOK (F := Ideal) m := fun d j => Cert.PreDecode.ids_lt (F := Ideal) _ _ _ _ _ _ (h d) j

theorem frame_K : Cert.frame_Kernel := fun m ρ hpre =>
  (θ_run _ _ _).mono (fun _ h c => (h c).2) (Cert.ScTileK.run_claims (F := Bits) m ρ (preOK_K m hpre))

theorem frame_KI : Cert.frame_KernelIdeal := fun m ρ hpre =>
  (θ_run _ _ _).mono (fun _ h c => (h c).2) (Cert.ScTile.run_claims (F := Ideal) m ρ (preOK_KI m hpre))

theorem frame_RI : Cert.frame_ReferenceIdeal := fun m ρ hpre =>
  (θ_run Cert.ReferenceIdeal.defs _ _).mono (fun _ h c => (h c).2)
    (Cert.RefSide.run m ρ fun c j => Cert.PreDecode.ids_lt (F := Ideal) _ _ _ _ _ _ (hpre c) j)

theorem preserves : Cert.preserves_Kernel_KernelIdeal := trivial

theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run _ _ _).mono (fun _ h c => ⟨(h c).1.trans (Cert.KernelValue.G5_eq_G m _ c), (h c).2⟩)
      (Cert.ScTile.run_claims (F := Ideal) m ρ (preOK_KI m hpre))
  · refine (θ_run Cert.ReferenceIdeal.defs _ _).mono (fun _ h c => ⟨(h c).1.trans ?_, (h c).2⟩)
      (Cert.RefSide.run m' ρ' fun c j => by
        rw [(hagree c).1]; exact Cert.PreDecode.ids_lt (F := Ideal) _ _ _ _ _ _ (hpre c) j)
    obtain ⟨hwt, hpos, htt, -, -⟩ := Cert.PreDecode.finite _ _ _ _ _ _ (hpre c)
    rw [(hagree c).1, (hagree c).2.1, (hagree c).2.2.1, (hagree c).2.2.2.1, (hagree c).2.2.2.2.1, (hagree c).2.2.2.2.2]
    exact Cert.Algebra.Gref_eq_G _ _ _ _ _ _ hwt hpos htt

end Cert.Proof.Claims

end
-- ==== Proof.lean ====
/-
  The certificate's claim: the three frames, the idealization's ledger (empty) and the agreement of the idealized kernel
  with the idealized reference on the extended reals, from the modules under Proof/.
-/
import proofs.«203468_g17523466567843_cont_7to1_1283_23_alg».proof.Defs
import proofs.«203468_g17523466567843_cont_7to1_1283_23_alg».proof.Proof.Claims

noncomputable section

namespace Cert.Proof

theorem claim : Cert.Claim :=
  ⟨Cert.Kernel.Gen.facts, Cert.KernelIdeal.Gen.facts, Cert.ReferenceIdeal.Gen.facts, Cert.Pre_input_domain.Gen.facts,
    Claims.frame_K, Claims.frame_KI, Claims.frame_RI, Claims.preserves, Claims.algebraic⟩

end Cert.Proof

end
